-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096x4096 .f32) (main_arg3 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S1024x1024 : Shape := ⟨2, ![1024, 1024]⟩

abbrev nBuf : Space → Nat
  | .hbm => 12
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8192x4096, .f32⟩
  | .hbm, ⟨5, _⟩ => ⟨S8192x4096, .bf16⟩
  | .hbm, ⟨6, _⟩ => ⟨S4096x4096, .bf16⟩
  | .hbm, ⟨7, _⟩ => ⟨S4096x4096, .bf16⟩
  | .hbm, ⟨8, _⟩ => ⟨S4096x4096, .bf16⟩
  | .hbm, ⟨9, _⟩ => ⟨S8192x4096, .bf16⟩
  | .hbm, ⟨10, _⟩ => ⟨S8192x4096, .f32⟩
  | .hbm, ⟨11, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S4x2048x4096_S8192x4096 : S4x2048x4096.ShapeCasts S8192x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .bf16 = 32 ∨ (Rect.block (s := S8192x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x4096.size a
  hwx1_2 : ∀ i : grid1.Coords, EltTy.bits .f32 = 32 ∨ (Rect.block (s := S8192x4096) S1024x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4x2048x4096, .bf16⟩
  | .hbm, ⟨5, _⟩ => ⟨S4x2048x4096, .f32⟩
  | .hbm, ⟨6, _⟩ => ⟨S4096x4096, .bf16⟩
  | .hbm, ⟨7, _⟩ => ⟨S4096x4096, .f32⟩
  | .hbm, ⟨8, _⟩ => ⟨S4x2048x4096, .f32⟩
  | .hbm, ⟨9, _⟩ => ⟨S4x2048x4096, .bf16⟩
  | .hbm, ⟨10, _⟩ => ⟨S4x2048x4096, .f32⟩
  | .hbm, ⟨11, _⟩ => ⟨S4x2048x4096, .bf16⟩
  | .hbm, ⟨12, _⟩ => ⟨S4x2048x4096, .f32⟩
  | .hbm, ⟨13, _⟩ => ⟨S4096x4096, .bf16⟩
  | .hbm, ⟨14, _⟩ => ⟨S4096x4096, .f32⟩
  | .hbm, ⟨15, _⟩ => ⟨S4x2048x4096, .f32⟩
  | .hbm, ⟨16, _⟩ => ⟨S4x2048x4096, .bf16⟩
  | .hbm, ⟨17, _⟩ => ⟨S4x2048x4096, .f32⟩
  | .hbm, ⟨18, _⟩ => ⟨S4x2048x4096, .bf16⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S4x2048x4096, .bf16⟩
  | .hbm, ⟨23, _⟩ => ⟨S4x2048x4096, .f32⟩
  | .hbm, ⟨24, _⟩ => ⟨S_, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S_, .f32⟩
  | .hbm, ⟨29, _⟩ => ⟨S4x2048x4096, .f32⟩
  | .hbm, ⟨30, _⟩ => ⟨S4x2048x4096, .f32⟩
  | .hbm, ⟨31, _⟩ => ⟨S4x2048x4096, .bf16⟩
  | .hbm, ⟨32, _⟩ => ⟨S4x2048x4096, .f32⟩
  | .hbm, ⟨33, _⟩ => ⟨S4x2048x4096, .f32⟩
  | .hbm, ⟨34, _⟩ => ⟨S4x2048x4096, .bf16⟩
  | .hbm, ⟨35, _⟩ => ⟨S4x2048x4096, .f32⟩
  | .hbm, ⟨36, _⟩ => ⟨S_, .f32⟩
  | .hbm, ⟨37, _⟩ => ⟨S4x2048x4096, .f32⟩
  | .hbm, ⟨38, _⟩ => ⟨S4x2048x4096, .f32⟩
  | .hbm, ⟨39, _⟩ => ⟨S_, .f32⟩
  | .hbm, ⟨40, _⟩ => ⟨S4x2048x4096, .f32⟩
  | .hbm, ⟨41, _⟩ => ⟨S4x2048x4096, .f32⟩
  | .hbm, ⟨42, _⟩ => ⟨S4x2048x4096, .f32⟩
  | .hbm, ⟨43, _⟩ => ⟨S4x2048x4096, .bf16⟩
  | .hbm, ⟨44, _⟩ => ⟨S4x2048x4096, .f32⟩
  | .hbm, ⟨45, _⟩ => ⟨S4x2048x4096, .bf16⟩
  | .hbm, ⟨46, _⟩ => ⟨S4x2048x4096, .f32⟩
  | .hbm, ⟨47, _⟩ => ⟨S4x2048x4096, .bf16⟩
  | .hbm, ⟨48, _⟩ => ⟨S4x2048x4096, .f32⟩
  | .hbm, ⟨49, _⟩ => ⟨S4x2048x4096, .f32⟩
  | .hbm, ⟨50, _⟩ => ⟨S4x2048x4096, .bf16⟩
  | .hbm, ⟨51, _⟩ => ⟨S4x2048x4096, .f32⟩
  | .hbm, ⟨52, _⟩ => ⟨S4x2048x4096, .bf16⟩
  | .hbm, ⟨53, _⟩ => ⟨S4x2048x4096, .f32⟩
  | .hbm, ⟨54, _⟩ => ⟨S4096x4096, .bf16⟩
  | .hbm, ⟨55, _⟩ => ⟨S4096x4096, .f32⟩
  | .hbm, ⟨56, _⟩ => ⟨S4x2048x4096, .f32⟩
  | .hbm, ⟨57, _⟩ => ⟨S4x2048x4096, .bf16⟩
  | .hbm, ⟨58, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩

abbrev nD : Nat := 1
abbrev τ : Topo := Topo.v7x

variable {F : FTy → Type} [FloatOps F]

class Facts₀ : Prop where
  bitsLt_bf16_f32 : FTy.bits .bf16 < FTy.bits .f32
  bcast_S_S4x2048x4096 : S_.BroadcastsInDim S4x2048x4096 (![] : Fin 0 → Fin S4x2048x4096.rank)
  dot_S4x2048x4096_S4096x4096_S4x2048x4096_2_0_01_1_n_n_wf : DotDims.WF S4x2048x4096 S4096x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.K.Base.lean ====
/-
  The two matmul-style kernels of this program share one shape: a grid of 8 × 4 × 4 points whose last coordinate k
  walks the contraction in four blocks of 1024; a scratch accumulator is zeroed where k = 0, gains one block
  product at every point, and is read out into the output block where k = 3. This module fixes, for both kernels,
  what the body's two conditionals are as propositions about the point (k = 0, k = 3: decided over the 128 points),
  where the output window is idle and where it is written back, the memrefs the body is called with, and the
  region invariant of the class with the accumulators named.
-/
import proofs.«163618_j42142219108650_2_alg».proof.Proof.Gen.Kernel.Launch
import proofs.«163618_j42142219108650_2_alg».proof.Proof.Gen.Kernel.Skeleton
import proofs.«163618_j42142219108650_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel (gate and up projections, gated activation) -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-- The body's first conditional (zero the accumulators): the contraction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The body's second conditional (read the accumulators out): the contraction coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the contraction is not at its last block the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- One staging buffer of the output window, through which its contents are stated. -/
abbrev VO0_3 : View sig .tc .vmem S1024x1024 .bf16 := (Memref.whole cc0_stg3_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S1024x1024 .f32 := Memref.whole cc0_scratch0
abbrev scM0_1 : Memref sig .tc .vmem S1024x1024 .f32 := Memref.whole cc0_scratch1
abbrev VS0_0 : View sig .tc .vmem S1024x1024 .f32 := scM0_0.view
abbrev VS0_1 : View sig .tc .vmem S1024x1024 .f32 := scM0_1.view

/-- The scoped buffers that are neither this kernel's staging buffers nor its accumulators (the second kernel's), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class's region invariant with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

/-! ## The second kernel (down projection) -/

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev VO1_2 : View sig .tc .vmem S1024x1024 .f32 := (Memref.whole cc1_stg2_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev scM1_0 : Memref sig .tc .vmem S1024x1024 .f32 := Memref.whole cc1_scratch0
abbrev VS1_0 : View sig .tc .vmem S1024x1024 .f32 := scM1_0.view

/-- The scoped buffers that are neither this kernel's staging buffers nor its accumulator (the first kernel's), each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The same chain continued by one more conjunct `T` (the accumulator's place: it comes last among the core's scoped buffers). -/
def chain1 (c : Dev nD) (T : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ T)

/-- The last conjunct taken out of the chain, -/
theorem chain1_out (c : Dev nD) (T : sProp 𝕄) : chain1 c T ⊢ iprop(T ∗ others1 c) := by
  unfold chain1 others1
  iintro ⟨H0, H1, H2, H3, H4, H5, H6, H7, H8, H9, HT⟩
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- and put back. -/
theorem chain1_in (c : Dev nD) (T : sProp 𝕄) : iprop(T ∗ others1 c) ⊢ chain1 c T := by
  unfold chain1 others1
  iintro ⟨HT, H0, H1, H2, H3, H4, H5, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HT

/-- The class's invariant for the second kernel, its accumulator as a memref owned at some contents. -/
theorem PhiA1_eq (c : Dev nD) :
    (Pipeline.ΦA spec1 c : sProp 𝕄)
      = iprop(chain1 c iprop(∃ d, owns (c : Thread nD τ) scM1_0 fullShare d) ∗ (∃ r, prngReg c r)) := by
  unfold Pipeline.ΦA chain1; rw [scopedRest1_eq]; simp only [scM1_0, owns_whole]; try rfl

end Cert.Kernel.Hand

end
-- ==== Proof.K.R0A.lean ====
/-
  The first kernel's body where the contraction starts (k = 0): both accumulators are zeroed, then each gains its first block product; the output block is not touched.
-/
import proofs.«163618_j42142219108650_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on whole memrefs: the three input blocks at their contents and handed back as they were; the accumulators
    at anything, left with the pieces the stores wrote; the output block handed back untouched. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x1024 .bf16) (x1 : Vec F S1024x1024 .bf16) (x2 : Vec F S1024x1024 .bf16) :
    Σ' (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8) K } := by
  refine ⟨?_, ?_, fun xi3 E K => ?run⟩
  case run =>
    simp only [cc0__gateup_kernel_eq_skeleton]; unfold cc0__gateup_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.K.R0B.lean ====
/-
  The first kernel's body in the middle of the contraction (0 < k < 3): each accumulator gains one block product; the output block is not touched.
-/
import proofs.«163618_j42142219108650_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on whole memrefs: the three input blocks at their contents and handed back as they were; the accumulators
    at the contents the point before left, left with the pieces the stores wrote; the output block handed back untouched. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x1024 .bf16) (x1 : Vec F S1024x1024 .bf16) (x2 : Vec F S1024x1024 .bf16) (xs0 : Vec F S1024x1024 .f32) (xs1 : Vec F S1024x1024 .f32) :
    Σ' (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8) K } := by
  refine ⟨?_, ?_, fun xi3 E K => ?run⟩
  case run =>
    simp only [cc0__gateup_kernel_eq_skeleton]; unfold cc0__gateup_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Hand

end
-- ==== Proof.K.R0C.lean ====
/-
  The first kernel's body at the contraction's last block (k = 3): each accumulator gains its last block product, and the gated activation of the two totals is stored into the output block.
-/
import proofs.«163618_j42142219108650_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on whole memrefs: the three input blocks at their contents and handed back as they were; the accumulators
    at the contents the point before left, left with the pieces the stores wrote; the output block at anything, left with the stored piece. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .bf16) (x1 : Vec F S1024x1024 .bf16) (x2 : Vec F S1024x1024 .bf16) (xs0 : Vec F S1024x1024 .f32) (xs1 : Vec F S1024x1024 .f32) :
    Σ' (L3 : List (View.Piece (Elt F) S1024x1024 .bf16)) (LS0 : List (View.Piece (Elt F) S1024x1024 .f32)), { LS1 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8) K } := by
  refine ⟨?_, ?_, ?_, fun E K => ?run⟩
  case run =>
    simp only [cc0__gateup_kernel_eq_skeleton]; unfold cc0__gateup_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.Kernel.Hand

end
-- ==== Proof.K.Reg0.lean ====
/-
  The first kernel over its 128 grid points. Point t has contraction block k = t mod 4. The two accumulators hold,
  after point t, the block products of blocks 0..k of the current output tile added up from zero (the first summand
  at k = 0 over freshly stored zeros); the output block is stored at k = 3 from the two totals and is idle elsewhere.
  This module names those contents point by point from the body's runs, states the region invariant that carries the
  accumulators from one point to the next, gives the pipeline's proof data at any entry contents `V`, and proves the
  body obligation at every point.
-/
import proofs.«163618_j42142219108650_2_alg».proof.Proof.K.R0A
import proofs.«163618_j42142219108650_2_alg».proof.Proof.K.R0B
import proofs.«163618_j42142219108650_2_alg».proof.Proof.K.R0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The runs at a grid point -/

/-- The run where k = 0, at point `t`'s memrefs. -/
abbrev runA0 (c : Dev nD) (t : Fin cfg0.N) (h0 : t.val % 4 = 0) (h1 : ¬t.val % 4 = 3) (x0 x1 x2 : Vec F S1024x1024 .bf16) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) x0 x1 x2
/-- The run where 0 < k < 3. -/
abbrev runB0 (c : Dev nD) (t : Fin cfg0.N) (h0 : ¬t.val % 4 = 0) (h1 : ¬t.val % 4 = 3) (x0 x1 x2 : Vec F S1024x1024 .bf16) (xs0 xs1 : Vec F S1024x1024 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) x0 x1 x2 xs0 xs1
/-- The run where k = 3. -/
abbrev runC0 (c : Dev nD) (t : Fin cfg0.N) (h0 : ¬t.val % 4 = 0) (h1 : t.val % 4 = 3) (x0 x1 x2 : Vec F S1024x1024 .bf16) (xs0 xs1 : Vec F S1024x1024 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) x0 x1 x2 xs0 xs1

/-! ## What each run leaves: its pieces read back, and that they cover the buffer -/

def accA0_0 (c : Dev nD) (t : Fin cfg0.N) (h0 : t.val % 4 = 0) (h1 : ¬t.val % 4 = 3) (x0 x1 x2 : Vec F S1024x1024 .bf16) : Vec F S1024x1024 .f32 :=
  VS0_0.read (Elt F) (VS0_0.writes (Elt F) VS0_0.junk (runA0 c t h0 h1 x0 x1 x2).1)
def accA0_1 (c : Dev nD) (t : Fin cfg0.N) (h0 : t.val % 4 = 0) (h1 : ¬t.val % 4 = 3) (x0 x1 x2 : Vec F S1024x1024 .bf16) : Vec F S1024x1024 .f32 :=
  VS0_1.read (Elt F) (VS0_1.writes (Elt F) VS0_1.junk (runA0 c t h0 h1 x0 x1 x2).2.1)
theorem coverA0_0 (c : Dev nD) (t : Fin cfg0.N) (h0 : t.val % 4 = 0) (h1 : ¬t.val % 4 = 3) (x0 x1 x2 : Vec F S1024x1024 .bf16) (y : S1024x1024.Idx) :
    ∃ pc ∈ (runA0 c t h0 h1 x0 x1 x2).1, y ∈ pc.1.set :=
  View.cover_of_tiledL (runA0 c t h0 h1 x0 x1 x2).1 S1024x1024.size (by sl_kernel_rfl) y
theorem coverA0_1 (c : Dev nD) (t : Fin cfg0.N) (h0 : t.val % 4 = 0) (h1 : ¬t.val % 4 = 3) (x0 x1 x2 : Vec F S1024x1024 .bf16) (y : S1024x1024.Idx) :
    ∃ pc ∈ (runA0 c t h0 h1 x0 x1 x2).2.1, y ∈ pc.1.set :=
  View.cover_of_tiledL (runA0 c t h0 h1 x0 x1 x2).2.1 S1024x1024.size (by sl_kernel_rfl) y

def accB0_0 (c : Dev nD) (t : Fin cfg0.N) (h0 : ¬t.val % 4 = 0) (h1 : ¬t.val % 4 = 3) (x0 x1 x2 : Vec F S1024x1024 .bf16) (xs0 xs1 : Vec F S1024x1024 .f32) : Vec F S1024x1024 .f32 :=
  VS0_0.read (Elt F) (VS0_0.writes (Elt F) VS0_0.junk (runB0 c t h0 h1 x0 x1 x2 xs0 xs1).1)
def accB0_1 (c : Dev nD) (t : Fin cfg0.N) (h0 : ¬t.val % 4 = 0) (h1 : ¬t.val % 4 = 3) (x0 x1 x2 : Vec F S1024x1024 .bf16) (xs0 xs1 : Vec F S1024x1024 .f32) : Vec F S1024x1024 .f32 :=
  VS0_1.read (Elt F) (VS0_1.writes (Elt F) VS0_1.junk (runB0 c t h0 h1 x0 x1 x2 xs0 xs1).2.1)
theorem coverB0_0 (c : Dev nD) (t : Fin cfg0.N) (h0 : ¬t.val % 4 = 0) (h1 : ¬t.val % 4 = 3) (x0 x1 x2 : Vec F S1024x1024 .bf16) (xs0 xs1 : Vec F S1024x1024 .f32) (y : S1024x1024.Idx) :
    ∃ pc ∈ (runB0 c t h0 h1 x0 x1 x2 xs0 xs1).1, y ∈ pc.1.set :=
  View.cover_of_tiledL (runB0 c t h0 h1 x0 x1 x2 xs0 xs1).1 S1024x1024.size (by sl_kernel_rfl) y
theorem coverB0_1 (c : Dev nD) (t : Fin cfg0.N) (h0 : ¬t.val % 4 = 0) (h1 : ¬t.val % 4 = 3) (x0 x1 x2 : Vec F S1024x1024 .bf16) (xs0 xs1 : Vec F S1024x1024 .f32) (y : S1024x1024.Idx) :
    ∃ pc ∈ (runB0 c t h0 h1 x0 x1 x2 xs0 xs1).2.1, y ∈ pc.1.set :=
  View.cover_of_tiledL (runB0 c t h0 h1 x0 x1 x2 xs0 xs1).2.1 S1024x1024.size (by sl_kernel_rfl) y

def outC0 (c : Dev nD) (t : Fin cfg0.N) (h0 : ¬t.val % 4 = 0) (h1 : t.val % 4 = 3) (x0 x1 x2 : Vec F S1024x1024 .bf16) (xs0 xs1 : Vec F S1024x1024 .f32) : Vec F S1024x1024 .bf16 :=
  VO0_3.read (Elt F) (VO0_3.writes (Elt F) VO0_3.junk (runC0 c t h0 h1 x0 x1 x2 xs0 xs1).1)
def accC0_0 (c : Dev nD) (t : Fin cfg0.N) (h0 : ¬t.val % 4 = 0) (h1 : t.val % 4 = 3) (x0 x1 x2 : Vec F S1024x1024 .bf16) (xs0 xs1 : Vec F S1024x1024 .f32) : Vec F S1024x1024 .f32 :=
  VS0_0.read (Elt F) (VS0_0.writes (Elt F) VS0_0.junk (runC0 c t h0 h1 x0 x1 x2 xs0 xs1).2.1)
def accC0_1 (c : Dev nD) (t : Fin cfg0.N) (h0 : ¬t.val % 4 = 0) (h1 : t.val % 4 = 3) (x0 x1 x2 : Vec F S1024x1024 .bf16) (xs0 xs1 : Vec F S1024x1024 .f32) : Vec F S1024x1024 .f32 :=
  VS0_1.read (Elt F) (VS0_1.writes (Elt F) VS0_1.junk (runC0 c t h0 h1 x0 x1 x2 xs0 xs1).2.2.1)
theorem coverC0_out (c : Dev nD) (t : Fin cfg0.N) (h0 : ¬t.val % 4 = 0) (h1 : t.val % 4 = 3) (x0 x1 x2 : Vec F S1024x1024 .bf16) (xs0 xs1 : Vec F S1024x1024 .f32) (y : S1024x1024.Idx) :
    ∃ pc ∈ (runC0 c t h0 h1 x0 x1 x2 xs0 xs1).1, y ∈ pc.1.set :=
  View.cover_of_tiledL (runC0 c t h0 h1 x0 x1 x2 xs0 xs1).1 S1024x1024.size (by sl_kernel_rfl) y
theorem coverC0_0 (c : Dev nD) (t : Fin cfg0.N) (h0 : ¬t.val % 4 = 0) (h1 : t.val % 4 = 3) (x0 x1 x2 : Vec F S1024x1024 .bf16) (xs0 xs1 : Vec F S1024x1024 .f32) (y : S1024x1024.Idx) :
    ∃ pc ∈ (runC0 c t h0 h1 x0 x1 x2 xs0 xs1).2.1, y ∈ pc.1.set :=
  View.cover_of_tiledL (runC0 c t h0 h1 x0 x1 x2 xs0 xs1).2.1 S1024x1024.size (by sl_kernel_rfl) y
theorem coverC0_1 (c : Dev nD) (t : Fin cfg0.N) (h0 : ¬t.val % 4 = 0) (h1 : t.val % 4 = 3) (x0 x1 x2 : Vec F S1024x1024 .bf16) (xs0 xs1 : Vec F S1024x1024 .f32) (y : S1024x1024.Idx) :
    ∃ pc ∈ (runC0 c t h0 h1 x0 x1 x2 xs0 xs1).2.2.1, y ∈ pc.1.set :=
  View.cover_of_tiledL (runC0 c t h0 h1 x0 x1 x2 xs0 xs1).2.2.1 S1024x1024.size (by sl_kernel_rfl) y

section AtV
variable (V : (c : Dev nD) → (b : Ref sig .tc) → Buf (Elt F) ((c : Thread nD τ).loc b))

/-! ## The accumulators after each point -/

/-- THE ACCUMULATION. What the two accumulators hold after the body at position `n`: where k = 0 the first block
    products over zeros; elsewhere the block products added to what position `n - 1` left. -/
def accAt0 (c : Dev nD) : (n : ℕ) → n < cfg0.N → Vec F S1024x1024 .f32 × Vec F S1024x1024 .f32
  | 0, hn => (accA0_0 c ⟨0, hn⟩ (Nat.zero_mod _) (by decide : ¬ (0 % 4 = 3)) (iblk0 V c 0 ⟨0, hn⟩) (iblk0 V c 1 ⟨0, hn⟩) (iblk0 V c 2 ⟨0, hn⟩),
      accA0_1 c ⟨0, hn⟩ (Nat.zero_mod _) (by decide : ¬ (0 % 4 = 3)) (iblk0 V c 0 ⟨0, hn⟩) (iblk0 V c 1 ⟨0, hn⟩) (iblk0 V c 2 ⟨0, hn⟩))
  | n + 1, hn =>
    if h0 : (n + 1) % 4 = 0 then
      (accA0_0 c ⟨n + 1, hn⟩ h0 (fun h => by have h' : (n + 1) % 4 = 3 := h; omega) (iblk0 V c 0 ⟨n + 1, hn⟩) (iblk0 V c 1 ⟨n + 1, hn⟩) (iblk0 V c 2 ⟨n + 1, hn⟩),
        accA0_1 c ⟨n + 1, hn⟩ h0 (fun h => by have h' : (n + 1) % 4 = 3 := h; omega) (iblk0 V c 0 ⟨n + 1, hn⟩) (iblk0 V c 1 ⟨n + 1, hn⟩) (iblk0 V c 2 ⟨n + 1, hn⟩))
    else if h1 : (n + 1) % 4 = 3 then
      (accC0_0 c ⟨n + 1, hn⟩ h0 h1 (iblk0 V c 0 ⟨n + 1, hn⟩) (iblk0 V c 1 ⟨n + 1, hn⟩) (iblk0 V c 2 ⟨n + 1, hn⟩) (accAt0 c n (Nat.lt_of_succ_lt hn)).1 (accAt0 c n (Nat.lt_of_succ_lt hn)).2,
        accC0_1 c ⟨n + 1, hn⟩ h0 h1 (iblk0 V c 0 ⟨n + 1, hn⟩) (iblk0 V c 1 ⟨n + 1, hn⟩) (iblk0 V c 2 ⟨n + 1, hn⟩) (accAt0 c n (Nat.lt_of_succ_lt hn)).1 (accAt0 c n (Nat.lt_of_succ_lt hn)).2)
    else
      (accB0_0 c ⟨n + 1, hn⟩ h0 h1 (iblk0 V c 0 ⟨n + 1, hn⟩) (iblk0 V c 1 ⟨n + 1, hn⟩) (iblk0 V c 2 ⟨n + 1, hn⟩) (accAt0 c n (Nat.lt_of_succ_lt hn)).1 (accAt0 c n (Nat.lt_of_succ_lt hn)).2,
        accB0_1 c ⟨n + 1, hn⟩ h0 h1 (iblk0 V c 0 ⟨n + 1, hn⟩) (iblk0 V c 1 ⟨n + 1, hn⟩) (iblk0 V c 2 ⟨n + 1, hn⟩) (accAt0 c n (Nat.lt_of_succ_lt hn)).1 (accAt0 c n (Nat.lt_of_succ_lt hn)).2)

/-- The accumulators the body at `t` starts from (`t` not the first point of its tile): what the point before left. -/
abbrev prev0 (c : Dev nD) (t : Fin cfg0.N) : Vec F S1024x1024 .f32 × Vec F S1024x1024 .f32 :=
  accAt0 V c (t.val - 1) (Nat.lt_of_le_of_lt (Nat.sub_le _ _) t.isLt)

theorem accAt0_A (c : Dev nD) (t : Fin cfg0.N) (h0 : t.val % 4 = 0) (h1 : ¬t.val % 4 = 3) :
    accAt0 V c t.val t.isLt = (accA0_0 c t h0 h1 (iblk0 V c 0 t) (iblk0 V c 1 t) (iblk0 V c 2 t), accA0_1 c t h0 h1 (iblk0 V c 0 t) (iblk0 V c 1 t) (iblk0 V c 2 t)) := by
  obtain ⟨n, hn⟩ := t
  cases n with
  | zero => exact rfl
  | succ n => exact (dif_pos h0).trans rfl

theorem accAt0_B (c : Dev nD) (t : Fin cfg0.N) (h0 : ¬t.val % 4 = 0) (h1 : ¬t.val % 4 = 3) :
    accAt0 V c t.val t.isLt = (accB0_0 c t h0 h1 (iblk0 V c 0 t) (iblk0 V c 1 t) (iblk0 V c 2 t) (prev0 V c t).1 (prev0 V c t).2, accB0_1 c t h0 h1 (iblk0 V c 0 t) (iblk0 V c 1 t) (iblk0 V c 2 t) (prev0 V c t).1 (prev0 V c t).2) := by
  obtain ⟨n, hn⟩ := t
  cases n with
  | zero => exact absurd (Nat.zero_mod _) h0
  | succ n => exact (dif_neg h0).trans ((dif_neg h1).trans rfl)

theorem accAt0_C (c : Dev nD) (t : Fin cfg0.N) (h0 : ¬t.val % 4 = 0) (h1 : t.val % 4 = 3) :
    accAt0 V c t.val t.isLt = (accC0_0 c t h0 h1 (iblk0 V c 0 t) (iblk0 V c 1 t) (iblk0 V c 2 t) (prev0 V c t).1 (prev0 V c t).2, accC0_1 c t h0 h1 (iblk0 V c 0 t) (iblk0 V c 1 t) (iblk0 V c 2 t) (prev0 V c t).1 (prev0 V c t).2) := by
  obtain ⟨n, hn⟩ := t
  cases n with
  | zero => exact absurd (Nat.zero_mod _) h0
  | succ n => exact (dif_neg h0).trans ((dif_pos h1).trans rfl)

/-- What the output block's staging buffer holds after the body at `t`: where k = 3, the gated activation of the two
    totals; elsewhere the body stores nothing there (a placeholder nothing consults: the window is idle and not written back). -/
def outAt0 (c : Dev nD) (t : Fin cfg0.N) : Vec F S1024x1024 .bf16 :=
  if h1 : t.val % 4 = 3 then
    outC0 c t (by omega) h1 (iblk0 V c 0 t) (iblk0 V c 1 t) (iblk0 V c 2 t) (prev0 V c t).1 (prev0 V c t).2
  else VO0_3.read (Elt F) (VO0_3.writes (Elt F) VO0_3.junk [])

theorem outAt0_C (c : Dev nD) (t : Fin cfg0.N) (h0 : ¬t.val % 4 = 0) (h1 : t.val % 4 = 3) :
    outAt0 V c t = outC0 c t h0 h1 (iblk0 V c 0 t) (iblk0 V c 1 t) (iblk0 V c 2 t) (prev0 V c t).1 (prev0 V c t).2 := by
  unfold outAt0; rw [dif_pos h1]

/-! ## The region invariant -/

/-- Before position `n`: at the first point the class's invariant (every scratch at anything); afterwards the two
    accumulators at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((accAt0 V c n hn).1) ∗ owns (c : Thread nD τ) scM0_1 fullShare ((accAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((accAt0 V c n hn).1) ∗ owns (c : Thread nD τ) scM0_1 fullShare ((accAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((accAt0 V c (n - 1) (by omega)).1) ∗ owns (c : Thread nD τ) scM0_1 fullShare ((accAt0 V c (n - 1) (by omega)).2) ∗ others0 c) ∗ (∃ r, prngReg c r)) := by
  cases n with
  | zero => exact absurd rfl hz
  | succ n => rfl

/-! ## The proof data -/

/-- The pipeline's proof data on core `c`: the arrays as the region finds them; after the body each input's buffer at its
    block and the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' memrefs hold their blocks; the point's k says which run applies; the invariant hands
    the body the accumulators at what the point before left (at anything at the very first point) and takes them back at
    this point's contents; the output block's buffer comes back untouched where k < 3 and at the stored block where k = 3. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 128 := lt_of_lt_of_eq t.isLt (show cfg0.N = 128 from N_0)
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [accAt0_A V c t h0 h1]
    unfold accA0_0 accA0_1; (try dsimp only)
    by_cases hz : t.val = 0
    · rw [PhiS0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩⟩
      iapply ((runA0 c t h0 h1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA0_0 c t h0 h1 _ _ _)
          isplitl [HS1]
          · unfold owns; iexists _; isplitr
            swap; · iexact HS1
            ipureintro; exact View.read_writes_of_cover _ _ _ _ _ (coverA0_1 c t h0 h1 _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((runA0 c t h0 h1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA0_0 c t h0 h1 _ _ _)
          isplitl [HS1]
          · unfold owns; iexists _; isplitr
            swap; · iexact HS1
            ipureintro; exact View.read_writes_of_cover _ _ _ _ _ (coverA0_1 c t h0 h1 _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [accAt0_C V c t h0 h1, outAt0_C V c t h0 h1]
      unfold outC0 accC0_0 accC0_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((runC0 c t h0 h1 (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverC0_0 c t h0 h1 _ _ _ _ _)
          isplitl [HS1]
          · unfold owns; iexists _; isplitr
            swap; · iexact HS1
            ipureintro; exact View.read_writes_of_cover _ _ _ _ _ (coverC0_1 c t h0 h1 _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC0_out c t h0 h1 _ _ _ _ _)
    · rw [Dat.leavesExact_idle (dat0 V c) 3 t (idleAt0_3 t (fun h => h1 ((hcond0_1 t).mp h))) (noFlush0_3 t (fun h => h1 ((hcond0_1 t).mp h)))]
      rw [accAt0_B V c t h0 h1]
      unfold accB0_0 accB0_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((runB0 c t h0 h1 (iblk0 V c 0 t) (iblk0 V c 1 t) (iblk0 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverB0_0 c t h0 h1 _ _ _ _ _)
          isplitl [HS1]
          · unfold owns; iexists _; isplitr
            swap; · iexact HS1
            ipureintro; exact View.read_writes_of_cover _ _ _ _ _ (coverB0_1 c t h0 h1 _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (the class's invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end AtV

end Cert.Kernel.Hand

end
-- ==== Proof.K.R1A.lean ====
/-
  The second kernel's body where the contraction starts (k = 0): the accumulator is zeroed, then gains its first block product; the output block is not touched.
-/
import proofs.«163618_j42142219108650_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on whole memrefs: the two input blocks at their contents and handed back as they were; the accumulator
    at anything, left with the pieces the stores wrote; the output block handed back untouched. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R1B.lean ====
/-
  The second kernel's body in the middle of the contraction (0 < k < 3): the accumulator gains one block product; the output block is not touched.
-/
import proofs.«163618_j42142219108650_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on whole memrefs: the two input blocks at their contents and handed back as they were; the accumulator
    at the contents the point before left, left with the pieces the stores wrote; the output block handed back untouched. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) :
    { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R1C.lean ====
/-
  The second kernel's body at the contraction's last block (k = 3): the accumulator gains its last block product and is copied into the output block.
-/
import proofs.«163618_j42142219108650_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on whole memrefs: the two input blocks at their contents and handed back as they were; the accumulator
    at the contents the point before left, left with the pieces the stores wrote; the output block at anything, left with the stored piece. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.K.Reg1.lean ====
/-
  The second kernel over its 128 grid points, in the same shape as the first: point t has contraction block
  k = t mod 4; the one accumulator holds, after point t, the block products of blocks 0..k of the current output tile
  added up from zero; the output block is a copy of the total, stored at k = 3, idle elsewhere. This module names
  those contents point by point, states the invariant carrying the accumulator, gives the proof data at any entry
  contents `V`, and proves the body obligation.
-/
import proofs.«163618_j42142219108650_2_alg».proof.Proof.K.R1A
import proofs.«163618_j42142219108650_2_alg».proof.Proof.K.R1B
import proofs.«163618_j42142219108650_2_alg».proof.Proof.K.R1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev runA1 (c : Dev nD) (t : Fin cfg1.N) (h0 : t.val % 4 = 0) (h1 : ¬t.val % 4 = 3) (x0 x1 : Vec F S1024x1024 .bf16) :=
  kernelRun1_A (F := F) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) x0 x1
abbrev runB1 (c : Dev nD) (t : Fin cfg1.N) (h0 : ¬t.val % 4 = 0) (h1 : ¬t.val % 4 = 3) (x0 x1 : Vec F S1024x1024 .bf16) (xs0 : Vec F S1024x1024 .f32) :=
  kernelRun1_B (F := F) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) x0 x1 xs0
abbrev runC1 (c : Dev nD) (t : Fin cfg1.N) (h0 : ¬t.val % 4 = 0) (h1 : t.val % 4 = 3) (x0 x1 : Vec F S1024x1024 .bf16) (xs0 : Vec F S1024x1024 .f32) :=
  kernelRun1_C (F := F) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) x0 x1 xs0

def accA1 (c : Dev nD) (t : Fin cfg1.N) (h0 : t.val % 4 = 0) (h1 : ¬t.val % 4 = 3) (x0 x1 : Vec F S1024x1024 .bf16) : Vec F S1024x1024 .f32 :=
  VS1_0.read (Elt F) (VS1_0.writes (Elt F) VS1_0.junk (runA1 c t h0 h1 x0 x1).1)
theorem coverA1 (c : Dev nD) (t : Fin cfg1.N) (h0 : t.val % 4 = 0) (h1 : ¬t.val % 4 = 3) (x0 x1 : Vec F S1024x1024 .bf16) (y : S1024x1024.Idx) :
    ∃ pc ∈ (runA1 c t h0 h1 x0 x1).1, y ∈ pc.1.set :=
  View.cover_of_tiledL (runA1 c t h0 h1 x0 x1).1 S1024x1024.size (by sl_kernel_rfl) y
def accB1 (c : Dev nD) (t : Fin cfg1.N) (h0 : ¬t.val % 4 = 0) (h1 : ¬t.val % 4 = 3) (x0 x1 : Vec F S1024x1024 .bf16) (xs0 : Vec F S1024x1024 .f32) : Vec F S1024x1024 .f32 :=
  VS1_0.read (Elt F) (VS1_0.writes (Elt F) VS1_0.junk (runB1 c t h0 h1 x0 x1 xs0).1)
theorem coverB1 (c : Dev nD) (t : Fin cfg1.N) (h0 : ¬t.val % 4 = 0) (h1 : ¬t.val % 4 = 3) (x0 x1 : Vec F S1024x1024 .bf16) (xs0 : Vec F S1024x1024 .f32) (y : S1024x1024.Idx) :
    ∃ pc ∈ (runB1 c t h0 h1 x0 x1 xs0).1, y ∈ pc.1.set :=
  View.cover_of_tiledL (runB1 c t h0 h1 x0 x1 xs0).1 S1024x1024.size (by sl_kernel_rfl) y
def outC1 (c : Dev nD) (t : Fin cfg1.N) (h0 : ¬t.val % 4 = 0) (h1 : t.val % 4 = 3) (x0 x1 : Vec F S1024x1024 .bf16) (xs0 : Vec F S1024x1024 .f32) : Vec F S1024x1024 .f32 :=
  VO1_2.read (Elt F) (VO1_2.writes (Elt F) VO1_2.junk (runC1 c t h0 h1 x0 x1 xs0).1)
def accC1 (c : Dev nD) (t : Fin cfg1.N) (h0 : ¬t.val % 4 = 0) (h1 : t.val % 4 = 3) (x0 x1 : Vec F S1024x1024 .bf16) (xs0 : Vec F S1024x1024 .f32) : Vec F S1024x1024 .f32 :=
  VS1_0.read (Elt F) (VS1_0.writes (Elt F) VS1_0.junk (runC1 c t h0 h1 x0 x1 xs0).2.1)
theorem coverC1_out (c : Dev nD) (t : Fin cfg1.N) (h0 : ¬t.val % 4 = 0) (h1 : t.val % 4 = 3) (x0 x1 : Vec F S1024x1024 .bf16) (xs0 : Vec F S1024x1024 .f32) (y : S1024x1024.Idx) :
    ∃ pc ∈ (runC1 c t h0 h1 x0 x1 xs0).1, y ∈ pc.1.set :=
  View.cover_of_tiledL (runC1 c t h0 h1 x0 x1 xs0).1 S1024x1024.size (by sl_kernel_rfl) y
theorem coverC1 (c : Dev nD) (t : Fin cfg1.N) (h0 : ¬t.val % 4 = 0) (h1 : t.val % 4 = 3) (x0 x1 : Vec F S1024x1024 .bf16) (xs0 : Vec F S1024x1024 .f32) (y : S1024x1024.Idx) :
    ∃ pc ∈ (runC1 c t h0 h1 x0 x1 xs0).2.1, y ∈ pc.1.set :=
  View.cover_of_tiledL (runC1 c t h0 h1 x0 x1 xs0).2.1 S1024x1024.size (by sl_kernel_rfl) y

section AtV
variable (V : (c : Dev nD) → (b : Ref sig .tc) → Buf (Elt F) ((c : Thread nD τ).loc b))

/-- THE ACCUMULATION. What the accumulator holds after the body at position `n`. -/
def accAt1 (c : Dev nD) : (n : ℕ) → n < cfg1.N → Vec F S1024x1024 .f32
  | 0, hn => accA1 c ⟨0, hn⟩ (Nat.zero_mod _) (by decide : ¬ (0 % 4 = 3)) (iblk1 V c 0 ⟨0, hn⟩) (iblk1 V c 1 ⟨0, hn⟩)
  | n + 1, hn =>
    if h0 : (n + 1) % 4 = 0 then
      accA1 c ⟨n + 1, hn⟩ h0 (fun h => by have h' : (n + 1) % 4 = 3 := h; omega) (iblk1 V c 0 ⟨n + 1, hn⟩) (iblk1 V c 1 ⟨n + 1, hn⟩)
    else if h1 : (n + 1) % 4 = 3 then
      accC1 c ⟨n + 1, hn⟩ h0 h1 (iblk1 V c 0 ⟨n + 1, hn⟩) (iblk1 V c 1 ⟨n + 1, hn⟩) (accAt1 c n (Nat.lt_of_succ_lt hn))
    else
      accB1 c ⟨n + 1, hn⟩ h0 h1 (iblk1 V c 0 ⟨n + 1, hn⟩) (iblk1 V c 1 ⟨n + 1, hn⟩) (accAt1 c n (Nat.lt_of_succ_lt hn))

abbrev prev1 (c : Dev nD) (t : Fin cfg1.N) : Vec F S1024x1024 .f32 :=
  accAt1 V c (t.val - 1) (Nat.lt_of_le_of_lt (Nat.sub_le _ _) t.isLt)

theorem accAt1_A (c : Dev nD) (t : Fin cfg1.N) (h0 : t.val % 4 = 0) (h1 : ¬t.val % 4 = 3) :
    accAt1 V c t.val t.isLt = accA1 c t h0 h1 (iblk1 V c 0 t) (iblk1 V c 1 t) := by
  obtain ⟨n, hn⟩ := t
  cases n with
  | zero => exact rfl
  | succ n => exact (dif_pos h0).trans rfl
theorem accAt1_B (c : Dev nD) (t : Fin cfg1.N) (h0 : ¬t.val % 4 = 0) (h1 : ¬t.val % 4 = 3) :
    accAt1 V c t.val t.isLt = accB1 c t h0 h1 (iblk1 V c 0 t) (iblk1 V c 1 t) (prev1 V c t) := by
  obtain ⟨n, hn⟩ := t
  cases n with
  | zero => exact absurd (Nat.zero_mod _) h0
  | succ n => exact (dif_neg h0).trans ((dif_neg h1).trans rfl)
theorem accAt1_C (c : Dev nD) (t : Fin cfg1.N) (h0 : ¬t.val % 4 = 0) (h1 : t.val % 4 = 3) :
    accAt1 V c t.val t.isLt = accC1 c t h0 h1 (iblk1 V c 0 t) (iblk1 V c 1 t) (prev1 V c t) := by
  obtain ⟨n, hn⟩ := t
  cases n with
  | zero => exact absurd (Nat.zero_mod _) h0
  | succ n => exact (dif_neg h0).trans ((dif_pos h1).trans rfl)

def outAt1 (c : Dev nD) (t : Fin cfg1.N) : Vec F S1024x1024 .f32 :=
  if h1 : t.val % 4 = 3 then
    outC1 c t (by omega) h1 (iblk1 V c 0 t) (iblk1 V c 1 t) (prev1 V c t)
  else VO1_2.read (Elt F) (VO1_2.writes (Elt F) VO1_2.junk [])
theorem outAt1_C (c : Dev nD) (t : Fin cfg1.N) (h0 : ¬t.val % 4 = 0) (h1 : t.val % 4 = 3) :
    outAt1 V c t = outC1 c t h0 h1 (iblk1 V c 0 t) (iblk1 V c 1 t) (prev1 V c t) := by
  unfold outAt1; rw [dif_pos h1]

def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ others1 c) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (accAt1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ others1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 128 := lt_of_lt_of_eq t.isLt (show cfg1.N = 128 from N_1)
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [accAt1_A V c t h0 h1]
    unfold accA1; (try dsimp only)
    by_cases hz : t.val = 0
    · rw [PhiS1_castSucc V c t, PhiS1_zero V c _ _ hz, PhiA1_eq]
      iintro ⟨⟨Hc, Hg⟩, Ho, ⟨%d0, H0⟩, ⟨%d1, H1⟩, ⟨%d2, H2⟩⟩
      ihave Hc' := (chain1_out c _) $$ Hc
      icases Hc' with ⟨HS0, Hoth⟩
      iapply ((runA1 c t h0 h1 (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (coverA1 c t h0 h1 _ _)
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hoth⟩, Hg⟩, Ho, ⟨%d0, H0⟩, ⟨%d1, H1⟩, ⟨%d2, H2⟩⟩
      iapply ((runA1 c t h0 h1 (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (coverA1 c t h0 h1 _ _)
          iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [accAt1_C V c t h0 h1, outAt1_C V c t h0 h1]
      unfold outC1 accC1; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((runC1 c t h0 h1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (coverC1 c t h0 h1 _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverC1_out c t h0 h1 _ _ _)
    · rw [Dat.leavesExact_idle (dat1 V c) 2 t (idleAt1_2 t (fun h => h1 ((hcond1_1 t).mp h))) (noFlush1_2 t (fun h => h1 ((hcond1_1 t).mp h)))]
      rw [accAt1_B V c t h0 h1]
      unfold accB1; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((runB1 c t h0 h1 (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (coverB1 c t h0 h1 _ _ _)
          iexact Hoth
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS0, Hoth⟩, Hg⟩
  isplitl [HS0 Hoth]
  · iapply (chain1_in c _)
    isplitl [HS0]; · iexists _; iexact HS0
    iexact Hoth
  iexact Hg

end AtV

end Cert.Kernel.Hand

end
-- ==== Proof.K.Run.lean ====
/-
  The whole program as four segments: the host operations before the kernels (a reshape of the hidden states to
  rows and four changes of float format), the first kernel's region, the second kernel's region, and the closing
  reshape. The buffer contents at each boundary are a fold from the launch memory: a host stretch applies its
  operations, a region replaces its windows' arrays by what its write-backs leave. Every weakly fair execution
  terminates with every unscoped buffer at the last boundary's contents; no segment writes an argument array.
-/
import proofs.«163618_j42142219108650_2_alg».proof.Proof.K.Reg0
import proofs.«163618_j42142219108650_2_alg».proof.Proof.K.Reg1
import proofs.«163618_j42142219108650_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m ((c : Dev nD), b)
/-- After the host operations before the kernels (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing reshape. -/
abbrev W4 : Dev nD → Valuation τ sig (Elt F) := fun c => StableHlo.after hostOps2 (W3 m c)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first kernel's region over the thread state: entered from every unscoped buffer at the contents before it,
    left at the contents after it. Its arrays are split out of the unscoped buffers and put back at what the
    write-backs leave; the generator register and the scoped buffers enter the invariant and come back; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region over the thread state: entered from every unscoped buffer at the contents before it,
    left at the contents after it. Its arrays are split out of the unscoped buffers and put back at what the
    write-backs leave; the generator register and the scoped buffers enter the invariant and come back; nothing is owed;
    the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame claim's post: each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.Hand

end
-- ==== Proof.KI.Base.lean ====
/-
  The two matmul-style kernels of this program share one shape: a grid of 8 × 4 × 4 points whose last coordinate k
  walks the contraction in four blocks of 1024; a scratch accumulator is zeroed where k = 0, gains one block
  product at every point, and is read out into the output block where k = 3. This module fixes, for both kernels,
  what the body's two conditionals are as propositions about the point (k = 0, k = 3: decided over the 128 points),
  where the output window is idle and where it is written back, the memrefs the body is called with, and the
  region invariant of the class with the accumulators named.
-/
import proofs.«163618_j42142219108650_2_alg».proof.Proof.Gen.KernelIdeal.Launch
import proofs.«163618_j42142219108650_2_alg».proof.Proof.Gen.KernelIdeal.Skeleton
import proofs.«163618_j42142219108650_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel (gate and up projections, gated activation) -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-- The body's first conditional (zero the accumulators): the contraction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The body's second conditional (read the accumulators out): the contraction coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the contraction is not at its last block the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- One staging buffer of the output window, through which its contents are stated. -/
abbrev VO0_3 : View sig .tc .vmem S1024x1024 .bf16 := (Memref.whole cc0_stg3_0 : Memref sig .tc .vmem S1024x1024 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S1024x1024 .f32 := Memref.whole cc0_scratch0
abbrev scM0_1 : Memref sig .tc .vmem S1024x1024 .f32 := Memref.whole cc0_scratch1
abbrev VS0_0 : View sig .tc .vmem S1024x1024 .f32 := scM0_0.view
abbrev VS0_1 : View sig .tc .vmem S1024x1024 .f32 := scM0_1.view

/-- The scoped buffers that are neither this kernel's staging buffers nor its accumulators (the second kernel's), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class's region invariant with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

/-! ## The second kernel (down projection) -/

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev VO1_2 : View sig .tc .vmem S1024x1024 .f32 := (Memref.whole cc1_stg2_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev scM1_0 : Memref sig .tc .vmem S1024x1024 .f32 := Memref.whole cc1_scratch0
abbrev VS1_0 : View sig .tc .vmem S1024x1024 .f32 := scM1_0.view

/-- The scoped buffers that are neither this kernel's staging buffers nor its accumulator (the first kernel's), each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The same chain continued by one more conjunct `T` (the accumulator's place: it comes last among the core's scoped buffers). -/
def chain1 (c : Dev nD) (T : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ T)

/-- The last conjunct taken out of the chain, -/
theorem chain1_out (c : Dev nD) (T : sProp 𝕄) : chain1 c T ⊢ iprop(T ∗ others1 c) := by
  unfold chain1 others1
  iintro ⟨H0, H1, H2, H3, H4, H5, H6, H7, H8, H9, HT⟩
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- and put back. -/
theorem chain1_in (c : Dev nD) (T : sProp 𝕄) : iprop(T ∗ others1 c) ⊢ chain1 c T := by
  unfold chain1 others1
  iintro ⟨HT, H0, H1, H2, H3, H4, H5, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HT

/-- The class's invariant for the second kernel, its accumulator as a memref owned at some contents. -/
theorem PhiA1_eq (c : Dev nD) :
    (Pipeline.ΦA spec1 c : sProp 𝕄)
      = iprop(chain1 c iprop(∃ d, owns (c : Thread nD τ) scM1_0 fullShare d) ∗ (∃ r, prngReg c r)) := by
  unfold Pipeline.ΦA chain1; rw [scopedRest1_eq]; simp only [scM1_0, owns_whole]; try rfl

end Cert.KernelIdeal.Hand

end
-- ==== Proof.KI.R0A.lean ====
/-
  The first kernel's body where the contraction starts (k = 0): both accumulators are zeroed, then each gains its first block product; the output block is not touched.
-/
import proofs.«163618_j42142219108650_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on whole memrefs: the three input blocks at their contents and handed back as they were; the accumulators
    at anything, left with the pieces the stores wrote; the output block handed back untouched. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x1024 .bf16) (x1 : Vec F S1024x1024 .bf16) (x2 : Vec F S1024x1024 .bf16) :
    Σ' (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8) K } := by
  refine ⟨?_, ?_, fun xi3 E K => ?run⟩
  case run =>
    simp only [cc0__gateup_kernel_eq_skeleton]; unfold cc0__gateup_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KI.R0B.lean ====
/-
  The first kernel's body in the middle of the contraction (0 < k < 3): each accumulator gains one block product; the output block is not touched.
-/
import proofs.«163618_j42142219108650_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on whole memrefs: the three input blocks at their contents and handed back as they were; the accumulators
    at the contents the point before left, left with the pieces the stores wrote; the output block handed back untouched. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x1024 .bf16) (x1 : Vec F S1024x1024 .bf16) (x2 : Vec F S1024x1024 .bf16) (xs0 : Vec F S1024x1024 .f32) (xs1 : Vec F S1024x1024 .f32) :
    Σ' (LS0 : List (View.Piece (Elt F) S1024x1024 .f32)), { LS1 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8) K } := by
  refine ⟨?_, ?_, fun xi3 E K => ?run⟩
  case run =>
    simp only [cc0__gateup_kernel_eq_skeleton]; unfold cc0__gateup_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Hand

end
-- ==== Proof.KI.R0C.lean ====
/-
  The first kernel's body at the contraction's last block (k = 3): each accumulator gains its last block product, and the gated activation of the two totals is stored into the output block.
-/
import proofs.«163618_j42142219108650_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on whole memrefs: the three input blocks at their contents and handed back as they were; the accumulators
    at the contents the point before left, left with the pieces the stores wrote; the output block at anything, left with the stored piece. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .bf16) (x1 : Vec F S1024x1024 .bf16) (x2 : Vec F S1024x1024 .bf16) (xs0 : Vec F S1024x1024 .f32) (xs1 : Vec F S1024x1024 .f32) :
    Σ' (L3 : List (View.Piece (Elt F) S1024x1024 .bf16)) (LS0 : List (View.Piece (Elt F) S1024x1024 .f32)), { LS1 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8) K } := by
  refine ⟨?_, ?_, ?_, fun E K => ?run⟩
  case run =>
    simp only [cc0__gateup_kernel_eq_skeleton]; unfold cc0__gateup_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.KernelIdeal.Hand

end
-- ==== Proof.KI.Reg0.lean ====
/-
  The first kernel over its 128 grid points. Point t has contraction block k = t mod 4. The two accumulators hold,
  after point t, the block products of blocks 0..k of the current output tile added up from zero (the first summand
  at k = 0 over freshly stored zeros); the output block is stored at k = 3 from the two totals and is idle elsewhere.
  This module names those contents point by point from the body's runs, states the region invariant that carries the
  accumulators from one point to the next, gives the pipeline's proof data at any entry contents `V`, and proves the
  body obligation at every point.
-/
import proofs.«163618_j42142219108650_2_alg».proof.Proof.KI.R0A
import proofs.«163618_j42142219108650_2_alg».proof.Proof.KI.R0B
import proofs.«163618_j42142219108650_2_alg».proof.Proof.KI.R0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The runs at a grid point -/

/-- The run where k = 0, at point `t`'s memrefs. -/
abbrev runA0 (c : Dev nD) (t : Fin cfg0.N) (h0 : t.val % 4 = 0) (h1 : ¬t.val % 4 = 3) (x0 x1 x2 : Vec F S1024x1024 .bf16) :=
  kernelRun0_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) x0 x1 x2
/-- The run where 0 < k < 3. -/
abbrev runB0 (c : Dev nD) (t : Fin cfg0.N) (h0 : ¬t.val % 4 = 0) (h1 : ¬t.val % 4 = 3) (x0 x1 x2 : Vec F S1024x1024 .bf16) (xs0 xs1 : Vec F S1024x1024 .f32) :=
  kernelRun0_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) x0 x1 x2 xs0 xs1
/-- The run where k = 3. -/
abbrev runC0 (c : Dev nD) (t : Fin cfg0.N) (h0 : ¬t.val % 4 = 0) (h1 : t.val % 4 = 3) (x0 x1 x2 : Vec F S1024x1024 .bf16) (xs0 xs1 : Vec F S1024x1024 .f32) :=
  kernelRun0_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) x0 x1 x2 xs0 xs1

/-! ## What each run leaves: its pieces read back, and that they cover the buffer -/

def accA0_0 (c : Dev nD) (t : Fin cfg0.N) (h0 : t.val % 4 = 0) (h1 : ¬t.val % 4 = 3) (x0 x1 x2 : Vec F S1024x1024 .bf16) : Vec F S1024x1024 .f32 :=
  VS0_0.read (Elt F) (VS0_0.writes (Elt F) VS0_0.junk (runA0 c t h0 h1 x0 x1 x2).1)
def accA0_1 (c : Dev nD) (t : Fin cfg0.N) (h0 : t.val % 4 = 0) (h1 : ¬t.val % 4 = 3) (x0 x1 x2 : Vec F S1024x1024 .bf16) : Vec F S1024x1024 .f32 :=
  VS0_1.read (Elt F) (VS0_1.writes (Elt F) VS0_1.junk (runA0 c t h0 h1 x0 x1 x2).2.1)
theorem coverA0_0 (c : Dev nD) (t : Fin cfg0.N) (h0 : t.val % 4 = 0) (h1 : ¬t.val % 4 = 3) (x0 x1 x2 : Vec F S1024x1024 .bf16) (y : S1024x1024.Idx) :
    ∃ pc ∈ (runA0 c t h0 h1 x0 x1 x2).1, y ∈ pc.1.set :=
  View.cover_of_tiledL (runA0 c t h0 h1 x0 x1 x2).1 S1024x1024.size (by sl_kernel_rfl) y
theorem coverA0_1 (c : Dev nD) (t : Fin cfg0.N) (h0 : t.val % 4 = 0) (h1 : ¬t.val % 4 = 3) (x0 x1 x2 : Vec F S1024x1024 .bf16) (y : S1024x1024.Idx) :
    ∃ pc ∈ (runA0 c t h0 h1 x0 x1 x2).2.1, y ∈ pc.1.set :=
  View.cover_of_tiledL (runA0 c t h0 h1 x0 x1 x2).2.1 S1024x1024.size (by sl_kernel_rfl) y

def accB0_0 (c : Dev nD) (t : Fin cfg0.N) (h0 : ¬t.val % 4 = 0) (h1 : ¬t.val % 4 = 3) (x0 x1 x2 : Vec F S1024x1024 .bf16) (xs0 xs1 : Vec F S1024x1024 .f32) : Vec F S1024x1024 .f32 :=
  VS0_0.read (Elt F) (VS0_0.writes (Elt F) VS0_0.junk (runB0 c t h0 h1 x0 x1 x2 xs0 xs1).1)
def accB0_1 (c : Dev nD) (t : Fin cfg0.N) (h0 : ¬t.val % 4 = 0) (h1 : ¬t.val % 4 = 3) (x0 x1 x2 : Vec F S1024x1024 .bf16) (xs0 xs1 : Vec F S1024x1024 .f32) : Vec F S1024x1024 .f32 :=
  VS0_1.read (Elt F) (VS0_1.writes (Elt F) VS0_1.junk (runB0 c t h0 h1 x0 x1 x2 xs0 xs1).2.1)
theorem coverB0_0 (c : Dev nD) (t : Fin cfg0.N) (h0 : ¬t.val % 4 = 0) (h1 : ¬t.val % 4 = 3) (x0 x1 x2 : Vec F S1024x1024 .bf16) (xs0 xs1 : Vec F S1024x1024 .f32) (y : S1024x1024.Idx) :
    ∃ pc ∈ (runB0 c t h0 h1 x0 x1 x2 xs0 xs1).1, y ∈ pc.1.set :=
  View.cover_of_tiledL (runB0 c t h0 h1 x0 x1 x2 xs0 xs1).1 S1024x1024.size (by sl_kernel_rfl) y
theorem coverB0_1 (c : Dev nD) (t : Fin cfg0.N) (h0 : ¬t.val % 4 = 0) (h1 : ¬t.val % 4 = 3) (x0 x1 x2 : Vec F S1024x1024 .bf16) (xs0 xs1 : Vec F S1024x1024 .f32) (y : S1024x1024.Idx) :
    ∃ pc ∈ (runB0 c t h0 h1 x0 x1 x2 xs0 xs1).2.1, y ∈ pc.1.set :=
  View.cover_of_tiledL (runB0 c t h0 h1 x0 x1 x2 xs0 xs1).2.1 S1024x1024.size (by sl_kernel_rfl) y

def outC0 (c : Dev nD) (t : Fin cfg0.N) (h0 : ¬t.val % 4 = 0) (h1 : t.val % 4 = 3) (x0 x1 x2 : Vec F S1024x1024 .bf16) (xs0 xs1 : Vec F S1024x1024 .f32) : Vec F S1024x1024 .bf16 :=
  VO0_3.read (Elt F) (VO0_3.writes (Elt F) VO0_3.junk (runC0 c t h0 h1 x0 x1 x2 xs0 xs1).1)
def accC0_0 (c : Dev nD) (t : Fin cfg0.N) (h0 : ¬t.val % 4 = 0) (h1 : t.val % 4 = 3) (x0 x1 x2 : Vec F S1024x1024 .bf16) (xs0 xs1 : Vec F S1024x1024 .f32) : Vec F S1024x1024 .f32 :=
  VS0_0.read (Elt F) (VS0_0.writes (Elt F) VS0_0.junk (runC0 c t h0 h1 x0 x1 x2 xs0 xs1).2.1)
def accC0_1 (c : Dev nD) (t : Fin cfg0.N) (h0 : ¬t.val % 4 = 0) (h1 : t.val % 4 = 3) (x0 x1 x2 : Vec F S1024x1024 .bf16) (xs0 xs1 : Vec F S1024x1024 .f32) : Vec F S1024x1024 .f32 :=
  VS0_1.read (Elt F) (VS0_1.writes (Elt F) VS0_1.junk (runC0 c t h0 h1 x0 x1 x2 xs0 xs1).2.2.1)
theorem coverC0_out (c : Dev nD) (t : Fin cfg0.N) (h0 : ¬t.val % 4 = 0) (h1 : t.val % 4 = 3) (x0 x1 x2 : Vec F S1024x1024 .bf16) (xs0 xs1 : Vec F S1024x1024 .f32) (y : S1024x1024.Idx) :
    ∃ pc ∈ (runC0 c t h0 h1 x0 x1 x2 xs0 xs1).1, y ∈ pc.1.set :=
  View.cover_of_tiledL (runC0 c t h0 h1 x0 x1 x2 xs0 xs1).1 S1024x1024.size (by sl_kernel_rfl) y
theorem coverC0_0 (c : Dev nD) (t : Fin cfg0.N) (h0 : ¬t.val % 4 = 0) (h1 : t.val % 4 = 3) (x0 x1 x2 : Vec F S1024x1024 .bf16) (xs0 xs1 : Vec F S1024x1024 .f32) (y : S1024x1024.Idx) :
    ∃ pc ∈ (runC0 c t h0 h1 x0 x1 x2 xs0 xs1).2.1, y ∈ pc.1.set :=
  View.cover_of_tiledL (runC0 c t h0 h1 x0 x1 x2 xs0 xs1).2.1 S1024x1024.size (by sl_kernel_rfl) y
theorem coverC0_1 (c : Dev nD) (t : Fin cfg0.N) (h0 : ¬t.val % 4 = 0) (h1 : t.val % 4 = 3) (x0 x1 x2 : Vec F S1024x1024 .bf16) (xs0 xs1 : Vec F S1024x1024 .f32) (y : S1024x1024.Idx) :
    ∃ pc ∈ (runC0 c t h0 h1 x0 x1 x2 xs0 xs1).2.2.1, y ∈ pc.1.set :=
  View.cover_of_tiledL (runC0 c t h0 h1 x0 x1 x2 xs0 xs1).2.2.1 S1024x1024.size (by sl_kernel_rfl) y

section AtV
variable (V : (c : Dev nD) → (b : Ref sig .tc) → Buf (Elt F) ((c : Thread nD τ).loc b))

/-! ## The accumulators after each point -/

/-- THE ACCUMULATION. What the two accumulators hold after the body at position `n`: where k = 0 the first block
    products over zeros; elsewhere the block products added to what position `n - 1` left. -/
def accAt0 (c : Dev nD) : (n : ℕ) → n < cfg0.N → Vec F S1024x1024 .f32 × Vec F S1024x1024 .f32
  | 0, hn => (accA0_0 c ⟨0, hn⟩ (Nat.zero_mod _) (by decide : ¬ (0 % 4 = 3)) (iblk0 V c 0 ⟨0, hn⟩) (iblk0 V c 1 ⟨0, hn⟩) (iblk0 V c 2 ⟨0, hn⟩),
      accA0_1 c ⟨0, hn⟩ (Nat.zero_mod _) (by decide : ¬ (0 % 4 = 3)) (iblk0 V c 0 ⟨0, hn⟩) (iblk0 V c 1 ⟨0, hn⟩) (iblk0 V c 2 ⟨0, hn⟩))
  | n + 1, hn =>
    if h0 : (n + 1) % 4 = 0 then
      (accA0_0 c ⟨n + 1, hn⟩ h0 (fun h => by have h' : (n + 1) % 4 = 3 := h; omega) (iblk0 V c 0 ⟨n + 1, hn⟩) (iblk0 V c 1 ⟨n + 1, hn⟩) (iblk0 V c 2 ⟨n + 1, hn⟩),
        accA0_1 c ⟨n + 1, hn⟩ h0 (fun h => by have h' : (n + 1) % 4 = 3 := h; omega) (iblk0 V c 0 ⟨n + 1, hn⟩) (iblk0 V c 1 ⟨n + 1, hn⟩) (iblk0 V c 2 ⟨n + 1, hn⟩))
    else if h1 : (n + 1) % 4 = 3 then
      (accC0_0 c ⟨n + 1, hn⟩ h0 h1 (iblk0 V c 0 ⟨n + 1, hn⟩) (iblk0 V c 1 ⟨n + 1, hn⟩) (iblk0 V c 2 ⟨n + 1, hn⟩) (accAt0 c n (Nat.lt_of_succ_lt hn)).1 (accAt0 c n (Nat.lt_of_succ_lt hn)).2,
        accC0_1 c ⟨n + 1, hn⟩ h0 h1 (iblk0 V c 0 ⟨n + 1, hn⟩) (iblk0 V c 1 ⟨n + 1, hn⟩) (iblk0 V c 2 ⟨n + 1, hn⟩) (accAt0 c n (Nat.lt_of_succ_lt hn)).1 (accAt0 c n (Nat.lt_of_succ_lt hn)).2)
    else
      (accB0_0 c ⟨n + 1, hn⟩ h0 h1 (iblk0 V c 0 ⟨n + 1, hn⟩) (iblk0 V c 1 ⟨n + 1, hn⟩) (iblk0 V c 2 ⟨n + 1, hn⟩) (accAt0 c n (Nat.lt_of_succ_lt hn)).1 (accAt0 c n (Nat.lt_of_succ_lt hn)).2,
        accB0_1 c ⟨n + 1, hn⟩ h0 h1 (iblk0 V c 0 ⟨n + 1, hn⟩) (iblk0 V c 1 ⟨n + 1, hn⟩) (iblk0 V c 2 ⟨n + 1, hn⟩) (accAt0 c n (Nat.lt_of_succ_lt hn)).1 (accAt0 c n (Nat.lt_of_succ_lt hn)).2)

/-- The accumulators the body at `t` starts from (`t` not the first point of its tile): what the point before left. -/
abbrev prev0 (c : Dev nD) (t : Fin cfg0.N) : Vec F S1024x1024 .f32 × Vec F S1024x1024 .f32 :=
  accAt0 V c (t.val - 1) (Nat.lt_of_le_of_lt (Nat.sub_le _ _) t.isLt)

theorem accAt0_A (c : Dev nD) (t : Fin cfg0.N) (h0 : t.val % 4 = 0) (h1 : ¬t.val % 4 = 3) :
    accAt0 V c t.val t.isLt = (accA0_0 c t h0 h1 (iblk0 V c 0 t) (iblk0 V c 1 t) (iblk0 V c 2 t), accA0_1 c t h0 h1 (iblk0 V c 0 t) (iblk0 V c 1 t) (iblk0 V c 2 t)) := by
  obtain ⟨n, hn⟩ := t
  cases n with
  | zero => exact rfl
  | succ n => exact (dif_pos h0).trans rfl

theorem accAt0_B (c : Dev nD) (t : Fin cfg0.N) (h0 : ¬t.val % 4 = 0) (h1 : ¬t.val % 4 = 3) :
    accAt0 V c t.val t.isLt = (accB0_0 c t h0 h1 (iblk0 V c 0 t) (iblk0 V c 1 t) (iblk0 V c 2 t) (prev0 V c t).1 (prev0 V c t).2, accB0_1 c t h0 h1 (iblk0 V c 0 t) (iblk0 V c 1 t) (iblk0 V c 2 t) (prev0 V c t).1 (prev0 V c t).2) := by
  obtain ⟨n, hn⟩ := t
  cases n with
  | zero => exact absurd (Nat.zero_mod _) h0
  | succ n => exact (dif_neg h0).trans ((dif_neg h1).trans rfl)

theorem accAt0_C (c : Dev nD) (t : Fin cfg0.N) (h0 : ¬t.val % 4 = 0) (h1 : t.val % 4 = 3) :
    accAt0 V c t.val t.isLt = (accC0_0 c t h0 h1 (iblk0 V c 0 t) (iblk0 V c 1 t) (iblk0 V c 2 t) (prev0 V c t).1 (prev0 V c t).2, accC0_1 c t h0 h1 (iblk0 V c 0 t) (iblk0 V c 1 t) (iblk0 V c 2 t) (prev0 V c t).1 (prev0 V c t).2) := by
  obtain ⟨n, hn⟩ := t
  cases n with
  | zero => exact absurd (Nat.zero_mod _) h0
  | succ n => exact (dif_neg h0).trans ((dif_pos h1).trans rfl)

/-- What the output block's staging buffer holds after the body at `t`: where k = 3, the gated activation of the two
    totals; elsewhere the body stores nothing there (a placeholder nothing consults: the window is idle and not written back). -/
def outAt0 (c : Dev nD) (t : Fin cfg0.N) : Vec F S1024x1024 .bf16 :=
  if h1 : t.val % 4 = 3 then
    outC0 c t (by omega) h1 (iblk0 V c 0 t) (iblk0 V c 1 t) (iblk0 V c 2 t) (prev0 V c t).1 (prev0 V c t).2
  else VO0_3.read (Elt F) (VO0_3.writes (Elt F) VO0_3.junk [])

theorem outAt0_C (c : Dev nD) (t : Fin cfg0.N) (h0 : ¬t.val % 4 = 0) (h1 : t.val % 4 = 3) :
    outAt0 V c t = outC0 c t h0 h1 (iblk0 V c 0 t) (iblk0 V c 1 t) (iblk0 V c 2 t) (prev0 V c t).1 (prev0 V c t).2 := by
  unfold outAt0; rw [dif_pos h1]

/-! ## The region invariant -/

/-- Before position `n`: at the first point the class's invariant (every scratch at anything); afterwards the two
    accumulators at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((accAt0 V c n hn).1) ∗ owns (c : Thread nD τ) scM0_1 fullShare ((accAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((accAt0 V c n hn).1) ∗ owns (c : Thread nD τ) scM0_1 fullShare ((accAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((accAt0 V c (n - 1) (by omega)).1) ∗ owns (c : Thread nD τ) scM0_1 fullShare ((accAt0 V c (n - 1) (by omega)).2) ∗ others0 c) ∗ (∃ r, prngReg c r)) := by
  cases n with
  | zero => exact absurd rfl hz
  | succ n => rfl

/-! ## The proof data -/

/-- The pipeline's proof data on core `c`: the arrays as the region finds them; after the body each input's buffer at its
    block and the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' memrefs hold their blocks; the point's k says which run applies; the invariant hands
    the body the accumulators at what the point before left (at anything at the very first point) and takes them back at
    this point's contents; the output block's buffer comes back untouched where k < 3 and at the stored block where k = 3. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 128 := lt_of_lt_of_eq t.isLt (show cfg0.N = 128 from N_0)
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [accAt0_A V c t h0 h1]
    unfold accA0_0 accA0_1; (try dsimp only)
    by_cases hz : t.val = 0
    · rw [PhiS0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩⟩
      iapply ((runA0 c t h0 h1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA0_0 c t h0 h1 _ _ _)
          isplitl [HS1]
          · unfold owns; iexists _; isplitr
            swap; · iexact HS1
            ipureintro; exact View.read_writes_of_cover _ _ _ _ _ (coverA0_1 c t h0 h1 _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((runA0 c t h0 h1 (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA0_0 c t h0 h1 _ _ _)
          isplitl [HS1]
          · unfold owns; iexists _; isplitr
            swap; · iexact HS1
            ipureintro; exact View.read_writes_of_cover _ _ _ _ _ (coverA0_1 c t h0 h1 _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [accAt0_C V c t h0 h1, outAt0_C V c t h0 h1]
      unfold outC0 accC0_0 accC0_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((runC0 c t h0 h1 (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverC0_0 c t h0 h1 _ _ _ _ _)
          isplitl [HS1]
          · unfold owns; iexists _; isplitr
            swap; · iexact HS1
            ipureintro; exact View.read_writes_of_cover _ _ _ _ _ (coverC0_1 c t h0 h1 _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC0_out c t h0 h1 _ _ _ _ _)
    · rw [Dat.leavesExact_idle (dat0 V c) 3 t (idleAt0_3 t (fun h => h1 ((hcond0_1 t).mp h))) (noFlush0_3 t (fun h => h1 ((hcond0_1 t).mp h)))]
      rw [accAt0_B V c t h0 h1]
      unfold accB0_0 accB0_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((runB0 c t h0 h1 (iblk0 V c 0 t) (iblk0 V c 1 t) (iblk0 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverB0_0 c t h0 h1 _ _ _ _ _)
          isplitl [HS1]
          · unfold owns; iexists _; isplitr
            swap; · iexact HS1
            ipureintro; exact View.read_writes_of_cover _ _ _ _ _ (coverB0_1 c t h0 h1 _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (the class's invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end AtV

end Cert.KernelIdeal.Hand

end
-- ==== Proof.KI.R1A.lean ====
/-
  The second kernel's body where the contraction starts (k = 0): the accumulator is zeroed, then gains its first block product; the output block is not touched.
-/
import proofs.«163618_j42142219108650_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on whole memrefs: the two input blocks at their contents and handed back as they were; the accumulator
    at anything, left with the pieces the stores wrote; the output block handed back untouched. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond1_0 i) (hc1 : ¬cond1_1 i)
    (x0 : Vec F S1024x1024 .bf16) (x1 : Vec F S1024x1024 .bf16) :
    { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R1B.lean ====
/-
  The second kernel's body in the middle of the contraction (0 < k < 3): the accumulator gains one block product; the output block is not touched.
-/
import proofs.«163618_j42142219108650_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on whole memrefs: the two input blocks at their contents and handed back as they were; the accumulator
    at the contents the point before left, left with the pieces the stores wrote; the output block handed back untouched. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : ¬cond1_1 i)
    (x0 : Vec F S1024x1024 .bf16) (x1 : Vec F S1024x1024 .bf16) (xs0 : Vec F S1024x1024 .f32) :
    { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R1C.lean ====
/-
  The second kernel's body at the contraction's last block (k = 3): the accumulator gains its last block product and is copied into the output block.
-/
import proofs.«163618_j42142219108650_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on whole memrefs: the two input blocks at their contents and handed back as they were; the accumulator
    at the contents the point before left, left with the pieces the stores wrote; the output block at anything, left with the stored piece. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond1_0 i) (hc1 : cond1_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.Reg1.lean ====
/-
  The second kernel over its 128 grid points, in the same shape as the first: point t has contraction block
  k = t mod 4; the one accumulator holds, after point t, the block products of blocks 0..k of the current output tile
  added up from zero; the output block is a copy of the total, stored at k = 3, idle elsewhere. This module names
  those contents point by point, states the invariant carrying the accumulator, gives the proof data at any entry
  contents `V`, and proves the body obligation.
-/
import proofs.«163618_j42142219108650_2_alg».proof.Proof.KI.R1A
import proofs.«163618_j42142219108650_2_alg».proof.Proof.KI.R1B
import proofs.«163618_j42142219108650_2_alg».proof.Proof.KI.R1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev runA1 (c : Dev nD) (t : Fin cfg1.N) (h0 : t.val % 4 = 0) (h1 : ¬t.val % 4 = 3) (x0 x1 : Vec F S1024x1024 .bf16) :=
  kernelRun1_A (F := F) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) x0 x1
abbrev runB1 (c : Dev nD) (t : Fin cfg1.N) (h0 : ¬t.val % 4 = 0) (h1 : ¬t.val % 4 = 3) (x0 x1 : Vec F S1024x1024 .bf16) (xs0 : Vec F S1024x1024 .f32) :=
  kernelRun1_B (F := F) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) x0 x1 xs0
abbrev runC1 (c : Dev nD) (t : Fin cfg1.N) (h0 : ¬t.val % 4 = 0) (h1 : t.val % 4 = 3) (x0 x1 : Vec F S1024x1024 .bf16) (xs0 : Vec F S1024x1024 .f32) :=
  kernelRun1_C (F := F) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) x0 x1 xs0

def accA1 (c : Dev nD) (t : Fin cfg1.N) (h0 : t.val % 4 = 0) (h1 : ¬t.val % 4 = 3) (x0 x1 : Vec F S1024x1024 .bf16) : Vec F S1024x1024 .f32 :=
  VS1_0.read (Elt F) (VS1_0.writes (Elt F) VS1_0.junk (runA1 c t h0 h1 x0 x1).1)
theorem coverA1 (c : Dev nD) (t : Fin cfg1.N) (h0 : t.val % 4 = 0) (h1 : ¬t.val % 4 = 3) (x0 x1 : Vec F S1024x1024 .bf16) (y : S1024x1024.Idx) :
    ∃ pc ∈ (runA1 c t h0 h1 x0 x1).1, y ∈ pc.1.set :=
  View.cover_of_tiledL (runA1 c t h0 h1 x0 x1).1 S1024x1024.size (by sl_kernel_rfl) y
def accB1 (c : Dev nD) (t : Fin cfg1.N) (h0 : ¬t.val % 4 = 0) (h1 : ¬t.val % 4 = 3) (x0 x1 : Vec F S1024x1024 .bf16) (xs0 : Vec F S1024x1024 .f32) : Vec F S1024x1024 .f32 :=
  VS1_0.read (Elt F) (VS1_0.writes (Elt F) VS1_0.junk (runB1 c t h0 h1 x0 x1 xs0).1)
theorem coverB1 (c : Dev nD) (t : Fin cfg1.N) (h0 : ¬t.val % 4 = 0) (h1 : ¬t.val % 4 = 3) (x0 x1 : Vec F S1024x1024 .bf16) (xs0 : Vec F S1024x1024 .f32) (y : S1024x1024.Idx) :
    ∃ pc ∈ (runB1 c t h0 h1 x0 x1 xs0).1, y ∈ pc.1.set :=
  View.cover_of_tiledL (runB1 c t h0 h1 x0 x1 xs0).1 S1024x1024.size (by sl_kernel_rfl) y
def outC1 (c : Dev nD) (t : Fin cfg1.N) (h0 : ¬t.val % 4 = 0) (h1 : t.val % 4 = 3) (x0 x1 : Vec F S1024x1024 .bf16) (xs0 : Vec F S1024x1024 .f32) : Vec F S1024x1024 .f32 :=
  VO1_2.read (Elt F) (VO1_2.writes (Elt F) VO1_2.junk (runC1 c t h0 h1 x0 x1 xs0).1)
def accC1 (c : Dev nD) (t : Fin cfg1.N) (h0 : ¬t.val % 4 = 0) (h1 : t.val % 4 = 3) (x0 x1 : Vec F S1024x1024 .bf16) (xs0 : Vec F S1024x1024 .f32) : Vec F S1024x1024 .f32 :=
  VS1_0.read (Elt F) (VS1_0.writes (Elt F) VS1_0.junk (runC1 c t h0 h1 x0 x1 xs0).2.1)
theorem coverC1_out (c : Dev nD) (t : Fin cfg1.N) (h0 : ¬t.val % 4 = 0) (h1 : t.val % 4 = 3) (x0 x1 : Vec F S1024x1024 .bf16) (xs0 : Vec F S1024x1024 .f32) (y : S1024x1024.Idx) :
    ∃ pc ∈ (runC1 c t h0 h1 x0 x1 xs0).1, y ∈ pc.1.set :=
  View.cover_of_tiledL (runC1 c t h0 h1 x0 x1 xs0).1 S1024x1024.size (by sl_kernel_rfl) y
theorem coverC1 (c : Dev nD) (t : Fin cfg1.N) (h0 : ¬t.val % 4 = 0) (h1 : t.val % 4 = 3) (x0 x1 : Vec F S1024x1024 .bf16) (xs0 : Vec F S1024x1024 .f32) (y : S1024x1024.Idx) :
    ∃ pc ∈ (runC1 c t h0 h1 x0 x1 xs0).2.1, y ∈ pc.1.set :=
  View.cover_of_tiledL (runC1 c t h0 h1 x0 x1 xs0).2.1 S1024x1024.size (by sl_kernel_rfl) y

section AtV
variable (V : (c : Dev nD) → (b : Ref sig .tc) → Buf (Elt F) ((c : Thread nD τ).loc b))

/-- THE ACCUMULATION. What the accumulator holds after the body at position `n`. -/
def accAt1 (c : Dev nD) : (n : ℕ) → n < cfg1.N → Vec F S1024x1024 .f32
  | 0, hn => accA1 c ⟨0, hn⟩ (Nat.zero_mod _) (by decide : ¬ (0 % 4 = 3)) (iblk1 V c 0 ⟨0, hn⟩) (iblk1 V c 1 ⟨0, hn⟩)
  | n + 1, hn =>
    if h0 : (n + 1) % 4 = 0 then
      accA1 c ⟨n + 1, hn⟩ h0 (fun h => by have h' : (n + 1) % 4 = 3 := h; omega) (iblk1 V c 0 ⟨n + 1, hn⟩) (iblk1 V c 1 ⟨n + 1, hn⟩)
    else if h1 : (n + 1) % 4 = 3 then
      accC1 c ⟨n + 1, hn⟩ h0 h1 (iblk1 V c 0 ⟨n + 1, hn⟩) (iblk1 V c 1 ⟨n + 1, hn⟩) (accAt1 c n (Nat.lt_of_succ_lt hn))
    else
      accB1 c ⟨n + 1, hn⟩ h0 h1 (iblk1 V c 0 ⟨n + 1, hn⟩) (iblk1 V c 1 ⟨n + 1, hn⟩) (accAt1 c n (Nat.lt_of_succ_lt hn))

abbrev prev1 (c : Dev nD) (t : Fin cfg1.N) : Vec F S1024x1024 .f32 :=
  accAt1 V c (t.val - 1) (Nat.lt_of_le_of_lt (Nat.sub_le _ _) t.isLt)

theorem accAt1_A (c : Dev nD) (t : Fin cfg1.N) (h0 : t.val % 4 = 0) (h1 : ¬t.val % 4 = 3) :
    accAt1 V c t.val t.isLt = accA1 c t h0 h1 (iblk1 V c 0 t) (iblk1 V c 1 t) := by
  obtain ⟨n, hn⟩ := t
  cases n with
  | zero => exact rfl
  | succ n => exact (dif_pos h0).trans rfl
theorem accAt1_B (c : Dev nD) (t : Fin cfg1.N) (h0 : ¬t.val % 4 = 0) (h1 : ¬t.val % 4 = 3) :
    accAt1 V c t.val t.isLt = accB1 c t h0 h1 (iblk1 V c 0 t) (iblk1 V c 1 t) (prev1 V c t) := by
  obtain ⟨n, hn⟩ := t
  cases n with
  | zero => exact absurd (Nat.zero_mod _) h0
  | succ n => exact (dif_neg h0).trans ((dif_neg h1).trans rfl)
theorem accAt1_C (c : Dev nD) (t : Fin cfg1.N) (h0 : ¬t.val % 4 = 0) (h1 : t.val % 4 = 3) :
    accAt1 V c t.val t.isLt = accC1 c t h0 h1 (iblk1 V c 0 t) (iblk1 V c 1 t) (prev1 V c t) := by
  obtain ⟨n, hn⟩ := t
  cases n with
  | zero => exact absurd (Nat.zero_mod _) h0
  | succ n => exact (dif_neg h0).trans ((dif_pos h1).trans rfl)

def outAt1 (c : Dev nD) (t : Fin cfg1.N) : Vec F S1024x1024 .f32 :=
  if h1 : t.val % 4 = 3 then
    outC1 c t (by omega) h1 (iblk1 V c 0 t) (iblk1 V c 1 t) (prev1 V c t)
  else VO1_2.read (Elt F) (VO1_2.writes (Elt F) VO1_2.junk [])
theorem outAt1_C (c : Dev nD) (t : Fin cfg1.N) (h0 : ¬t.val % 4 = 0) (h1 : t.val % 4 = 3) :
    outAt1 V c t = outC1 c t h0 h1 (iblk1 V c 0 t) (iblk1 V c 1 t) (prev1 V c t) := by
  unfold outAt1; rw [dif_pos h1]

def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ others1 c) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (accAt1 V c n hn) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ others1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 128 := lt_of_lt_of_eq t.isLt (show cfg1.N = 128 from N_1)
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [accAt1_A V c t h0 h1]
    unfold accA1; (try dsimp only)
    by_cases hz : t.val = 0
    · rw [PhiS1_castSucc V c t, PhiS1_zero V c _ _ hz, PhiA1_eq]
      iintro ⟨⟨Hc, Hg⟩, Ho, ⟨%d0, H0⟩, ⟨%d1, H1⟩, ⟨%d2, H2⟩⟩
      ihave Hc' := (chain1_out c _) $$ Hc
      icases Hc' with ⟨HS0, Hoth⟩
      iapply ((runA1 c t h0 h1 (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (coverA1 c t h0 h1 _ _)
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hoth⟩, Hg⟩, Ho, ⟨%d0, H0⟩, ⟨%d1, H1⟩, ⟨%d2, H2⟩⟩
      iapply ((runA1 c t h0 h1 (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (coverA1 c t h0 h1 _ _)
          iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [accAt1_C V c t h0 h1, outAt1_C V c t h0 h1]
      unfold outC1 accC1; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((runC1 c t h0 h1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (coverC1 c t h0 h1 _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverC1_out c t h0 h1 _ _ _)
    · rw [Dat.leavesExact_idle (dat1 V c) 2 t (idleAt1_2 t (fun h => h1 ((hcond1_1 t).mp h))) (noFlush1_2 t (fun h => h1 ((hcond1_1 t).mp h)))]
      rw [accAt1_B V c t h0 h1]
      unfold accB1; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((runB1 c t h0 h1 (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (coverB1 c t h0 h1 _ _ _)
          iexact Hoth
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS0, Hoth⟩, Hg⟩
  isplitl [HS0 Hoth]
  · iapply (chain1_in c _)
    isplitl [HS0]; · iexists _; iexact HS0
    iexact Hoth
  iexact Hg

end AtV

end Cert.KernelIdeal.Hand

end
-- ==== Proof.KI.Run.lean ====
/-
  The whole program as four segments: the host operations before the kernels (a reshape of the hidden states to
  rows and four changes of float format), the first kernel's region, the second kernel's region, and the closing
  reshape. The buffer contents at each boundary are a fold from the launch memory: a host stretch applies its
  operations, a region replaces its windows' arrays by what its write-backs leave. Every weakly fair execution
  terminates with every unscoped buffer at the last boundary's contents; no segment writes an argument array.
-/
import proofs.«163618_j42142219108650_2_alg».proof.Proof.KI.Reg0
import proofs.«163618_j42142219108650_2_alg».proof.Proof.KI.Reg1
import proofs.«163618_j42142219108650_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m ((c : Dev nD), b)
/-- After the host operations before the kernels (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing reshape. -/
abbrev W4 : Dev nD → Valuation τ sig (Elt F) := fun c => StableHlo.after hostOps2 (W3 m c)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first kernel's region over the thread state: entered from every unscoped buffer at the contents before it,
    left at the contents after it. Its arrays are split out of the unscoped buffers and put back at what the
    write-backs leave; the generator register and the scoped buffers enter the invariant and come back; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region over the thread state: entered from every unscoped buffer at the contents before it,
    left at the contents after it. Its arrays are split out of the unscoped buffers and put back at what the
    write-backs leave; the generator register and the scoped buffers enter the invariant and come back; nothing is owed;
    the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame claim's post: each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.Hand

end
-- ==== Proof.Spec.lean ====
/-
  The mathematics of the gated feed-forward block, with no program in sight.

  A row-flattened input H : [8192, 4096] and three weight matrices Wg, Wu, Wd : [4096, 4096] over the extended reals give
    gate (r, n) = sum over k of H (r, k) * Wg (k, n),      up (r, n) likewise with Wu,
    gated (r, n) = act (gate (r, n)) * up (r, n),
    out (r, j)  = sum over n of gated (r, n) * Wd (n, j),
  where act is the tanh approximation of the Gaussian error linear unit, written with the four constants as the
  extended reals their 32-bit words denote (the words are never evaluated: both sides of the equivalence carry the
  same words). Also the two laws a blocked evaluation of a contraction needs: a sum over 4096 terms is the sum over four
  blocks of 1024 consecutive terms, and an accumulator that starts at zero and takes one block's sum at a time ends at
  the sum of the four block sums. Both hold in every commutative additive monoid; nothing here needs a finite value.
-/
import Idealize.ShloMosaic.PureOps.Ideal
import Idealize.ShloMosaic.PureOps.Ideal.Laws
import Idealize.ShloMosaic.Lib.ValueIdx

noncomputable section

open scoped BigOperators

namespace Cert.GatedMlp

open Idealize.ShloMosaic Idealize.ShloMosaic.ValueIdx

/-- The input as given, [batch, sequence, model]. -/
abbrev S4x2048x4096 : Shape := ⟨3, ![4, 2048, 4096]⟩
/-- A weight matrix. -/
abbrev S4096x4096 : Shape := ⟨2, ![4096, 4096]⟩
/-- The input with batch and sequence flattened into one row axis. -/
abbrev S8192x4096 : Shape := ⟨2, ![8192, 4096]⟩
/-- One tile of a blocked evaluation. -/
abbrev S1024x1024 : Shape := ⟨2, ![1024, 1024]⟩

/-- The constant 0.044715 of the tanh approximation, as the extended real its word denotes. -/
abbrev cB : EReal := Ideal.ofBits .f32 0x3D372713#32
/-- The constant sqrt (2 / pi). -/
abbrev cA : EReal := Ideal.ofBits .f32 0x3F4C422A#32
/-- The constant one half. -/
abbrev cHalf : EReal := Ideal.ofBits .f32 0x3F000000#32
/-- The constant one. -/
abbrev cOne : EReal := Ideal.ofBits .f32 0x3F800000#32

/-- The activation: (1/2 * x) * (1 + tanh (a * (x + b * ((x * x) * x)))), in exactly this order of operations. -/
def act (x : EReal) : EReal :=
  (cHalf * x) * (cOne + Ideal.tanh (cA * (x + cB * ((x * x) * x))))

/-- One row of a matrix product: the contraction of row r of H with column n of W. -/
def dotAt (H : S8192x4096.Idx → EReal) (W : S4096x4096.Idx → EReal) (r : Fin 8192) (n : Fin 4096) : EReal :=
  ∑ k : Fin 4096, H (ix2 r k) * W (ix2 k n)

/-- The gated hidden value at (r, n). -/
def gatedAt (H : S8192x4096.Idx → EReal) (Wg Wu : S4096x4096.Idx → EReal) (r : Fin 8192) (n : Fin 4096) : EReal :=
  act (dotAt H Wg r n) * dotAt H Wu r n

/-- The gated hidden array. -/
def gatedFlat (H : S8192x4096.Idx → EReal) (Wg Wu : S4096x4096.Idx → EReal) : S8192x4096.Idx → EReal :=
  fun i => gatedAt H Wg Wu (i 0) (i 1)

/-- The down projection of a hidden array. -/
def downFlat (G : S8192x4096.Idx → EReal) (Wd : S4096x4096.Idx → EReal) : S8192x4096.Idx → EReal :=
  fun i => dotAt G Wd (i 0) (i 1)

theorem gatedFlat_ix2 (H : S8192x4096.Idx → EReal) (Wg Wu : S4096x4096.Idx → EReal) (r : Fin 8192) (n : Fin 4096) :
    gatedFlat H Wg Wu (ix2 r n)
      = act (∑ k : Fin 4096, H (ix2 r k) * Wg (ix2 k n)) * (∑ k : Fin 4096, H (ix2 r k) * Wu (ix2 k n)) := rfl

theorem downFlat_ix2 (G : S8192x4096.Idx → EReal) (Wd : S4096x4096.Idx → EReal) (r : Fin 8192) (j : Fin 4096) :
    downFlat G Wd (ix2 r j) = ∑ n : Fin 4096, G (ix2 r n) * Wd (ix2 n j) := rfl

/-- The rows of the three-axis input laid out as one row axis: row r is (r / 2048, r % 2048). -/
def flattenRows (a : S4x2048x4096.Idx → EReal) : S8192x4096.Idx → EReal :=
  fun j => a (ix3 (⟨(j 0).val / 2048, by have := idx2_lt0 j; omega⟩ : Fin 4) (⟨(j 0).val % 2048, Nat.mod_lt _ (by norm_num)⟩ : Fin 2048)
    (⟨(j 1).val, idx2_lt1 j⟩ : Fin 4096))

theorem flattenRows_ix2 (a : S4x2048x4096.Idx → EReal) (r : Fin 8192) (k : Fin 4096) :
    flattenRows a (ix2 r k)
      = a (ix3 (⟨r.val / 2048, by omega⟩ : Fin 4) (⟨r.val % 2048, Nat.mod_lt _ (by norm_num)⟩ : Fin 2048) k) := rfl

/-- Row b * 2048 + s of the flattened input is row (b, s) of the input. -/
theorem flattenRows_row (a : S4x2048x4096.Idx → EReal) (b : Fin 4) (s : Fin 2048) (k : Fin 4096) :
    flattenRows a (ix2 (⟨b.val * 2048 + s.val, by omega⟩ : Fin 8192) k) = a (ix3 b s k) := by
  rw [flattenRows_ix2]
  refine congrArg a ?_
  have h0 : (b.val * 2048 + s.val) / 2048 = b.val := by omega
  have h1 : (b.val * 2048 + s.val) % 2048 = s.val := by omega
  funext d
  match d with
  | ⟨0, _⟩ => exact Fin.ext h0
  | ⟨1, _⟩ => exact Fin.ext h1
  | ⟨2, _⟩ => rfl

/-- The inverse layout: element (b, s, j) of the three-axis result is element (b * 2048 + s, j) of the flat one. -/
def unflattenRows (o : S8192x4096.Idx → EReal) : S4x2048x4096.Idx → EReal :=
  fun i => o (ix2 (⟨(i 0).val * 2048 + (i 1).val, by
      have h0 : (i 0).val < 4 := (i 0).isLt
      have h1 : (i 1).val < 2048 := (i 1).isLt
      omega⟩ : Fin 8192) (⟨(i 2).val, (i 2).isLt⟩ : Fin 4096))

theorem unflattenRows_ix3 (o : S8192x4096.Idx → EReal) (b : Fin 4) (s : Fin 2048) (j : Fin 4096) :
    unflattenRows o (ix3 b s j) = o (ix2 (⟨b.val * 2048 + s.val, by omega⟩ : Fin 8192) j) := rfl

/-- The whole block as one function of the four arrays: flatten the rows, gate, project down, restore the rows. -/
def mlp (a0 : S4x2048x4096.Idx → EReal) (a1 a2 a3 : S4096x4096.Idx → EReal) : S4x2048x4096.Idx → EReal :=
  unflattenRows (downFlat (gatedFlat (flattenRows a0) a1 a2) a3)

/-- The block at (b, s, j), with every contraction written out over the three-axis input. -/
theorem mlp_ix3 (a0 : S4x2048x4096.Idx → EReal) (a1 a2 a3 : S4096x4096.Idx → EReal) (b : Fin 4) (s : Fin 2048) (j : Fin 4096) :
    mlp a0 a1 a2 a3 (ix3 b s j)
      = ∑ n : Fin 4096, (act (∑ k : Fin 4096, a0 (ix3 b s k) * a1 (ix2 k n)) * (∑ k : Fin 4096, a0 (ix3 b s k) * a2 (ix2 k n)))
          * a3 (ix2 n j) := by
  unfold mlp
  rw [unflattenRows_ix3, downFlat_ix2]
  refine Finset.sum_congr rfl fun n _ => ?_
  rw [gatedFlat_ix2]
  simp only [flattenRows_row]

/-! ## A contraction evaluated in four blocks -/

/-- A position below 4096 is a block below 4 and a position below 1024 inside it. -/
def blockEquiv : Fin 4 × Fin 1024 ≃ Fin 4096 :=
  (finProdFinEquiv (m := 4) (n := 1024)).trans (finCongr (by norm_num))

theorem blockEquiv_val (kb : Fin 4) (k : Fin 1024) : (blockEquiv (kb, k)).val = k.val + 1024 * kb.val := rfl

/-- A sum over 4096 terms is the sum over four blocks of 1024 consecutive terms. -/
theorem sum_blocks {M : Type*} [AddCommMonoid M] (f : Fin 4096 → M) :
    ∑ kb : Fin 4, ∑ k : Fin 1024, f ⟨1024 * kb.val + k.val, by omega⟩ = ∑ k : Fin 4096, f k := by
  rw [← Equiv.sum_comp blockEquiv f, Fintype.sum_prod_type]
  refine Finset.sum_congr rfl fun kb _ => Finset.sum_congr rfl fun k _ => congrArg f (Fin.ext ?_)
  rw [blockEquiv_val]
  exact Nat.add_comm _ _

/-- An accumulator that starts at zero and adds one term at a time, four times, ends at the sum of the four. -/
theorem accum_four {M : Type*} [AddCommMonoid M] (s : Fin 4 → M) :
    (((0 + s 0) + s 1) + s 2) + s 3 = ∑ kb : Fin 4, s kb := by
  rw [Fin.sum_univ_four, zero_add]

/-- The two together: four block sums accumulated from zero are the whole contraction. -/
theorem accum_blocks {M : Type*} [AddCommMonoid M] (f : Fin 4096 → M) :
    (((0 + ∑ k : Fin 1024, f ⟨1024 * 0 + k.val, by omega⟩) + ∑ k : Fin 1024, f ⟨1024 * 1 + k.val, by omega⟩)
        + ∑ k : Fin 1024, f ⟨1024 * 2 + k.val, by omega⟩) + ∑ k : Fin 1024, f ⟨1024 * 3 + k.val, by omega⟩
      = ∑ k : Fin 4096, f k := by
  rw [← sum_blocks f, Fin.sum_univ_four, zero_add]
  rfl

/-- The accumulator after the first n blocks, n from 0 to 4: the sum of the terms below 1024 * n. Its value at 0 is zero,
    each block adds that block's sum, and its value at 4 is the whole sum. -/
def partialSum {M : Type*} [AddCommMonoid M] (f : Fin 4096 → M) (n : Nat) : M :=
  ∑ k : Fin 4096, if k.val < 1024 * n then f k else 0

theorem partialSum_zero {M : Type*} [AddCommMonoid M] (f : Fin 4096 → M) : partialSum f 0 = 0 := by
  unfold partialSum
  exact Finset.sum_eq_zero fun k _ => if_neg (by omega)

theorem partialSum_four {M : Type*} [AddCommMonoid M] (f : Fin 4096 → M) : partialSum f 4 = ∑ k : Fin 4096, f k := by
  unfold partialSum
  exact Finset.sum_congr rfl fun k _ => if_pos (by have := k.isLt; omega)

theorem partialSum_succ {M : Type*} [AddCommMonoid M] (f : Fin 4096 → M) (n : Nat) (hn : n < 4) :
    partialSum f (n + 1) = partialSum f n + ∑ k : Fin 1024, f ⟨1024 * n + k.val, by omega⟩ := by
  unfold partialSum
  have hsplit : ∀ k : Fin 4096, (if k.val < 1024 * (n + 1) then f k else 0)
      = (if k.val < 1024 * n then f k else 0) + (if 1024 * n ≤ k.val ∧ k.val < 1024 * n + 1024 then f k else 0) := by
    intro k
    by_cases h1 : k.val < 1024 * n
    · rw [if_pos (by omega), if_pos h1, if_neg (by omega), add_zero]
    · by_cases h2 : k.val < 1024 * (n + 1)
      · rw [if_pos h2, if_neg h1, if_pos (by omega), zero_add]
      · rw [if_neg h2, if_neg h1, if_neg (by omega), zero_add]
  rw [Finset.sum_congr rfl fun k _ => hsplit k, Finset.sum_add_distrib]
  refine congrArg (_ + ·) ?_
  rw [← sum_blocks (fun k => if 1024 * n ≤ k.val ∧ k.val < 1024 * n + 1024 then f k else 0)]
  rw [Finset.sum_eq_single_of_mem (⟨n, hn⟩ : Fin 4) (Finset.mem_univ _)]
  · exact Finset.sum_congr rfl fun k _ => if_pos ⟨by show 1024 * n ≤ 1024 * n + k.val; omega, by show 1024 * n + k.val < _; omega⟩
  · intro kb _ hkb
    refine Finset.sum_eq_zero fun k _ => if_neg ?_
    have hne : kb.val ≠ n := fun h => hkb (Fin.ext h)
    show ¬(1024 * n ≤ 1024 * kb.val + k.val ∧ 1024 * kb.val + k.val < 1024 * n + 1024)
    omega

end Cert.GatedMlp

end
-- ==== Proof.Reshape.lean ====
/-
  The two reshapes around the flat computation, read as the specification's row layouts: reshaping [4, 2048, 4096] to
  [8192, 4096] puts row (b, s) at row b * 2048 + s, and reshaping back restores it, because a reshape keeps every
  element's row-major position.
-/
import proofs.«163618_j42142219108650_2_alg».proof.Proof.Spec
import Idealize.ShloMosaic.Lib.Pipeline.Value

noncomputable section

namespace Cert.GatedMlp

open Idealize.ShloMosaic Idealize.ShloMosaic.ValueIdx

/-- The reshape of the three-axis input to two axes is the flattening of its rows. -/
theorem shapeCast_flatten (a : S4x2048x4096.Idx → EReal) (h : S4x2048x4096.ShapeCasts S8192x4096) :
    shapeCast S8192x4096 a h = flattenRows a := by
  funext j
  refine shapeCast_apply a h j _ ?_
  rw [Shape.rowMajor_val_three, Shape.rowMajor_val_two]
  show ((j 0).val / 2048 * 2048 + (j 0).val % 2048) * 4096 + (j 1).val = (j 0).val * 4096 + (j 1).val
  omega

/-- The reshape of a two-axis result back to three axes restores the rows. -/
theorem shapeCast_unflatten (o : S8192x4096.Idx → EReal) (h : S8192x4096.ShapeCasts S4x2048x4096) :
    shapeCast S4x2048x4096 o h = unflattenRows o := by
  funext i
  refine shapeCast_apply o h i _ ?_
  rw [Shape.rowMajor_val_three, Shape.rowMajor_val_two]
  rfl

end Cert.GatedMlp

end
-- ==== Proof.KV.HostSide.lean ====
/-
  The host operations of the kernel's program read at the ideal instance. Before the kernels: the hidden states are
  laid out as 8192 rows (row b·2048 + s is position (b, s)), and the changes of float format are the identity on the
  extended reals, so the first kernel's three operands are the row-flattened hidden states and the gate and up
  weights as given, and the second kernel's weight operand is the down weights as given. After the kernels the rows
  are laid back out as (b, s). Between the two kernels the second one's first operand is exactly what the first
  one's write-backs left.
-/
import proofs.«163618_j42142219108650_2_alg».proof.Proof.KI.Run
import proofs.«163618_j42142219108650_2_alg».proof.Proof.Spec
import proofs.«163618_j42142219108650_2_alg».proof.Proof.Reshape

set_option maxRecDepth 16384

noncomputable section

namespace Cert.GatedMlp.HostSide

open Cert.KernelIdeal Cert.KernelIdeal.Gen Cert.KernelIdeal.Hand
open Idealize.ShloMosaic Idealize.ShloMosaic.TcCoe Idealize.SL.Sem Cert.GatedMlp

variable (m : (ℓ : Loc nD τ sig) → Buf (Elt Ideal) ℓ)

/-- The first kernel's row operand: the hidden states, rows flattened. -/
theorem V1_v1 (c : Dev nD) : (Hand.V1 (F := Ideal) m c main_v1 : S8192x4096.Idx → EReal) = flattenRows (m ((c : Thread nD τ).loc main_arg0)) := by
  show StableHlo.after hostOps0 (W0 m c) (Proc.devRef .tc main_v1) = _
  after_results
  exact shapeCast_flatten _ _

/-- The gate weights, as given. -/
theorem V1_v2 (c : Dev nD) : (Hand.V1 (F := Ideal) m c main_v2 : S4096x4096.Idx → EReal) = m ((c : Thread nD τ).loc main_arg1) := by
  show StableHlo.after hostOps0 (W0 m c) (Proc.devRef .tc main_v2) = _
  after_results
  rfl

/-- The up weights, as given. -/
theorem V1_v3 (c : Dev nD) : (Hand.V1 (F := Ideal) m c main_v3 : S4096x4096.Idx → EReal) = m ((c : Thread nD τ).loc main_arg2) := by
  show StableHlo.after hostOps0 (W0 m c) (Proc.devRef .tc main_v3) = _
  after_results
  rfl

/-- The down weights, as given. -/
theorem V1_v4 (c : Dev nD) : (Hand.V1 (F := Ideal) m c main_v4 : S4096x4096.Idx → EReal) = m ((c : Thread nD τ).loc main_arg3) := by
  show StableHlo.after hostOps0 (W0 m c) (Proc.devRef .tc main_v4) = _
  after_results
  rfl

/-- The first kernel does not touch the down weights' buffer. -/
theorem V2_v4 (c : Dev nD) : Hand.V2 (F := Ideal) m c main_v4 = Hand.V1 m c main_v4 :=
  W2_of_ne m c main_v4 (by decide)

/-- The second kernel's row operand is what the first kernel's write-backs left. -/
theorem V2_v5 (c : Dev nD) : Hand.V2 (F := Ideal) m c main_v5 = (dat0 (Hand.V1 m) c).arrAt 3 cfg0.N :=
  W2_arr m c 3

/-- The second kernel's result array after its region. -/
theorem W3_v6 (c : Dev nD) : W3 (F := Ideal) m c (Proc.devRef .tc main_v6) = (dat1 (Hand.V2 m) c).arrAt 2 cfg1.N :=
  W3_arr m c 2

/-- The program's result: the second kernel's result array, rows laid back out. -/
theorem W4_v7 (c : Dev nD) : (W4 (F := Ideal) m c (Proc.devRef .tc main_v7) : S4x2048x4096.Idx → EReal) = unflattenRows (W3 m c (Proc.devRef .tc main_v6)) := by
  show StableHlo.after hostOps2 (W3 m c) (Proc.devRef .tc main_v7) = _
  after_results
  exact shapeCast_unflatten _ _

end Cert.GatedMlp.HostSide

end
-- ==== Proof.RefIsSpec.lean ====
/-
  The reference computes the gated feed-forward block of the specification.

  Its program is three contractions over the model axis and a chain of elementwise operations, with a change of float
  format (the identity on the extended reals) around every step. Read at an element (b, s, j), stage by stage: the gate
  and up contractions are the sums over k of the input at (b, s, k) times the weight at (k, n); the elementwise chain
  between them is the activation of the gate times the up value; the last contraction sums the gated values against the
  down weights. That is the specification's function of the four arrays, with row b * 2048 + s of the flattened input
  being row (b, s) of the input.
-/
import proofs.«163618_j42142219108650_2_alg».proof.Proof.Gen.ReferenceIdeal.Read
import proofs.«163618_j42142219108650_2_alg».proof.Proof.Spec

noncomputable section

open scoped BigOperators

namespace Cert.GatedMlp

open Idealize.ShloMosaic Idealize.ShloMosaic.ValueIdx Cert.ReferenceIdeal.Read

/-! ## The operand positions of the three contractions at (b, s, n) and k -/

theorem lidx_gate (b : Fin 4) (s : Fin 2048) (n k : Fin 4096) : lidx_main_v4 (ix3 b s n) k = ix3 b s k :=
  funext fun a => by match a with | ⟨0, _⟩ => rfl | ⟨1, _⟩ => rfl | ⟨2, _⟩ => rfl
theorem ridx_gate (b : Fin 4) (s : Fin 2048) (n k : Fin 4096) : ridx_main_v4 (ix3 b s n) k = ix2 k n :=
  funext fun a => by match a with | ⟨0, _⟩ => rfl | ⟨1, _⟩ => rfl
theorem lidx_up (b : Fin 4) (s : Fin 2048) (n k : Fin 4096) : lidx_main_v11 (ix3 b s n) k = ix3 b s k :=
  funext fun a => by match a with | ⟨0, _⟩ => rfl | ⟨1, _⟩ => rfl | ⟨2, _⟩ => rfl
theorem ridx_up (b : Fin 4) (s : Fin 2048) (n k : Fin 4096) : ridx_main_v11 (ix3 b s n) k = ix2 k n :=
  funext fun a => by match a with | ⟨0, _⟩ => rfl | ⟨1, _⟩ => rfl
theorem lidx_down (b : Fin 4) (s : Fin 2048) (j n : Fin 4096) : lidx_main_v48 (ix3 b s j) n = ix3 b s n :=
  funext fun a => by match a with | ⟨0, _⟩ => rfl | ⟨1, _⟩ => rfl | ⟨2, _⟩ => rfl
theorem ridx_down (b : Fin 4) (s : Fin 2048) (j n : Fin 4096) : ridx_main_v48 (ix3 b s j) n = ix2 n j :=
  funext fun a => by match a with | ⟨0, _⟩ => rfl | ⟨1, _⟩ => rfl

/-! ## The stages -/

/-- The gate contraction at (b, s, n). -/
theorem ref_gate (a0 : S4x2048x4096.Idx → EReal) (a1 : S4096x4096.Idx → EReal) (b : Fin 4) (s : Fin 2048) (n : Fin 4096) :
    val_main_v6 (F := Ideal) a0 a1 (ix3 b s n) = ∑ k : Fin 4096, a0 (ix3 b s k) * a1 (ix2 k n) := by
  rw [val_main_v6_apply, val_main_v5_apply, val_main_v4_apply]
  simp only [val_main_v1_apply, val_main_v0_apply, val_main_v3_apply, val_main_v2_apply, Ideal.extf_def, Ideal.truncf_def, lidx_gate, ridx_gate]

/-- The up contraction at (b, s, n). -/
theorem ref_up (a0 : S4x2048x4096.Idx → EReal) (a2 : S4096x4096.Idx → EReal) (b : Fin 4) (s : Fin 2048) (n : Fin 4096) :
    val_main_v40 (F := Ideal) a0 a2 (ix3 b s n) = ∑ k : Fin 4096, a0 (ix3 b s k) * a2 (ix2 k n) := by
  rw [val_main_v40_apply, val_main_v39_apply, val_main_v13_apply, val_main_v12_apply, val_main_v11_apply]
  simp only [val_main_v8_apply, val_main_v7_apply, val_main_v10_apply, val_main_v9_apply, Ideal.extf_def, Ideal.truncf_def, lidx_up, ridx_up]

/-- The elementwise chain from the gate is the activation. -/
theorem ref_act (a0 : S4x2048x4096.Idx → EReal) (a1 : S4096x4096.Idx → EReal) (i : S4x2048x4096.Idx) :
    val_main_v38 (F := Ideal) a0 a1 i = act (val_main_v6 (F := Ideal) a0 a1 i) := by
  simp only [val_main_v38_apply, val_main_v37_apply, val_main_v36_apply, val_main_v35_apply, val_main_v34_apply, val_main_v33_apply, val_main_v32_apply, val_main_cst_2_apply, val_main_v31_apply, val_main_v30_apply, val_main_cst_1_apply, val_main_v29_apply, val_main_v28_apply, val_main_v27_apply, val_main_v26_apply, val_main_v25_apply, val_main_v24_apply, val_main_v23_apply, val_main_cst_0_apply, val_main_v22_apply, val_main_v21_apply, val_main_v20_apply, val_main_cst_apply, val_main_v19_apply, val_main_v18_apply, val_main_v17_apply, val_main_v16_apply, val_main_v15_apply, val_main_v14_apply,
    Ideal.extf_def, Ideal.truncf_def, Ideal.mulf_def, Ideal.addf_def, Ideal.hostUnary_tanh_def, Ideal.ofBits_def]
  rfl

/-- The gated hidden value at (b, s, n). -/
theorem ref_gated (a0 : S4x2048x4096.Idx → EReal) (a1 a2 : S4096x4096.Idx → EReal) (b : Fin 4) (s : Fin 2048) (n : Fin 4096) :
    val_main_v45 (F := Ideal) a0 a1 a2 (ix3 b s n)
      = act (∑ k : Fin 4096, a0 (ix3 b s k) * a1 (ix2 k n)) * (∑ k : Fin 4096, a0 (ix3 b s k) * a2 (ix2 k n)) := by
  rw [val_main_v45_apply, val_main_v44_apply, val_main_v43_apply, val_main_v42_apply, val_main_v41_apply, ref_act, ref_gate, ref_up]
  simp only [Ideal.extf_def, Ideal.truncf_def, Ideal.mulf_def]

/-- The reference's result, as a function of its four argument arrays, is the specification's. -/
theorem ref_is_mlp (a0 : S4x2048x4096.Idx → EReal) (a1 a2 a3 : S4096x4096.Idx → EReal) :
    val_main_v50 (F := Ideal) a0 a1 a2 a3 = mlp a0 a1 a2 a3 := by
  funext i
  obtain ⟨b, s, j, rfl⟩ : ∃ (b : Fin 4) (s : Fin 2048) (j : Fin 4096), i = ix3 b s j := ⟨i 0, i 1, i 2, eq_ix3 i⟩
  rw [mlp_ix3, val_main_v50_apply, val_main_v49_apply, val_main_v48_apply]
  simp only [Ideal.extf_def, Ideal.truncf_def, val_main_v47_apply, val_main_v46_apply, lidx_down, ridx_down, ref_gated]

end Cert.GatedMlp

end
-- ==== Proof.KV.Pieces.lean ====
/-
  What each run of a body leaves, as the body's arithmetic. A run hands back, for every buffer it stores to, the list of
  pieces its stores wrote; here each such list, read back over anything, is identified with the pure term the store
  carried. Every load and store of both bodies goes through the whole 1024 x 1024 tile at zero offsets, so a load reads
  the tile's contents, one store leaves its payload, and a load after a store reads that payload: the accumulator
  zeroed and read back is the tile of zeros, the accumulator updated and read back (at the last contraction block) is
  the updated tile.
-/
import proofs.«163618_j42142219108650_2_alg».proof.Proof.KI.Reg0
import proofs.«163618_j42142219108650_2_alg».proof.Proof.KI.Reg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the two bodies: zero on both axes. -/
theorem offsets_zero : (![0, 0] : Fin 2 → Nat) = fun _ => 0 := funext fun a => by fin_cases a <;> rfl

/-! ## The second kernel, on any whole memrefs -/

/-- Where k = 0: the accumulator is left at one block product added to the tile of zeros. -/
theorem piece1_A (c : Dev nD) (i : grid1.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : cond1_0 i) (hc1 : ¬cond1_1 i) (x0 x1 : Vec F S1024x1024 .bf16) (v : View sig .tc .vmem S1024x1024 .f32) (f : v.ty.Contents (Elt F)) :
    v.read (Elt F) (v.writes (Elt F) f (kernelRun1_A (F := F) c i a3 h3 a4 h4 a5 h5 a6 h6 hc0 hc1 x0 x1).1) = k1_pay2 (k1_pay1 (F := F)) x0 x1 := by
  rw [View.read_writes_eq_canon _ _ _ (fun y => View.cover_of_tiledL _ S1024x1024.size (by sl_kernel_rfl) y)]
  unfold kernelRun1_A
  dsimp only
  sl_unfold_words
  rw [View.canon_cons_unit_zero (S := S1024x1024) offsets_zero, View.readCov_unit_zero (S := S1024x1024) _ offsets_zero]
  simp only [View.readAt_eq_ld, h3.read_unread, h4.read_unread, View.ld_unit_zero (S := S1024x1024) offsets_zero]

/-- Where 0 < k < 3: the accumulator is left at one block product added to what it held. -/
theorem piece1_B (c : Dev nD) (i : grid1.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : ¬cond1_1 i) (x0 x1 : Vec F S1024x1024 .bf16) (xs0 : Vec F S1024x1024 .f32) (v : View sig .tc .vmem S1024x1024 .f32) (f : v.ty.Contents (Elt F)) :
    v.read (Elt F) (v.writes (Elt F) f (kernelRun1_B (F := F) c i a3 h3 a4 h4 a5 h5 a6 h6 hc0 hc1 x0 x1 xs0).1) = k1_pay2 xs0 x0 x1 := by
  rw [View.read_writes_eq_canon _ _ _ (fun y => View.cover_of_tiledL _ S1024x1024.size (by sl_kernel_rfl) y)]
  unfold kernelRun1_B
  dsimp only
  rw [View.canon_unit_zero offsets_zero]
  simp only [View.readAt_eq_ld, h3.read_unread, h4.read_unread, h6.read_unread, View.ld_unit_zero (S := S1024x1024) offsets_zero]

/-- Where k = 3: the accumulator likewise, -/
theorem piece1_C_acc (c : Dev nD) (i : grid1.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i) (x0 x1 : Vec F S1024x1024 .bf16) (xs0 : Vec F S1024x1024 .f32) (v : View sig .tc .vmem S1024x1024 .f32) (f : v.ty.Contents (Elt F)) :
    v.read (Elt F) (v.writes (Elt F) f (kernelRun1_C (F := F) c i a3 h3 a4 h4 a5 h5 a6 h6 hc0 hc1 x0 x1 xs0).2.1) = k1_pay2 xs0 x0 x1 := by
  rw [View.read_writes_eq_canon _ _ _ (fun y => View.cover_of_tiledL _ S1024x1024.size (by sl_kernel_rfl) y)]
  unfold kernelRun1_C
  dsimp only
  sl_unfold_words
  rw [View.canon_unit_zero offsets_zero]
  simp only [View.readAt_eq_ld, h3.read_unread, h4.read_unread, h6.read_unread, View.ld_unit_zero (S := S1024x1024) offsets_zero]

/-- and the output block is left at the updated accumulator read back and copied. -/
theorem piece1_C_out (c : Dev nD) (i : grid1.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond1_0 i) (hc1 : cond1_1 i) (x0 x1 : Vec F S1024x1024 .bf16) (xs0 : Vec F S1024x1024 .f32) (v : View sig .tc .vmem S1024x1024 .f32) (f : v.ty.Contents (Elt F)) :
    v.read (Elt F) (v.writes (Elt F) f (kernelRun1_C (F := F) c i a3 h3 a4 h4 a5 h5 a6 h6 hc0 hc1 x0 x1 xs0).1) = k1_pay3 (k1_pay2 xs0 x0 x1) := by
  rw [View.read_writes_eq_canon _ _ _ (fun y => View.cover_of_tiledL _ S1024x1024.size (by sl_kernel_rfl) y)]
  unfold kernelRun1_C
  dsimp only
  sl_unfold_words
  rw [View.canon_unit_zero offsets_zero, View.readCov_unit_zero (S := S1024x1024) _ offsets_zero]
  simp only [View.readAt_eq_ld, h3.read_unread, h4.read_unread, h6.read_unread, View.ld_unit_zero (S := S1024x1024) offsets_zero]

/-! ## The second kernel at a grid point -/

theorem accA1_eq (c : Dev nD) (t : Fin cfg1.N) (h0 : t.val % 4 = 0) (h1 : ¬t.val % 4 = 3) (x0 x1 : Vec F S1024x1024 .bf16) :
    accA1 c t h0 h1 x0 x1 = k1_pay2 (k1_pay1 (F := F)) x0 x1 := by
  unfold accA1
  exact piece1_A c (grid1.coords t) (ms1_0 t) (hs1_0 t) (ms1_1 t) (hs1_1 t) (ms1_2 t) (hs1_2 t) scM1_0 (Memref.isWhole_whole _) _ _ x0 x1 VS1_0 VS1_0.junk

theorem accB1_eq (c : Dev nD) (t : Fin cfg1.N) (h0 : ¬t.val % 4 = 0) (h1 : ¬t.val % 4 = 3) (x0 x1 : Vec F S1024x1024 .bf16) (xs0 : Vec F S1024x1024 .f32) :
    accB1 c t h0 h1 x0 x1 xs0 = k1_pay2 xs0 x0 x1 := by
  unfold accB1
  exact piece1_B c (grid1.coords t) (ms1_0 t) (hs1_0 t) (ms1_1 t) (hs1_1 t) (ms1_2 t) (hs1_2 t) scM1_0 (Memref.isWhole_whole _) _ _ x0 x1 xs0 VS1_0 VS1_0.junk

theorem accC1_eq (c : Dev nD) (t : Fin cfg1.N) (h0 : ¬t.val % 4 = 0) (h1 : t.val % 4 = 3) (x0 x1 : Vec F S1024x1024 .bf16) (xs0 : Vec F S1024x1024 .f32) :
    accC1 c t h0 h1 x0 x1 xs0 = k1_pay2 xs0 x0 x1 := by
  unfold accC1
  exact piece1_C_acc c (grid1.coords t) (ms1_0 t) (hs1_0 t) (ms1_1 t) (hs1_1 t) (ms1_2 t) (hs1_2 t) scM1_0 (Memref.isWhole_whole _) _ _ x0 x1 xs0 VS1_0 VS1_0.junk

theorem outC1_eq (c : Dev nD) (t : Fin cfg1.N) (h0 : ¬t.val % 4 = 0) (h1 : t.val % 4 = 3) (x0 x1 : Vec F S1024x1024 .bf16) (xs0 : Vec F S1024x1024 .f32) :
    outC1 c t h0 h1 x0 x1 xs0 = k1_pay3 (k1_pay2 xs0 x0 x1) := by
  unfold outC1
  exact piece1_C_out c (grid1.coords t) (ms1_0 t) (hs1_0 t) (ms1_1 t) (hs1_1 t) (ms1_2 t) (hs1_2 t) scM1_0 (Memref.isWhole_whole _) _ _ x0 x1 xs0 VO1_2 VO1_2.junk

/-! ## The first kernel, on any whole memrefs -/

/-- Where k = 0: the gate accumulator is left at one block product added to the tile of zeros, -/
theorem piece0_A_0 (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i) (x0 x1 x2 : Vec F S1024x1024 .bf16) (v : View sig .tc .vmem S1024x1024 .f32) (f : v.ty.Contents (Elt F)) :
    v.read (Elt F) (v.writes (Elt F) f (kernelRun0_A (F := F) c i a3 h3 a4 h4 a5 h5 a6 h6 a7 h7 a8 h8 hc0 hc1 x0 x1 x2).1) = k0_pay4 x0 (k0_pay1 (F := F)) x1 := by
  rw [View.read_writes_eq_canon _ _ _ (fun y => View.cover_of_tiledL _ S1024x1024.size (by sl_kernel_rfl) y)]
  unfold kernelRun0_A
  dsimp only
  sl_unfold_words
  rw [View.canon_cons_unit_zero (S := S1024x1024) offsets_zero, View.readCov_unit_zero (S := S1024x1024) _ offsets_zero]
  simp only [View.readAt_eq_ld, h3.read_unread, h4.read_unread, h5.read_unread, View.ld_unit_zero (S := S1024x1024) offsets_zero]

/-- and the up accumulator likewise. -/
theorem piece0_A_1 (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i) (x0 x1 x2 : Vec F S1024x1024 .bf16) (v : View sig .tc .vmem S1024x1024 .f32) (f : v.ty.Contents (Elt F)) :
    v.read (Elt F) (v.writes (Elt F) f (kernelRun0_A (F := F) c i a3 h3 a4 h4 a5 h5 a6 h6 a7 h7 a8 h8 hc0 hc1 x0 x1 x2).2.1) = k0_pay5 x0 (k0_pay2 (F := F)) x2 := by
  rw [View.read_writes_eq_canon _ _ _ (fun y => View.cover_of_tiledL _ S1024x1024.size (by sl_kernel_rfl) y)]
  unfold kernelRun0_A
  dsimp only
  sl_unfold_words
  rw [View.canon_cons_unit_zero (S := S1024x1024) offsets_zero, View.readCov_unit_zero (S := S1024x1024) _ offsets_zero]
  simp only [View.readAt_eq_ld, h3.read_unread, h4.read_unread, h5.read_unread, View.ld_unit_zero (S := S1024x1024) offsets_zero]

/-- Where 0 < k < 3: each accumulator is left at its block product added to what it held. -/
theorem piece0_B_0 (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i) (x0 x1 x2 : Vec F S1024x1024 .bf16) (xs0 xs1 : Vec F S1024x1024 .f32) (v : View sig .tc .vmem S1024x1024 .f32) (f : v.ty.Contents (Elt F)) :
    v.read (Elt F) (v.writes (Elt F) f (kernelRun0_B (F := F) c i a3 h3 a4 h4 a5 h5 a6 h6 a7 h7 a8 h8 hc0 hc1 x0 x1 x2 xs0 xs1).1) = k0_pay4 x0 xs0 x1 := by
  rw [View.read_writes_eq_canon _ _ _ (fun y => View.cover_of_tiledL _ S1024x1024.size (by sl_kernel_rfl) y)]
  unfold kernelRun0_B
  dsimp only
  sl_unfold_words
  rw [View.canon_unit_zero offsets_zero]
  simp only [View.readAt_eq_ld, h3.read_unread, h4.read_unread, h5.read_unread, h7.read_unread, h8.read_unread, View.ld_unit_zero (S := S1024x1024) offsets_zero]

theorem piece0_B_1 (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i) (x0 x1 x2 : Vec F S1024x1024 .bf16) (xs0 xs1 : Vec F S1024x1024 .f32) (v : View sig .tc .vmem S1024x1024 .f32) (f : v.ty.Contents (Elt F)) :
    v.read (Elt F) (v.writes (Elt F) f (kernelRun0_B (F := F) c i a3 h3 a4 h4 a5 h5 a6 h6 a7 h7 a8 h8 hc0 hc1 x0 x1 x2 xs0 xs1).2.1) = k0_pay5 x0 xs1 x2 := by
  rw [View.read_writes_eq_canon _ _ _ (fun y => View.cover_of_tiledL _ S1024x1024.size (by sl_kernel_rfl) y)]
  unfold kernelRun0_B
  dsimp only
  sl_unfold_words
  rw [View.canon_unit_zero offsets_zero]
  simp only [View.readAt_eq_ld, h3.read_unread, h4.read_unread, h5.read_unread, h7.read_unread, h8.read_unread, View.ld_unit_zero (S := S1024x1024) offsets_zero]

/-- Where k = 3: the accumulators likewise, -/
theorem piece0_C_0 (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x0 x1 x2 : Vec F S1024x1024 .bf16) (xs0 xs1 : Vec F S1024x1024 .f32) (v : View sig .tc .vmem S1024x1024 .f32) (f : v.ty.Contents (Elt F)) :
    v.read (Elt F) (v.writes (Elt F) f (kernelRun0_C (F := F) c i a3 h3 a4 h4 a5 h5 a6 h6 a7 h7 a8 h8 hc0 hc1 x0 x1 x2 xs0 xs1).2.1) = k0_pay4 x0 xs0 x1 := by
  rw [View.read_writes_eq_canon _ _ _ (fun y => View.cover_of_tiledL _ S1024x1024.size (by sl_kernel_rfl) y)]
  unfold kernelRun0_C
  dsimp only
  sl_unfold_words
  rw [View.canon_unit_zero offsets_zero]
  simp only [View.readAt_eq_ld, h3.read_unread, h4.read_unread, h5.read_unread, h7.read_unread, h8.read_unread, View.ld_unit_zero (S := S1024x1024) offsets_zero]

theorem piece0_C_1 (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x0 x1 x2 : Vec F S1024x1024 .bf16) (xs0 xs1 : Vec F S1024x1024 .f32) (v : View sig .tc .vmem S1024x1024 .f32) (f : v.ty.Contents (Elt F)) :
    v.read (Elt F) (v.writes (Elt F) f (kernelRun0_C (F := F) c i a3 h3 a4 h4 a5 h5 a6 h6 a7 h7 a8 h8 hc0 hc1 x0 x1 x2 xs0 xs1).2.2.1) = k0_pay5 x0 xs1 x2 := by
  rw [View.read_writes_eq_canon _ _ _ (fun y => View.cover_of_tiledL _ S1024x1024.size (by sl_kernel_rfl) y)]
  unfold kernelRun0_C
  dsimp only
  sl_unfold_words
  rw [View.canon_unit_zero offsets_zero]
  simp only [View.readAt_eq_ld, h3.read_unread, h4.read_unread, h5.read_unread, h7.read_unread, h8.read_unread, View.ld_unit_zero (S := S1024x1024) offsets_zero]

/-- and the output block is left at the gated tile of the two updated accumulators read back. -/
theorem piece0_C_out (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x0 x1 x2 : Vec F S1024x1024 .bf16) (xs0 xs1 : Vec F S1024x1024 .f32) (v : View sig .tc .vmem S1024x1024 .bf16) (f : v.ty.Contents (Elt F)) :
    v.read (Elt F) (v.writes (Elt F) f (kernelRun0_C (F := F) c i a3 h3 a4 h4 a5 h5 a6 h6 a7 h7 a8 h8 hc0 hc1 x0 x1 x2 xs0 xs1).1) = k0_pay6 (k0_pay4 x0 xs0 x1) (k0_pay5 x0 xs1 x2) := by
  rw [View.read_writes_eq_canon _ _ _ (fun y => View.cover_of_tiledL _ S1024x1024.size (by sl_kernel_rfl) y)]
  unfold kernelRun0_C
  dsimp only
  sl_unfold_words
  rw [View.canon_unit_zero offsets_zero, View.readCov_unit_zero (S := S1024x1024) _ offsets_zero, View.readCov_unit_zero (S := S1024x1024) _ offsets_zero]
  simp only [View.readAt_eq_ld, h3.read_unread, h4.read_unread, h5.read_unread, h7.read_unread, h8.read_unread, View.ld_unit_zero (S := S1024x1024) offsets_zero]

/-! ## The first kernel at a grid point -/

theorem accA0_0_eq (c : Dev nD) (t : Fin cfg0.N) (h0 : t.val % 4 = 0) (h1 : ¬t.val % 4 = 3) (x0 x1 x2 : Vec F S1024x1024 .bf16) :
    accA0_0 c t h0 h1 x0 x1 x2 = k0_pay4 x0 (k0_pay1 (F := F)) x1 := by
  unfold accA0_0
  exact piece0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ x0 x1 x2 VS0_0 VS0_0.junk

theorem accA0_1_eq (c : Dev nD) (t : Fin cfg0.N) (h0 : t.val % 4 = 0) (h1 : ¬t.val % 4 = 3) (x0 x1 x2 : Vec F S1024x1024 .bf16) :
    accA0_1 c t h0 h1 x0 x1 x2 = k0_pay5 x0 (k0_pay2 (F := F)) x2 := by
  unfold accA0_1
  exact piece0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ x0 x1 x2 VS0_1 VS0_1.junk

theorem accB0_0_eq (c : Dev nD) (t : Fin cfg0.N) (h0 : ¬t.val % 4 = 0) (h1 : ¬t.val % 4 = 3) (x0 x1 x2 : Vec F S1024x1024 .bf16) (xs0 xs1 : Vec F S1024x1024 .f32) :
    accB0_0 c t h0 h1 x0 x1 x2 xs0 xs1 = k0_pay4 x0 xs0 x1 := by
  unfold accB0_0
  exact piece0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ x0 x1 x2 xs0 xs1 VS0_0 VS0_0.junk

theorem accB0_1_eq (c : Dev nD) (t : Fin cfg0.N) (h0 : ¬t.val % 4 = 0) (h1 : ¬t.val % 4 = 3) (x0 x1 x2 : Vec F S1024x1024 .bf16) (xs0 xs1 : Vec F S1024x1024 .f32) :
    accB0_1 c t h0 h1 x0 x1 x2 xs0 xs1 = k0_pay5 x0 xs1 x2 := by
  unfold accB0_1
  exact piece0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ x0 x1 x2 xs0 xs1 VS0_1 VS0_1.junk

theorem accC0_0_eq (c : Dev nD) (t : Fin cfg0.N) (h0 : ¬t.val % 4 = 0) (h1 : t.val % 4 = 3) (x0 x1 x2 : Vec F S1024x1024 .bf16) (xs0 xs1 : Vec F S1024x1024 .f32) :
    accC0_0 c t h0 h1 x0 x1 x2 xs0 xs1 = k0_pay4 x0 xs0 x1 := by
  unfold accC0_0
  exact piece0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ x0 x1 x2 xs0 xs1 VS0_0 VS0_0.junk

theorem accC0_1_eq (c : Dev nD) (t : Fin cfg0.N) (h0 : ¬t.val % 4 = 0) (h1 : t.val % 4 = 3) (x0 x1 x2 : Vec F S1024x1024 .bf16) (xs0 xs1 : Vec F S1024x1024 .f32) :
    accC0_1 c t h0 h1 x0 x1 x2 xs0 xs1 = k0_pay5 x0 xs1 x2 := by
  unfold accC0_1
  exact piece0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ x0 x1 x2 xs0 xs1 VS0_1 VS0_1.junk

theorem outC0_eq (c : Dev nD) (t : Fin cfg0.N) (h0 : ¬t.val % 4 = 0) (h1 : t.val % 4 = 3) (x0 x1 x2 : Vec F S1024x1024 .bf16) (xs0 xs1 : Vec F S1024x1024 .f32) :
    outC0 c t h0 h1 x0 x1 x2 xs0 xs1 = k0_pay6 (k0_pay4 x0 xs0 x1) (k0_pay5 x0 xs1 x2) := by
  unfold outC0
  exact piece0_C_out c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ x0 x1 x2 xs0 xs1 VO0_3 VO0_3.junk

end Cert.KernelIdeal.Hand

end
-- ==== Proof.KV.Acc0.lean ====
/-
  The first kernel's accumulation unrolled: the same four-step walk of a tile's contraction as the second kernel's, with
  two accumulators (gate and up) sharing the left block. After a tile's first point each holds one block product added
  to zeros; after every other point one block product added to what the point before left; and the output block at the
  tile's last point is the gated tile of the two accumulators after that point.
-/
import proofs.«163618_j42142219108650_2_alg».proof.Proof.KV.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtV
variable (V : (c : Dev nD) → (b : Ref sig .tc) → Buf (Elt F) ((c : Thread nD τ).loc b))

/-- The accumulators after a position depend on the position only. -/
theorem accAt0_congr (c : Dev nD) {n m : ℕ} (h : n = m) (hn : n < cfg0.N) (hm : m < cfg0.N) :
    accAt0 V c n hn = accAt0 V c m hm := by subst h; rfl

/-- The point `j` positions before `t` (the point itself when there is none). -/
abbrev back0 (t : Fin cfg0.N) (j : ℕ) : Fin cfg0.N := ⟨t.val - j, Nat.lt_of_le_of_lt (Nat.sub_le _ _) t.isLt⟩

theorem accAt0_first (c : Dev nD) (t : Fin cfg0.N) (h0 : t.val % 4 = 0) :
    accAt0 V c t.val t.isLt
      = (k0_pay4 (iblk0 V c 0 t) (k0_pay1 (F := F)) (iblk0 V c 1 t), k0_pay5 (iblk0 V c 0 t) (k0_pay2 (F := F)) (iblk0 V c 2 t)) :=
  have h1 : ¬t.val % 4 = 3 := by omega
  (accAt0_A V c t h0 h1).trans (congrArg₂ Prod.mk
    (accA0_0_eq c t h0 h1 (iblk0 V c 0 t) (iblk0 V c 1 t) (iblk0 V c 2 t))
    (accA0_1_eq c t h0 h1 (iblk0 V c 0 t) (iblk0 V c 1 t) (iblk0 V c 2 t)))

theorem accAt0_next (c : Dev nD) (t : Fin cfg0.N) (h0 : ¬t.val % 4 = 0) :
    accAt0 V c t.val t.isLt
      = (k0_pay4 (iblk0 V c 0 t) (prev0 V c t).1 (iblk0 V c 1 t), k0_pay5 (iblk0 V c 0 t) (prev0 V c t).2 (iblk0 V c 2 t)) := by
  by_cases h1 : t.val % 4 = 3
  · exact (accAt0_C V c t h0 h1).trans (congrArg₂ Prod.mk
      (accC0_0_eq c t h0 h1 (iblk0 V c 0 t) (iblk0 V c 1 t) (iblk0 V c 2 t) (prev0 V c t).1 (prev0 V c t).2)
      (accC0_1_eq c t h0 h1 (iblk0 V c 0 t) (iblk0 V c 1 t) (iblk0 V c 2 t) (prev0 V c t).1 (prev0 V c t).2))
  · exact (accAt0_B V c t h0 h1).trans (congrArg₂ Prod.mk
      (accB0_0_eq c t h0 h1 (iblk0 V c 0 t) (iblk0 V c 1 t) (iblk0 V c 2 t) (prev0 V c t).1 (prev0 V c t).2)
      (accB0_1_eq c t h0 h1 (iblk0 V c 0 t) (iblk0 V c 1 t) (iblk0 V c 2 t) (prev0 V c t).1 (prev0 V c t).2))

/-- One accumulator at a time. -/
theorem accAt0_next_gate (c : Dev nD) (t : Fin cfg0.N) (h0 : ¬t.val % 4 = 0) :
    (accAt0 V c t.val t.isLt).1 = k0_pay4 (iblk0 V c 0 t) (prev0 V c t).1 (iblk0 V c 1 t) :=
  congrArg Prod.fst (accAt0_next V c t h0)
theorem accAt0_next_up (c : Dev nD) (t : Fin cfg0.N) (h0 : ¬t.val % 4 = 0) :
    (accAt0 V c t.val t.isLt).2 = k0_pay5 (iblk0 V c 0 t) (prev0 V c t).2 (iblk0 V c 2 t) :=
  congrArg Prod.snd (accAt0_next V c t h0)
theorem accAt0_first_gate (c : Dev nD) (t : Fin cfg0.N) (h0 : t.val % 4 = 0) :
    (accAt0 V c t.val t.isLt).1 = k0_pay4 (iblk0 V c 0 t) (k0_pay1 (F := F)) (iblk0 V c 1 t) :=
  congrArg Prod.fst (accAt0_first V c t h0)
theorem accAt0_first_up (c : Dev nD) (t : Fin cfg0.N) (h0 : t.val % 4 = 0) :
    (accAt0 V c t.val t.isLt).2 = k0_pay5 (iblk0 V c 0 t) (k0_pay2 (F := F)) (iblk0 V c 2 t) :=
  congrArg Prod.snd (accAt0_first V c t h0)

/-- At a tile's last point the output block is left at the gated tile of the two accumulators after that point. -/
theorem outAt0_last (c : Dev nD) (t : Fin cfg0.N) (h1 : t.val % 4 = 3) :
    outAt0 V c t = k0_pay6 (accAt0 V c t.val t.isLt).1 (accAt0 V c t.val t.isLt).2 :=
  have h0 : ¬t.val % 4 = 0 := by omega
  (outAt0_C V c t h0 h1).trans ((outC0_eq c t h0 h1 (iblk0 V c 0 t) (iblk0 V c 1 t) (iblk0 V c 2 t) (prev0 V c t).1 (prev0 V c t).2).trans
    (congrArg₂ k0_pay6 (accAt0_next_gate V c t h0).symm (accAt0_next_up V c t h0).symm))

/-- The gate accumulator at a tile's last point: four block products added, in order, to zeros; -/
theorem accAt0_tile_gate (c : Dev nD) (t : Fin cfg0.N) (h : t.val % 4 = 3) :
    (accAt0 V c t.val t.isLt).1
      = k0_pay4 (iblk0 V c 0 t) (k0_pay4 (iblk0 V c 0 (back0 t 1)) (k0_pay4 (iblk0 V c 0 (back0 t 2))
          (k0_pay4 (iblk0 V c 0 (back0 t 3)) (k0_pay1 (F := F)) (iblk0 V c 1 (back0 t 3)))
          (iblk0 V c 1 (back0 t 2))) (iblk0 V c 1 (back0 t 1))) (iblk0 V c 1 t) := by
  have e1 : (prev0 V c t).1 = (accAt0 V c (back0 t 1).val (back0 t 1).isLt).1 := rfl
  have e2 : (prev0 V c (back0 t 1)).1 = (accAt0 V c (back0 t 2).val (back0 t 2).isLt).1 :=
    congrArg Prod.fst (accAt0_congr V c (by show t.val - 1 - 1 = t.val - 2; omega) _ _)
  have e3 : (prev0 V c (back0 t 2)).1 = (accAt0 V c (back0 t 3).val (back0 t 3).isLt).1 :=
    congrArg Prod.fst (accAt0_congr V c (by show t.val - 2 - 1 = t.val - 3; omega) _ _)
  rw [accAt0_next_gate V c t (by omega), e1,
    accAt0_next_gate V c (back0 t 1) (by show ¬(t.val - 1) % 4 = 0; omega), e2,
    accAt0_next_gate V c (back0 t 2) (by show ¬(t.val - 2) % 4 = 0; omega), e3,
    accAt0_first_gate V c (back0 t 3) (by show (t.val - 3) % 4 = 0; omega)]

/-- and the up accumulator likewise. -/
theorem accAt0_tile_up (c : Dev nD) (t : Fin cfg0.N) (h : t.val % 4 = 3) :
    (accAt0 V c t.val t.isLt).2
      = k0_pay5 (iblk0 V c 0 t) (k0_pay5 (iblk0 V c 0 (back0 t 1)) (k0_pay5 (iblk0 V c 0 (back0 t 2))
          (k0_pay5 (iblk0 V c 0 (back0 t 3)) (k0_pay2 (F := F)) (iblk0 V c 2 (back0 t 3)))
          (iblk0 V c 2 (back0 t 2))) (iblk0 V c 2 (back0 t 1))) (iblk0 V c 2 t) := by
  have e1 : (prev0 V c t).2 = (accAt0 V c (back0 t 1).val (back0 t 1).isLt).2 := rfl
  have e2 : (prev0 V c (back0 t 1)).2 = (accAt0 V c (back0 t 2).val (back0 t 2).isLt).2 :=
    congrArg Prod.snd (accAt0_congr V c (by show t.val - 1 - 1 = t.val - 2; omega) _ _)
  have e3 : (prev0 V c (back0 t 2)).2 = (accAt0 V c (back0 t 3).val (back0 t 3).isLt).2 :=
    congrArg Prod.snd (accAt0_congr V c (by show t.val - 2 - 1 = t.val - 3; omega) _ _)
  rw [accAt0_next_up V c t (by omega), e1,
    accAt0_next_up V c (back0 t 1) (by show ¬(t.val - 1) % 4 = 0; omega), e2,
    accAt0_next_up V c (back0 t 2) (by show ¬(t.val - 2) % 4 = 0; omega), e3,
    accAt0_first_up V c (back0 t 3) (by show (t.val - 3) % 4 = 0; omega)]

end AtV

end Cert.KernelIdeal.Hand

end
-- ==== Proof.PayloadAt.lean ====
/-
  The arithmetic of the two kernels' bodies read at one element of a 1024 x 1024 tile, at the extended reals.

  Each body does one of four things to its tiles: writes zeros; adds to an accumulator tile the product of a tile of the
  left matrix with a tile of the right matrix (at an element: the accumulator there plus the sum over the 1024
  contraction positions of the products); applies the activation to a gate tile and multiplies by an up tile, element
  by element; or copies a tile. Changes of float format are the identity on the extended reals, a reshape of a tile to
  its own shape is the identity, and the product into a zero tile is just the sum.
-/
import proofs.«163618_j42142219108650_2_alg».proof.Proof.Gen.KernelIdeal.Skeleton
import proofs.«163618_j42142219108650_2_alg».proof.Proof.Spec
import Idealize.ShloMosaic.Lib.ValueIdx
import Idealize.ShloMosaic.Lib.Pipeline.Value
import Idealize.ShloMosaic.PureOps.Ideal.Laws

noncomputable section

open scoped BigOperators

namespace Cert.GatedMlp

open Idealize.ShloMosaic Idealize.ShloMosaic.ValueIdx

/-- The tile product's dimension numbers: contract axis 1 of the left tile with axis 0 of the right tile. -/
abbrev tileDot : DotDims S1024x1024 S1024x1024 S1024x1024 :=
  Cert.KernelIdeal.dot_S1024x1024_S1024x1024_S1024x1024_1_0_0_1_n_n

theorem tileDot_lhs0 (i : S1024x1024.Idx) (q : tileDot.contr.Idx) : (tileDot.lhsIdx i q 0).val = (i 0).val := by
  unfold DotDims.lhsIdx
  rw [dif_neg (show ¬(0 : Fin S1024x1024.rank) ∈ tileDot.lhsBatch by decide),
    dif_pos (show (0 : Fin S1024x1024.rank) ∈ tileDot.lhsNonContracting by decide)]
  rfl
theorem tileDot_lhs1 (i : S1024x1024.Idx) (q : tileDot.contr.Idx) :
    (tileDot.lhsIdx i q 1).val = (q ⟨0, by decide⟩).val :=
  tileDot.lhsIdx_val_of_single rfl i q
theorem tileDot_rhs0 (i : S1024x1024.Idx) (q : tileDot.contr.Idx) :
    (tileDot.rhsIdx i q 0).val = (q ⟨0, by decide⟩).val :=
  tileDot.rhsIdx_val_of_single rfl i q
theorem tileDot_rhs1 (i : S1024x1024.Idx) (q : tileDot.contr.Idx) : (tileDot.rhsIdx i q 1).val = (i 1).val := by
  unfold DotDims.rhsIdx
  rw [dif_neg (show ¬(1 : Fin S1024x1024.rank) ∈ tileDot.rhsBatch by decide),
    dif_pos (show (1 : Fin S1024x1024.rank) ∈ tileDot.rhsNonContracting by decide)]
  rfl

/-- The product of two tiles into a zero tile, at element (p, q): the sum over the contraction position k of the left
    tile at (p, k) times the right tile at (k, q). -/
theorem tile_matmul_zero (l r : S1024x1024.Idx → EReal) (p q : Fin 1024) :
    FloatOps.matmul (F := Ideal) (φ₁ := .bf16) (φ₂ := .bf16) tileDot none l r (constant (F := Ideal) S1024x1024 .f32 0x00000000#32) (ix2 p q)
      = ∑ k : Fin 1024, l (ix2 p k) * r (ix2 k q) := by
  rw [Ideal.matmul_constant_zero_apply, ← Equiv.sum_comp (contrEquiv1 tileDot 1024 rfl rfl).symm]
  refine Finset.sum_congr rfl fun k _ => ?_
  have hk := contrEquiv1_symm_val tileDot 1024 rfl rfl k
  have el : tileDot.lhsIdx (ix2 p q) ((contrEquiv1 tileDot 1024 rfl rfl).symm k) = ix2 p k := funext fun a => Fin.ext (by
    match a with
    | ⟨0, _⟩ => exact tileDot_lhs0 _ _
    | ⟨1, _⟩ => exact (tileDot_lhs1 _ _).trans hk)
  have er : tileDot.rhsIdx (ix2 p q) ((contrEquiv1 tileDot 1024 rfl rfl).symm k) = ix2 k q := funext fun a => Fin.ext (by
    match a with
    | ⟨0, _⟩ => exact (tileDot_rhs0 _ _).trans hk
    | ⟨1, _⟩ => exact tileDot_rhs1 _ _)
  rw [el, er]

/-! ## The first kernel's payloads (gate and up accumulation, then the activation) -/

/-- The tile of zeros the gate accumulator starts from. -/
theorem k0_pay1_at (i : S1024x1024.Idx) : Cert.KernelIdeal.Gen.k0_pay1 (F := Ideal) i = 0 := by
  unfold Cert.KernelIdeal.Gen.k0_pay1
  rw [shapeCast_self]
  exact Ideal.ofBits_zero_f32

/-- The tile of zeros the up accumulator starts from. -/
theorem k0_pay2_at (i : S1024x1024.Idx) : Cert.KernelIdeal.Gen.k0_pay2 (F := Ideal) i = 0 := by
  unfold Cert.KernelIdeal.Gen.k0_pay2
  rw [shapeCast_self]
  exact Ideal.ofBits_zero_f32

/-- The left tile as the products read it: itself. -/
theorem k0_pay3_eq (x3 : S1024x1024.Idx → EReal) : Cert.KernelIdeal.Gen.k0_pay3 (F := Ideal) x3 = x3 := by
  unfold Cert.KernelIdeal.Gen.k0_pay3
  exact shapeCast_self _ _

/-- One step of the gate accumulation at element (p, q): the accumulator there plus the tile product there. -/
theorem k0_pay4_at (x3 acc x4 : S1024x1024.Idx → EReal) (p q : Fin 1024) :
    Cert.KernelIdeal.Gen.k0_pay4 (F := Ideal) x3 acc x4 (ix2 p q)
      = acc (ix2 p q) + ∑ k : Fin 1024, x3 (ix2 p k) * x4 (ix2 k q) := by
  unfold Cert.KernelIdeal.Gen.k0_pay4
  rw [shapeCast_self, shapeCast_self, k0_pay3_eq]
  exact congrArg (acc (ix2 p q) + ·) (tile_matmul_zero x3 x4 p q)

/-- One step of the up accumulation at element (p, q). -/
theorem k0_pay5_at (x3 acc x5 : S1024x1024.Idx → EReal) (p q : Fin 1024) :
    Cert.KernelIdeal.Gen.k0_pay5 (F := Ideal) x3 acc x5 (ix2 p q)
      = acc (ix2 p q) + ∑ k : Fin 1024, x3 (ix2 p k) * x5 (ix2 k q) := by
  unfold Cert.KernelIdeal.Gen.k0_pay5
  rw [shapeCast_self, shapeCast_self, k0_pay3_eq]
  exact congrArg (acc (ix2 p q) + ·) (tile_matmul_zero x3 x5 p q)

/-- The gated tile at an element: the activation of the gate there times the up value there. -/
theorem k0_pay6_at (g u : S1024x1024.Idx → EReal) (i : S1024x1024.Idx) :
    Cert.KernelIdeal.Gen.k0_pay6 (F := Ideal) g u i = act (g i) * u i := rfl

/-! ## The second kernel's payloads (the down accumulation, then the copy out) -/

/-- The tile of zeros the down accumulator starts from. -/
theorem k1_pay1_at (i : S1024x1024.Idx) : Cert.KernelIdeal.Gen.k1_pay1 (F := Ideal) i = 0 := by
  unfold Cert.KernelIdeal.Gen.k1_pay1
  rw [shapeCast_self]
  exact Ideal.ofBits_zero_f32

/-- One step of the down accumulation at element (p, q). -/
theorem k1_pay2_at (acc a b : S1024x1024.Idx → EReal) (p q : Fin 1024) :
    Cert.KernelIdeal.Gen.k1_pay2 (F := Ideal) acc a b (ix2 p q)
      = acc (ix2 p q) + ∑ k : Fin 1024, a (ix2 p k) * b (ix2 k q) := by
  unfold Cert.KernelIdeal.Gen.k1_pay2
  rw [shapeCast_self, shapeCast_self, shapeCast_self]
  exact congrArg (acc (ix2 p q) + ·) (tile_matmul_zero a b p q)

/-- The tile written out is the accumulator tile. -/
theorem k1_pay3_eq (v : S1024x1024.Idx → EReal) : Cert.KernelIdeal.Gen.k1_pay3 (F := Ideal) v = v := rfl

end Cert.GatedMlp

end
-- ==== Proof.Blocked.lean ====
/-
  A contraction over 4096 positions evaluated tile by tile. If four left tiles hold, on row p, the 4096 entries of row r of
  a matrix H in blocks of 1024, and four right tiles hold, on column q, the 4096 entries of column n of W in the same
  blocks, then accumulating the four tile products at (p, q) from zero gives the contraction of row r of H with column n
  of W. Only the grouping of a finite sum changes, so no finiteness is needed.
-/
import proofs.«163618_j42142219108650_2_alg».proof.Proof.Spec

noncomputable section

open scoped BigOperators

namespace Cert.GatedMlp

open Idealize.ShloMosaic Idealize.ShloMosaic.ValueIdx

/-- The product of a left tile and a right tile at (p, q). -/
def tileProd (l w : S1024x1024.Idx → EReal) (p q : Fin 1024) : EReal :=
  ∑ k : Fin 1024, l (ix2 p k) * w (ix2 k q)

/-- One block's share of the contraction is the product of the tiles that hold that block. -/
theorem tileProd_eq_block (H : S8192x4096.Idx → EReal) (W : S4096x4096.Idx → EReal) (r : Fin 8192) (n : Fin 4096)
    (l w : S1024x1024.Idx → EReal) (p q : Fin 1024) (kb : Nat) (hkb : kb < 4)
    (hl : ∀ k : Fin 1024, l (ix2 p k) = H (ix2 r (⟨1024 * kb + k.val, by omega⟩ : Fin 4096)))
    (hw : ∀ k : Fin 1024, w (ix2 k q) = W (ix2 (⟨1024 * kb + k.val, by omega⟩ : Fin 4096) n)) :
    tileProd l w p q
      = ∑ k : Fin 1024, (fun k' : Fin 4096 => H (ix2 r k') * W (ix2 k' n)) (⟨1024 * kb + k.val, by omega⟩ : Fin 4096) := by
  unfold tileProd
  exact Finset.sum_congr rfl fun k _ => by rw [hl k, hw k]

/-- The accumulator after the first n blocks is the partial contraction over the positions below 1024 * n: it starts at
    zero and each block adds its tile product. -/
theorem partial_step (H : S8192x4096.Idx → EReal) (W : S4096x4096.Idx → EReal) (r : Fin 8192) (n : Fin 4096)
    (l w : S1024x1024.Idx → EReal) (p q : Fin 1024) (kb : Nat) (hkb : kb < 4)
    (hl : ∀ k : Fin 1024, l (ix2 p k) = H (ix2 r (⟨1024 * kb + k.val, by omega⟩ : Fin 4096)))
    (hw : ∀ k : Fin 1024, w (ix2 k q) = W (ix2 (⟨1024 * kb + k.val, by omega⟩ : Fin 4096) n)) :
    partialSum (fun k' : Fin 4096 => H (ix2 r k') * W (ix2 k' n)) kb + tileProd l w p q
      = partialSum (fun k' : Fin 4096 => H (ix2 r k') * W (ix2 k' n)) (kb + 1) := by
  rw [partialSum_succ _ kb hkb, tileProd_eq_block H W r n l w p q kb hkb hl hw]

/-- After the fourth block the accumulator is the whole contraction. -/
theorem partial_four (H : S8192x4096.Idx → EReal) (W : S4096x4096.Idx → EReal) (r : Fin 8192) (n : Fin 4096) :
    partialSum (fun k' : Fin 4096 => H (ix2 r k') * W (ix2 k' n)) 4 = dotAt H W r n :=
  partialSum_four _

/-- Four tile products accumulated from zero are the contraction. -/
theorem dot_of_tiles (H : S8192x4096.Idx → EReal) (W : S4096x4096.Idx → EReal) (r : Fin 8192) (n : Fin 4096)
    (l w : Fin 4 → S1024x1024.Idx → EReal) (p q : Fin 1024)
    (hl : ∀ (kb : Fin 4) (k : Fin 1024), l kb (ix2 p k) = H (ix2 r (⟨1024 * kb.val + k.val, by omega⟩ : Fin 4096)))
    (hw : ∀ (kb : Fin 4) (k : Fin 1024), w kb (ix2 k q) = W (ix2 (⟨1024 * kb.val + k.val, by omega⟩ : Fin 4096) n)) :
    (((0 + tileProd (l 0) (w 0) p q) + tileProd (l 1) (w 1) p q) + tileProd (l 2) (w 2) p q) + tileProd (l 3) (w 3) p q
      = dotAt H W r n := by
  rw [← partialSum_zero (fun k' : Fin 4096 => H (ix2 r k') * W (ix2 k' n)),
    partial_step H W r n (l 0) (w 0) p q 0 (by omega) (hl 0) (hw 0),
    partial_step H W r n (l 1) (w 1) p q 1 (by omega) (hl 1) (hw 1),
    partial_step H W r n (l 2) (w 2) p q 2 (by omega) (hl 2) (hw 2),
    partial_step H W r n (l 3) (w 3) p q 3 (by omega) (hl 3) (hw 3)]
  exact partial_four H W r n

end Cert.GatedMlp

end
-- ==== Proof.KV.Gated.lean ====
/-
  The first kernel's result array, read off the pipeline's proof data: it ends holding the gated hidden array of the
  specification, of the three arrays the kernel reads.

  The grid has 8 x 4 x 4 points; point t works on row block t / 16, column block t / 4 % 4 and contraction block t % 4.
  The two accumulators after point t hold, at tile element (p, q), the partial contractions of row 1024 * (t / 16) + p of
  the rows array with column 1024 * (t / 4 % 4) + q of the gate and of the up weights over the positions below
  1024 * (t % 4 + 1): zero plus the first tile product where t % 4 = 0, and one more tile product added to what the
  point before left elsewhere (the point before has the same row and column block). Where t % 4 = 3 the partial
  contractions are the whole ones, the stored output tile is the activation of the gate total times the up total, and
  that point writes the tile back; those tiles cover the array.
-/
import proofs.«163618_j42142219108650_2_alg».proof.Proof.KI.Reg0
import proofs.«163618_j42142219108650_2_alg».proof.Proof.KV.Acc0
import proofs.«163618_j42142219108650_2_alg».proof.Proof.PayloadAt
import proofs.«163618_j42142219108650_2_alg».proof.Proof.Blocked
import Idealize.ShloMosaic.Lib.Pipeline.Value

set_option maxRecDepth 16384

noncomputable section

open scoped BigOperators

namespace Cert.KernelValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.GatedMlp (act dotAt gatedAt gatedFlat tileProd partialSum)

/-- The block indices of the four windows at a grid point, decided over the 128 points: point t is row block t / 16,
    column block t / 4 % 4, contraction block t % 4. -/
theorem idx_facts0 : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val % 4 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- What the accumulators' stored pieces read back as: the payloads of the blocks and of the accumulators the body found. -/
structure PiecesAre : Prop where
  accA_0 : ∀ (c : Dev nD) (t : Fin cfg0.N) (h0 : t.val % 4 = 0) (h1 : ¬t.val % 4 = 3) (x0 x1 x2 : Vec Ideal S1024x1024 .bf16),
    accA0_0 (F := Ideal) c t h0 h1 x0 x1 x2 = k0_pay4 (F := Ideal) x0 (k0_pay1 (F := Ideal)) x1
  accA_1 : ∀ (c : Dev nD) (t : Fin cfg0.N) (h0 : t.val % 4 = 0) (h1 : ¬t.val % 4 = 3) (x0 x1 x2 : Vec Ideal S1024x1024 .bf16),
    accA0_1 (F := Ideal) c t h0 h1 x0 x1 x2 = k0_pay5 (F := Ideal) x0 (k0_pay2 (F := Ideal)) x2
  accB_0 : ∀ (c : Dev nD) (t : Fin cfg0.N) (h0 : ¬t.val % 4 = 0) (h1 : ¬t.val % 4 = 3) (x0 x1 x2 : Vec Ideal S1024x1024 .bf16)
    (xs0 xs1 : Vec Ideal S1024x1024 .f32), accB0_0 (F := Ideal) c t h0 h1 x0 x1 x2 xs0 xs1 = k0_pay4 (F := Ideal) x0 xs0 x1
  accB_1 : ∀ (c : Dev nD) (t : Fin cfg0.N) (h0 : ¬t.val % 4 = 0) (h1 : ¬t.val % 4 = 3) (x0 x1 x2 : Vec Ideal S1024x1024 .bf16)
    (xs0 xs1 : Vec Ideal S1024x1024 .f32), accB0_1 (F := Ideal) c t h0 h1 x0 x1 x2 xs0 xs1 = k0_pay5 (F := Ideal) x0 xs1 x2
  accC_0 : ∀ (c : Dev nD) (t : Fin cfg0.N) (h0 : ¬t.val % 4 = 0) (h1 : t.val % 4 = 3) (x0 x1 x2 : Vec Ideal S1024x1024 .bf16)
    (xs0 xs1 : Vec Ideal S1024x1024 .f32), accC0_0 (F := Ideal) c t h0 h1 x0 x1 x2 xs0 xs1 = k0_pay4 (F := Ideal) x0 xs0 x1
  accC_1 : ∀ (c : Dev nD) (t : Fin cfg0.N) (h0 : ¬t.val % 4 = 0) (h1 : t.val % 4 = 3) (x0 x1 x2 : Vec Ideal S1024x1024 .bf16)
    (xs0 xs1 : Vec Ideal S1024x1024 .f32), accC0_1 (F := Ideal) c t h0 h1 x0 x1 x2 xs0 xs1 = k0_pay5 (F := Ideal) x0 xs1 x2

/-- One accumulation step at tile element (p, q), over any tiles: an accumulator at the partial contraction over the
    first kb blocks, plus the product of tiles that hold block kb, is the partial contraction over kb + 1 blocks. -/
theorem acc_step (Hm : Cert.GatedMlp.S8192x4096.Idx → EReal) (W : Cert.GatedMlp.S4096x4096.Idx → EReal) (r : Fin 8192) (n : Fin 4096)
    (x0 acc x1 : S1024x1024.Idx → EReal) (p q : Fin 1024) (kb : ℕ) (hkb : kb < 4)
    (hl : ∀ k : Fin 1024, x0 (ix2 p k) = Hm (ix2 r (⟨1024 * kb + k.val, by omega⟩ : Fin 4096)))
    (hw : ∀ k : Fin 1024, x1 (ix2 k q) = W (ix2 (⟨1024 * kb + k.val, by omega⟩ : Fin 4096) n))
    (hacc : acc (ix2 p q) = partialSum (fun k' : Fin 4096 => Hm (ix2 r k') * W (ix2 k' n)) kb) :
    acc (ix2 p q) + ∑ k : Fin 1024, x0 (ix2 p k) * x1 (ix2 k q)
      = partialSum (fun k' : Fin 4096 => Hm (ix2 r k') * W (ix2 k' n)) (kb + 1) := by
  rw [hacc]
  exact Cert.GatedMlp.partial_step Hm W r n x0 x1 p q kb hkb hl hw

section AtV
variable (V : (c : Dev nD) → (b : Ref sig .tc) → Buf (Elt Ideal) ((c : Thread nD τ).loc b)) (c : Dev nD)

/-- The three arrays the first kernel reads, as the region finds them: the rows, the gate weights, the up weights. -/
abbrev H : Cert.GatedMlp.S8192x4096.Idx → EReal := V c main_v1
abbrev Wg : Cert.GatedMlp.S4096x4096.Idx → EReal := V c main_v2
abbrev Wu : Cert.GatedMlp.S4096x4096.Idx → EReal := V c main_v3

/-- The rows tile at a point, at (p, k): the rows array at row 1024 * (t / 16) + p, column 1024 * (t % 4) + k. -/
theorem rows_at (t : Fin cfg0.N) (p k : Fin 1024) :
    (iblk0 V c 0 t : S1024x1024.Idx → EReal) (ix2 p k)
      = H V c (ix2 (⟨1024 * (t.val / 16) + p.val, by have := t.isLt; have : cfg0.N = 128 := N_0; omega⟩ : Fin 8192)
          (⟨1024 * (t.val % 4) + k.val, by omega⟩ : Fin 4096)) := by
  obtain ⟨e00, e01, -⟩ := idx_facts0 t
  show V c main_v1 (((cfg0.win 0).blk t).view.emb (ix2 p k)) = V c main_v1 _
  congr 1
  funext a
  apply Fin.ext
  match a with
  | ⟨0, _⟩ => show win0_0.index t (0 : Fin 2) * 1024 + 1 * p.val = 1024 * (t.val / 16) + p.val; rw [e00]; omega
  | ⟨1, _⟩ => show win0_0.index t (1 : Fin 2) * 1024 + 1 * k.val = 1024 * (t.val % 4) + k.val; rw [e01]; omega

/-- The gate weights' tile at a point, at (k, q): row 1024 * (t % 4) + k, column 1024 * (t / 4 % 4) + q. -/
theorem gcols_at (t : Fin cfg0.N) (k q : Fin 1024) :
    (iblk0 V c 1 t : S1024x1024.Idx → EReal) (ix2 k q)
      = Wg V c (ix2 (⟨1024 * (t.val % 4) + k.val, by omega⟩ : Fin 4096) (⟨1024 * (t.val / 4 % 4) + q.val, by omega⟩ : Fin 4096)) := by
  obtain ⟨-, -, e10, e11, -⟩ := idx_facts0 t
  show V c main_v2 (((cfg0.win 1).blk t).view.emb (ix2 k q)) = V c main_v2 _
  congr 1
  funext a
  apply Fin.ext
  match a with
  | ⟨0, _⟩ => show win0_1.index t (0 : Fin 2) * 1024 + 1 * k.val = 1024 * (t.val % 4) + k.val; rw [e10]; omega
  | ⟨1, _⟩ => show win0_1.index t (1 : Fin 2) * 1024 + 1 * q.val = 1024 * (t.val / 4 % 4) + q.val; rw [e11]; omega

/-- The up weights' tile at a point, at (k, q). -/
theorem ucols_at (t : Fin cfg0.N) (k q : Fin 1024) :
    (iblk0 V c 2 t : S1024x1024.Idx → EReal) (ix2 k q)
      = Wu V c (ix2 (⟨1024 * (t.val % 4) + k.val, by omega⟩ : Fin 4096) (⟨1024 * (t.val / 4 % 4) + q.val, by omega⟩ : Fin 4096)) := by
  obtain ⟨-, -, -, -, e20, e21, -⟩ := idx_facts0 t
  show V c main_v3 (((cfg0.win 2).blk t).view.emb (ix2 k q)) = V c main_v3 _
  congr 1
  funext a
  apply Fin.ext
  match a with
  | ⟨0, _⟩ => show win0_2.index t (0 : Fin 2) * 1024 + 1 * k.val = 1024 * (t.val % 4) + k.val; rw [e20]; omega
  | ⟨1, _⟩ => show win0_2.index t (1 : Fin 2) * 1024 + 1 * q.val = 1024 * (t.val / 4 % 4) + q.val; rw [e21]; omega

set_option maxHeartbeats 1000000 in
/-- THE ACCUMULATORS AFTER POINT n, at tile element (p, q): the partial contractions, over the positions below
    1024 * (n % 4 + 1), of row r = 1024 * (n / 16) + p of the rows with column col = 1024 * (n / 4 % 4) + q of the gate
    weights and of the up weights. By induction on the point. -/
theorem acc_at (P : PiecesAre) : ∀ (n : ℕ) (hn : n < cfg0.N) (p q : Fin 1024) (r : Fin 8192) (col : Fin 4096),
    r.val = 1024 * (n / 16) + p.val → col.val = 1024 * (n / 4 % 4) + q.val →
    (accAt0 V c n hn).1 (ix2 p q) = partialSum (fun k' : Fin 4096 => H V c (ix2 r k') * Wg V c (ix2 k' col)) (n % 4 + 1)
    ∧ (accAt0 V c n hn).2 (ix2 p q) = partialSum (fun k' : Fin 4096 => H V c (ix2 r k') * Wu V c (ix2 k' col)) (n % 4 + 1) := by
  intro n
  induction n using Nat.strong_induction_on with
  | _ n ih =>
    intro hn p q
    have hN : cfg0.N = 128 := N_0
    have hn' : n < 128 := hN ▸ hn
    have hb1 : 1024 * (n / 16) + p.val < 8192 := by omega
    have hb2 : 1024 * (n / 4 % 4) + q.val < 4096 := by omega
    intro r col hr hc
    obtain rfl : r = (⟨1024 * (n / 16) + p.val, hb1⟩ : Fin 8192) := Fin.ext hr
    obtain rfl : col = (⟨1024 * (n / 4 % 4) + q.val, hb2⟩ : Fin 4096) := Fin.ext hc
    have hl : ∀ k : Fin 1024, (iblk0 V c 0 ⟨n, hn⟩ : S1024x1024.Idx → EReal) (ix2 p k)
        = H V c (ix2 (⟨1024 * (n / 16) + p.val, by omega⟩ : Fin 8192) (⟨1024 * (n % 4) + k.val, by omega⟩ : Fin 4096)) :=
      fun k => rows_at V c ⟨n, hn⟩ p k
    have hwg : ∀ k : Fin 1024, (iblk0 V c 1 ⟨n, hn⟩ : S1024x1024.Idx → EReal) (ix2 k q)
        = Wg V c (ix2 (⟨1024 * (n % 4) + k.val, by omega⟩ : Fin 4096) (⟨1024 * (n / 4 % 4) + q.val, by omega⟩ : Fin 4096)) :=
      fun k => gcols_at V c ⟨n, hn⟩ k q
    have hwu : ∀ k : Fin 1024, (iblk0 V c 2 ⟨n, hn⟩ : S1024x1024.Idx → EReal) (ix2 k q)
        = Wu V c (ix2 (⟨1024 * (n % 4) + k.val, by omega⟩ : Fin 4096) (⟨1024 * (n / 4 % 4) + q.val, by omega⟩ : Fin 4096)) :=
      fun k => ucols_at V c ⟨n, hn⟩ k q
    by_cases h0 : n % 4 = 0
    · have h1 : ¬n % 4 = 3 := by omega
      have e := accAt0_A V c ⟨n, hn⟩ h0 h1
      rw [show accAt0 V c n hn = _ from e]
      dsimp only
      rw [P.accA_0, P.accA_1, Cert.GatedMlp.k0_pay4_at, Cert.GatedMlp.k0_pay5_at]
      have hk : n % 4 + 1 = 0 + 1 := by omega
      rw [hk]
      have hl0 : ∀ k : Fin 1024, (iblk0 V c 0 ⟨n, hn⟩ : S1024x1024.Idx → EReal) (ix2 p k)
          = H V c (ix2 (⟨1024 * (n / 16) + p.val, by omega⟩ : Fin 8192) (⟨1024 * 0 + k.val, by omega⟩ : Fin 4096)) :=
        fun k => (hl k).trans (congrArg (fun z : Fin 4096 => H V c (ix2 _ z)) (Fin.ext (by show 1024 * (n % 4) + k.val = 1024 * 0 + k.val; omega)))
      have hwg0 : ∀ k : Fin 1024, (iblk0 V c 1 ⟨n, hn⟩ : S1024x1024.Idx → EReal) (ix2 k q)
          = Wg V c (ix2 (⟨1024 * 0 + k.val, by omega⟩ : Fin 4096) (⟨1024 * (n / 4 % 4) + q.val, by omega⟩ : Fin 4096)) :=
        fun k => (hwg k).trans (congrArg (fun z : Fin 4096 => Wg V c (ix2 z _)) (Fin.ext (by show 1024 * (n % 4) + k.val = 1024 * 0 + k.val; omega)))
      have hwu0 : ∀ k : Fin 1024, (iblk0 V c 2 ⟨n, hn⟩ : S1024x1024.Idx → EReal) (ix2 k q)
          = Wu V c (ix2 (⟨1024 * 0 + k.val, by omega⟩ : Fin 4096) (⟨1024 * (n / 4 % 4) + q.val, by omega⟩ : Fin 4096)) :=
        fun k => (hwu k).trans (congrArg (fun z : Fin 4096 => Wu V c (ix2 z _)) (Fin.ext (by show 1024 * (n % 4) + k.val = 1024 * 0 + k.val; omega)))
      exact ⟨acc_step (H V c) (Wg V c) _ _ _ _ _ p q 0 (by omega) hl0 hwg0
          ((Cert.GatedMlp.k0_pay1_at _).trans (Cert.GatedMlp.partialSum_zero _).symm),
        acc_step (H V c) (Wu V c) _ _ _ _ _ p q 0 (by omega) hl0 hwu0
          ((Cert.GatedMlp.k0_pay2_at _).trans (Cert.GatedMlp.partialSum_zero _).symm)⟩
    · have hpos : 0 < n := by omega
      obtain ⟨ihg, ihu⟩ := ih (n - 1) (by omega) (by omega) p q
        (⟨1024 * (n / 16) + p.val, by omega⟩ : Fin 8192) (⟨1024 * (n / 4 % 4) + q.val, by omega⟩ : Fin 4096)
        (by show 1024 * (n / 16) + p.val = 1024 * ((n - 1) / 16) + p.val; omega)
        (by show 1024 * (n / 4 % 4) + q.val = 1024 * ((n - 1) / 4 % 4) + q.val; omega)
      have hk : (n - 1) % 4 + 1 = n % 4 := by omega
      rw [hk] at ihg ihu
      by_cases h1 : n % 4 = 3
      · have e := accAt0_C V c ⟨n, hn⟩ h0 h1
        rw [show accAt0 V c n hn = _ from e]
        dsimp only
        rw [P.accC_0, P.accC_1, Cert.GatedMlp.k0_pay4_at, Cert.GatedMlp.k0_pay5_at]
        exact ⟨acc_step (H V c) (Wg V c) _ _ _ _ _ p q (n % 4) (by omega) hl hwg ihg,
          acc_step (H V c) (Wu V c) _ _ _ _ _ p q (n % 4) (by omega) hl hwu ihu⟩
      · have e := accAt0_B V c ⟨n, hn⟩ h0 h1
        rw [show accAt0 V c n hn = _ from e]
        dsimp only
        rw [P.accB_0, P.accB_1, Cert.GatedMlp.k0_pay4_at, Cert.GatedMlp.k0_pay5_at]
        exact ⟨acc_step (H V c) (Wg V c) _ _ _ _ _ p q (n % 4) (by omega) hl hwg ihg,
          acc_step (H V c) (Wu V c) _ _ _ _ _ p q (n % 4) (by omega) hl hwu ihu⟩

/-- THE STORED OUTPUT TILE where t % 4 = 3, at (p, q): the gated hidden value at row 1024 * (t / 16) + p, column
    1024 * (t / 4 % 4) + q — the activation of the gate total times the up total. -/
theorem out_at (P : PiecesAre) (t : Fin cfg0.N) (h1 : t.val % 4 = 3) (p q : Fin 1024) (r : Fin 8192) (col : Fin 4096)
    (hr : r.val = 1024 * (t.val / 16) + p.val) (hc : col.val = 1024 * (t.val / 4 % 4) + q.val) :
    (outAt0 V c t : S1024x1024.Idx → EReal) (ix2 p q) = gatedAt (H V c) (Wg V c) (Wu V c) r col := by
  rw [outAt0_last V c t h1, Cert.GatedMlp.k0_pay6_at]
  obtain ⟨hg, hu⟩ := acc_at V c P t.val t.isLt p q r col hr hc
  rw [hg, hu]
  have h4 : t.val % 4 + 1 = 4 := by omega
  rw [h4, Cert.GatedMlp.partial_four, Cert.GatedMlp.partial_four]
  rfl

/-- The gated hidden array of the three arrays the kernel reads, as contents of its result array. -/
abbrev G : Buf (Elt Ideal) ((c : Thread nD τ).loc main_v5) := gatedFlat (H V c) (Wg V c) (Wu V c)

/-- WHAT A FLUSHING POINT WRITES BACK is its tile of the gated hidden array. -/
theorem flushed_eq (P : PiecesAre) (t : Fin cfg0.N) (hf : (cfg0.win 3).flush t = true) :
    (dat0 V c).flushed 3 t = ((cfg0.win 3).blk t).view.read (Elt Ideal) (G V c) := by
  have h3 : t.val % 4 = 3 := (flush0_3 t).mp hf
  have hN : cfg0.N = 128 := N_0
  have ht : t.val < 128 := hN ▸ t.isLt
  obtain ⟨-, -, -, -, -, -, e30, e31⟩ := idx_facts0 t
  show (cfg0.win 3).cut (grid0.coords t) ((dat0 V c).after 3 t) = _
  rw [after0_3]
  funext y
  obtain ⟨p, q, rfl⟩ : ∃ (p q : Fin 1024), y = ix2 p q := ⟨y 0, y 1, eq_ix2 y⟩
  have hb1 : 1024 * (t.val / 16) + p.val < 8192 := by omega
  have hb2 : 1024 * (t.val / 4 % 4) + q.val < 4096 := by omega
  show (outAt0 V c t : S1024x1024.Idx → EReal) (ix2 p q)
    = gatedFlat (H V c) (Wg V c) (Wu V c) (((cfg0.win 3).blk t).view.emb (ix2 p q))
  rw [out_at V c P t h3 p q ⟨_, hb1⟩ ⟨_, hb2⟩ rfl rfl]
  have hr : (⟨1024 * (t.val / 16) + p.val, hb1⟩ : Fin 8192) = (((cfg0.win 3).blk t).view.emb (ix2 p q)) 0 :=
    Fin.ext (by show 1024 * (t.val / 16) + p.val = win0_3.index t (0 : Fin 2) * 1024 + 1 * p.val; rw [e30]; omega)
  have hc : (⟨1024 * (t.val / 4 % 4) + q.val, hb2⟩ : Fin 4096) = (((cfg0.win 3).blk t).view.emb (ix2 p q)) 1 :=
    Fin.ext (by show 1024 * (t.val / 4 % 4) + q.val = win0_3.index t (1 : Fin 2) * 1024 + 1 * q.val; rw [e31]; omega)
  exact congrArg₂ (gatedAt (H V c) (Wg V c) (Wu V c)) hr hc

/-- Every element of the result array is in the tile of a flushing point: element (i0, i1) in that of the last
    contraction step of row block i0 / 1024 and column block i1 / 1024. -/
theorem cover (i : S8192x4096.Idx) :
    ∃ t : Fin cfg0.N, (cfg0.win 3).flush t = true ∧ i ∈ ((cfg0.win 3).blk t).view.set := by
  have hN : cfg0.N = 128 := N_0
  have hi0 : (i 0).val < 8192 := (i 0).isLt
  have hi1 : (i 1).val < 4096 := (i 1).isLt
  obtain ⟨t, htv⟩ : ∃ t : Fin cfg0.N, t.val = 16 * ((i 0).val / 1024) + 4 * ((i 1).val / 1024) + 3 :=
    ⟨⟨16 * ((i 0).val / 1024) + 4 * ((i 1).val / 1024) + 3, by omega⟩, rfl⟩
  obtain ⟨-, -, -, -, -, -, e30, e31⟩ := idx_facts0 t
  refine ⟨t, (flush0_3 t).mpr (by omega), ?_⟩
  show i ∈ ((View.whole main_v5).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e30]; omega
  | ⟨1, _⟩ =>
    show win0_3.index t (1 : Fin 2) * 1024 ≤ (i 1).val ∧ (i 1).val < win0_3.index t (1 : Fin 2) * 1024 + 1024
    rw [e31]; omega

/-- THE RESULT ARRAY after the region: the gated hidden array, given what the pieces read back as. -/
theorem gated_final_of (P : PiecesAre) : (dat0 (F := Ideal) V c).arrAt 3 cfg0.N = G V c :=
  (dat0 V c).arrAt_eq_of_cover 3 (G V c) (fun t hf => flushed_eq V c P t hf) (fun i => cover i)

end AtV

/-- The pieces read back as the payloads. -/
theorem piecesAre : PiecesAre :=
  ⟨fun c t h0 h1 x0 x1 x2 => accA0_0_eq c t h0 h1 x0 x1 x2, fun c t h0 h1 x0 x1 x2 => accA0_1_eq c t h0 h1 x0 x1 x2,
    fun c t h0 h1 x0 x1 x2 xs0 xs1 => accB0_0_eq c t h0 h1 x0 x1 x2 xs0 xs1,
    fun c t h0 h1 x0 x1 x2 xs0 xs1 => accB0_1_eq c t h0 h1 x0 x1 x2 xs0 xs1,
    fun c t h0 h1 x0 x1 x2 xs0 xs1 => accC0_0_eq c t h0 h1 x0 x1 x2 xs0 xs1,
    fun c t h0 h1 x0 x1 x2 xs0 xs1 => accC0_1_eq c t h0 h1 x0 x1 x2 xs0 xs1⟩

/-- THE FIRST KERNEL'S RESULT: after the region its result array holds the gated hidden array of the rows, the gate
    weights and the up weights as the region found them. -/
theorem gated_final (V : (c : Dev nD) → (b : Ref sig .tc) → Buf (Elt Ideal) ((c : Thread nD τ).loc b)) (c : Dev nD) :
    (dat0 (F := Ideal) V c).arrAt 3 cfg0.N = G V c :=
  gated_final_of V c piecesAre

end Cert.KernelValue

end
-- ==== Proof.KV.Acc1.lean ====
/-
  The accumulation unrolled. The second kernel walks a tile's contraction in four consecutive grid points k = 0, 1, 2, 3.
  With the pieces of a run identified as the body's arithmetic, the accumulator after a point is: at k = 0 one block
  product added to the tile of zeros; at k > 0 one block product added to what the point before left; and the output
  block at k = 3 is the body's last term applied to the accumulator after that point. Chaining the four steps gives the
  accumulator at the tile's last point as four block products added, in order, to the tile of zeros.
-/
import proofs.«163618_j42142219108650_2_alg».proof.Proof.KV.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtV
variable (V : (c : Dev nD) → (b : Ref sig .tc) → Buf (Elt F) ((c : Thread nD τ).loc b))

/-! ## The second kernel -/

/-- The accumulator after a position depends on the position only. -/
theorem accAt1_congr (c : Dev nD) {n m : ℕ} (h : n = m) (hn : n < cfg1.N) (hm : m < cfg1.N) :
    accAt1 V c n hn = accAt1 V c m hm := by subst h; rfl

/-- The point `j` positions before `t` (the point itself when there is none). -/
abbrev back1 (t : Fin cfg1.N) (j : ℕ) : Fin cfg1.N := ⟨t.val - j, Nat.lt_of_le_of_lt (Nat.sub_le _ _) t.isLt⟩

/-- At a tile's first point the accumulator is left at one block product added to zeros. -/
theorem accAt1_first (c : Dev nD) (t : Fin cfg1.N) (h0 : t.val % 4 = 0) :
    accAt1 V c t.val t.isLt = k1_pay2 (k1_pay1 (F := F)) (iblk1 V c 0 t) (iblk1 V c 1 t) :=
  have h1 : ¬t.val % 4 = 3 := by omega
  (accAt1_A V c t h0 h1).trans (accA1_eq c t h0 h1 (iblk1 V c 0 t) (iblk1 V c 1 t))

/-- At every other point it is left at one block product added to what the point before left. -/
theorem accAt1_next (c : Dev nD) (t : Fin cfg1.N) (h0 : ¬t.val % 4 = 0) :
    accAt1 V c t.val t.isLt = k1_pay2 (prev1 V c t) (iblk1 V c 0 t) (iblk1 V c 1 t) := by
  by_cases h1 : t.val % 4 = 3
  · exact (accAt1_C V c t h0 h1).trans (accC1_eq c t h0 h1 (iblk1 V c 0 t) (iblk1 V c 1 t) (prev1 V c t))
  · exact (accAt1_B V c t h0 h1).trans (accB1_eq c t h0 h1 (iblk1 V c 0 t) (iblk1 V c 1 t) (prev1 V c t))

/-- At a tile's last point the output block is left at the copy of the accumulator after that point. -/
theorem outAt1_last (c : Dev nD) (t : Fin cfg1.N) (h1 : t.val % 4 = 3) :
    outAt1 V c t = k1_pay3 (accAt1 V c t.val t.isLt) :=
  have h0 : ¬t.val % 4 = 0 := by omega
  (outAt1_C V c t h0 h1).trans ((outC1_eq c t h0 h1 (iblk1 V c 0 t) (iblk1 V c 1 t) (prev1 V c t)).trans
    (congrArg k1_pay3 (accAt1_next V c t h0).symm))

/-- The accumulator at a tile's last point: the four block products of the tile's four points added, in order, to zeros. -/
theorem accAt1_tile (c : Dev nD) (t : Fin cfg1.N) (h : t.val % 4 = 3) :
    accAt1 V c t.val t.isLt
      = k1_pay2 (k1_pay2 (k1_pay2 (k1_pay2 (k1_pay1 (F := F))
            (iblk1 V c 0 (back1 t 3)) (iblk1 V c 1 (back1 t 3)))
          (iblk1 V c 0 (back1 t 2)) (iblk1 V c 1 (back1 t 2)))
        (iblk1 V c 0 (back1 t 1)) (iblk1 V c 1 (back1 t 1)))
      (iblk1 V c 0 t) (iblk1 V c 1 t) := by
  have e1 : prev1 V c t = accAt1 V c (back1 t 1).val (back1 t 1).isLt := rfl
  have e2 : prev1 V c (back1 t 1) = accAt1 V c (back1 t 2).val (back1 t 2).isLt :=
    accAt1_congr V c (by show t.val - 1 - 1 = t.val - 2; omega) _ _
  have e3 : prev1 V c (back1 t 2) = accAt1 V c (back1 t 3).val (back1 t 3).isLt :=
    accAt1_congr V c (by show t.val - 2 - 1 = t.val - 3; omega) _ _
  rw [accAt1_next V c t (by omega), e1,
    accAt1_next V c (back1 t 1) (by show ¬(t.val - 1) % 4 = 0; omega), e2,
    accAt1_next V c (back1 t 2) (by show ¬(t.val - 2) % 4 = 0; omega), e3,
    accAt1_first V c (back1 t 3) (by show (t.val - 3) % 4 = 0; omega)]

end AtV

end Cert.KernelIdeal.Hand

end
-- ==== Proof.KV.Down.lean ====
/-
  The second kernel's output array after its region is a matrix product.

  The kernel walks 8 x 4 output tiles of 1024 x 1024, each in four consecutive grid points k = 0, 1, 2, 3; point
  t = 16 i + 4 n + k reads block (i, k) of the left array and block (k, n) of the right array, and the point with k = 3
  writes back block (i, n) of the output. With the accumulator at a tile's last point unrolled as four block products
  added in order to zeros, element (p, q) of the block written back is, over the extended reals,
    (((0 + S 0) + S 1) + S 2) + S 3,   S kb = the sum over k < 1024 of left (1024 i + p, 1024 kb + k) * right (1024 kb + k, 1024 n + q),
  which is the sum over all 4096 contraction positions: element (1024 i + p, 1024 n + q) of the product. A block's
  coordinate in its array is always the block index times 1024 plus the coordinate inside the block; the block indices
  are decided once over the 128 points. Every element (r, j) of the output lies in the block of tile (r / 1024, j / 1024),
  whose last point is 16 (r / 1024) + 4 (j / 1024) + 3, so the blocks written back cover the array and it ends holding
  the product.
-/
import proofs.«163618_j42142219108650_2_alg».proof.Proof.KV.Acc1
import proofs.«163618_j42142219108650_2_alg».proof.Proof.PayloadAt
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open scoped BigOperators

open Idealize.ShloMosaic.ValueIdx

/-! ## One tile's value, over variables -/

/-- The accumulator of four block products added in order to zeros, copied out, at element (p, q) of the tile. -/
theorem chain_at (A0 A1 A2 A3 B0 B1 B2 B3 : S1024x1024.Idx → EReal) (p q : Fin 1024) :
    k1_pay3 (F := Ideal) (k1_pay2 (F := Ideal) (k1_pay2 (F := Ideal) (k1_pay2 (F := Ideal) (k1_pay2 (F := Ideal) (k1_pay1 (F := Ideal)) A0 B0) A1 B1) A2 B2) A3 B3) (ix2 p q)
      = (((0 + ∑ k : Fin 1024, A0 (ix2 p k) * B0 (ix2 k q)) + ∑ k : Fin 1024, A1 (ix2 p k) * B1 (ix2 k q))
          + ∑ k : Fin 1024, A2 (ix2 p k) * B2 (ix2 k q)) + ∑ k : Fin 1024, A3 (ix2 p k) * B3 (ix2 k q) := by
  rw [Cert.GatedMlp.k1_pay3_eq, Cert.GatedMlp.k1_pay2_at, Cert.GatedMlp.k1_pay2_at, Cert.GatedMlp.k1_pay2_at,
    Cert.GatedMlp.k1_pay2_at, Cert.GatedMlp.k1_pay1_at]

/-- When the four left tiles are the four consecutive 1024-column blocks of row block `R - p` of a matrix `X` and the four
    right tiles the four consecutive 1024-row blocks of column block `J - q` of a matrix `W`, that element is element
    (R, J) of the product of `X` and `W`. -/
theorem tile_value (A0 A1 A2 A3 B0 B1 B2 B3 : S1024x1024.Idx → EReal) (X : Cert.GatedMlp.S8192x4096.Idx → EReal)
    (W : Cert.GatedMlp.S4096x4096.Idx → EReal) (p q : Fin 1024) (R : Fin 8192) (J : Fin 4096)
    (hA0 : ∀ k : Fin 1024, A0 (ix2 p k) = X (ix2 R (⟨1024 * 0 + k.val, by omega⟩ : Fin 4096)))
    (hA1 : ∀ k : Fin 1024, A1 (ix2 p k) = X (ix2 R (⟨1024 * 1 + k.val, by omega⟩ : Fin 4096)))
    (hA2 : ∀ k : Fin 1024, A2 (ix2 p k) = X (ix2 R (⟨1024 * 2 + k.val, by omega⟩ : Fin 4096)))
    (hA3 : ∀ k : Fin 1024, A3 (ix2 p k) = X (ix2 R (⟨1024 * 3 + k.val, by omega⟩ : Fin 4096)))
    (hB0 : ∀ k : Fin 1024, B0 (ix2 k q) = W (ix2 (⟨1024 * 0 + k.val, by omega⟩ : Fin 4096) J))
    (hB1 : ∀ k : Fin 1024, B1 (ix2 k q) = W (ix2 (⟨1024 * 1 + k.val, by omega⟩ : Fin 4096) J))
    (hB2 : ∀ k : Fin 1024, B2 (ix2 k q) = W (ix2 (⟨1024 * 2 + k.val, by omega⟩ : Fin 4096) J))
    (hB3 : ∀ k : Fin 1024, B3 (ix2 k q) = W (ix2 (⟨1024 * 3 + k.val, by omega⟩ : Fin 4096) J)) :
    k1_pay3 (F := Ideal) (k1_pay2 (F := Ideal) (k1_pay2 (F := Ideal) (k1_pay2 (F := Ideal) (k1_pay2 (F := Ideal) (k1_pay1 (F := Ideal)) A0 B0) A1 B1) A2 B2) A3 B3) (ix2 p q)
      = Cert.GatedMlp.downFlat X W (ix2 R J) := by
  rw [chain_at, Cert.GatedMlp.downFlat_ix2, ← Cert.GatedMlp.accum_blocks (fun n : Fin 4096 => X (ix2 R n) * W (ix2 n J))]
  simp only [hA0, hA1, hA2, hA3, hB0, hB1, hB2, hB3]

/-! ## Where the blocks sit in the arrays -/

/-- The three windows' block indices at a point, decided over the 128 points: point t = 16 i + 4 n + k reads the left
    block (i, k) and the right block (k, n) and writes the output block (i, n). -/
theorem idx_facts1 : ∀ t : Fin cfg1.N, win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = t.val / 16 ∧ win1_2.index t (1 : Fin 2) = t.val / 4 % 4 :=
  (by decide +kernel : ∀ t : Fin grid1.N, _)

section AtV
variable (V : (c : Dev nD) → (b : Ref sig .tc) → Buf (Elt Ideal) ((c : Thread nD τ).loc b))

/-- The left block at a point, at an element: the left matrix at the block's offsets plus the element's. -/
theorem lhs_at (c : Dev nD) (t : Fin cfg1.N) (y : S1024x1024.Idx) (i : S8192x4096.Idx)
    (h0 : (i 0).val = t.val / 16 * 1024 + (y 0).val) (h1 : (i 1).val = t.val % 4 * 1024 + (y 1).val) :
    iblk1 V c 0 t y = V c main_v5 i := by
  obtain ⟨e0, e1, -, -, -, -⟩ := idx_facts1 t
  unfold iblk1
  rw [View.read_apply]
  show V c main_v5 (((cfg1.win 0).blk t).view.emb y) = V c main_v5 i
  refine congrArg _ (funext fun a => Fin.ext ?_)
  match a with
  | ⟨0, _⟩ => show win1_0.index t (0 : Fin 2) * 1024 + 1 * (y 0).val = (i 0).val; omega
  | ⟨1, _⟩ => show win1_0.index t (1 : Fin 2) * 1024 + 1 * (y 1).val = (i 1).val; omega

/-- The right block at a point, at an element. -/
theorem rhs_at (c : Dev nD) (t : Fin cfg1.N) (y : S1024x1024.Idx) (i : S4096x4096.Idx)
    (h0 : (i 0).val = t.val % 4 * 1024 + (y 0).val) (h1 : (i 1).val = t.val / 4 % 4 * 1024 + (y 1).val) :
    iblk1 V c 1 t y = V c main_v4 i := by
  obtain ⟨-, -, e0, e1, -, -⟩ := idx_facts1 t
  unfold iblk1
  rw [View.read_apply]
  show V c main_v4 (((cfg1.win 1).blk t).view.emb y) = V c main_v4 i
  refine congrArg _ (funext fun a => Fin.ext ?_)
  match a with
  | ⟨0, _⟩ => show win1_1.index t (0 : Fin 2) * 1024 + 1 * (y 0).val = (i 0).val; omega
  | ⟨1, _⟩ => show win1_1.index t (1 : Fin 2) * 1024 + 1 * (y 1).val = (i 1).val; omega

end AtV

section AtV2
variable (V : (c : Dev nD) → (b : Ref sig .tc) → Buf (Elt Ideal) ((c : Thread nD τ).loc b))

/-! ## What a tile's last point writes back -/

/-- The point with k = 3 of tile (i, n) writes back block (i, n) of the product of the two arrays the kernel reads. -/
theorem down_flushed (c : Dev nD) (t : Fin cfg1.N) (hf : (cfg1.win 2).flush t = true) :
    (dat1 V c).flushed 2 t
      = ((cfg1.win 2).blk t).view.read (Elt Ideal) (Cert.GatedMlp.downFlat (V c main_v5) (V c main_v4)) := by
  have h3 : t.val % 4 = 3 := (flush1_2 t).mp hf
  have hN : t.val < 128 := lt_of_lt_of_eq t.isLt N_1
  obtain ⟨-, -, -, -, e0, e1⟩ := idx_facts1 t
  show (cfg1.win 2).cut (grid1.coords t) ((dat1 V c).after 2 t) = _
  rw [after1_2, outAt1_last V c t h3, accAt1_tile V c t h3]
  funext y
  rw [View.read_apply]
  have hy0 : (y 0).val < 1024 := (y 0).isLt
  have hy1 : (y 1).val < 1024 := (y 1).isLt
  obtain ⟨p, hp⟩ : ∃ p : Fin 1024, p.val = (y 0).val := ⟨⟨_, hy0⟩, rfl⟩
  obtain ⟨q, hq⟩ : ∃ q : Fin 1024, q.val = (y 1).val := ⟨⟨_, hy1⟩, rfl⟩
  obtain ⟨R, hR⟩ : ∃ R : Fin 8192, R.val = t.val / 16 * 1024 + (y 0).val := ⟨⟨_, by omega⟩, rfl⟩
  obtain ⟨J, hJ⟩ : ∃ J : Fin 4096, J.val = t.val / 4 % 4 * 1024 + (y 1).val := ⟨⟨_, by omega⟩, rfl⟩
  have ey : (cfg1.win 2).xinj (grid1.coords t) y = ix2 p q :=
    funext fun a => Fin.ext (by match a with | ⟨0, _⟩ => exact hp.symm | ⟨1, _⟩ => exact hq.symm)
  have ei : ((cfg1.win 2).blk t).view.emb y = ix2 R J :=
    funext fun a => Fin.ext (by
      match a with
      | ⟨0, _⟩ => show win1_2.index t (0 : Fin 2) * 1024 + 1 * (y 0).val = R.val; omega
      | ⟨1, _⟩ => show win1_2.index t (1 : Fin 2) * 1024 + 1 * (y 1).val = J.val; omega)
  refine (congrArg (k1_pay3 (F := Ideal) _) ey).trans ?_
  refine (tile_value (iblk1 V c 0 (back1 t 3)) (iblk1 V c 0 (back1 t 2)) (iblk1 V c 0 (back1 t 1)) (iblk1 V c 0 t)
    (iblk1 V c 1 (back1 t 3)) (iblk1 V c 1 (back1 t 2)) (iblk1 V c 1 (back1 t 1)) (iblk1 V c 1 t)
    (V c main_v5) (V c main_v4) p q R J
    (fun k => lhs_at V c (back1 t 3) (ix2 p k) (ix2 R (⟨1024 * 0 + k.val, by omega⟩ : Fin 4096))
      (by show R.val = (t.val - 3) / 16 * 1024 + p.val; omega) (by show 1024 * 0 + k.val = (t.val - 3) % 4 * 1024 + k.val; omega))
    (fun k => lhs_at V c (back1 t 2) (ix2 p k) (ix2 R (⟨1024 * 1 + k.val, by omega⟩ : Fin 4096))
      (by show R.val = (t.val - 2) / 16 * 1024 + p.val; omega) (by show 1024 * 1 + k.val = (t.val - 2) % 4 * 1024 + k.val; omega))
    (fun k => lhs_at V c (back1 t 1) (ix2 p k) (ix2 R (⟨1024 * 2 + k.val, by omega⟩ : Fin 4096))
      (by show R.val = (t.val - 1) / 16 * 1024 + p.val; omega) (by show 1024 * 2 + k.val = (t.val - 1) % 4 * 1024 + k.val; omega))
    (fun k => lhs_at V c t (ix2 p k) (ix2 R (⟨1024 * 3 + k.val, by omega⟩ : Fin 4096))
      (by show R.val = t.val / 16 * 1024 + p.val; omega) (by show 1024 * 3 + k.val = t.val % 4 * 1024 + k.val; omega))
    (fun k => rhs_at V c (back1 t 3) (ix2 k q) (ix2 (⟨1024 * 0 + k.val, by omega⟩ : Fin 4096) J)
      (by show 1024 * 0 + k.val = (t.val - 3) % 4 * 1024 + k.val; omega) (by show J.val = (t.val - 3) / 4 % 4 * 1024 + q.val; omega))
    (fun k => rhs_at V c (back1 t 2) (ix2 k q) (ix2 (⟨1024 * 1 + k.val, by omega⟩ : Fin 4096) J)
      (by show 1024 * 1 + k.val = (t.val - 2) % 4 * 1024 + k.val; omega) (by show J.val = (t.val - 2) / 4 % 4 * 1024 + q.val; omega))
    (fun k => rhs_at V c (back1 t 1) (ix2 k q) (ix2 (⟨1024 * 2 + k.val, by omega⟩ : Fin 4096) J)
      (by show 1024 * 2 + k.val = (t.val - 1) % 4 * 1024 + k.val; omega) (by show J.val = (t.val - 1) / 4 % 4 * 1024 + q.val; omega))
    (fun k => rhs_at V c t (ix2 k q) (ix2 (⟨1024 * 3 + k.val, by omega⟩ : Fin 4096) J)
      (by show 1024 * 3 + k.val = t.val % 4 * 1024 + k.val; omega) (by show J.val = t.val / 4 % 4 * 1024 + q.val; omega))).trans ?_
  exact congrArg (Cert.GatedMlp.downFlat (V c main_v5) (V c main_v4)) ei.symm

/-! ## The output blocks tile the array -/

/-- An index of the output array is in the block a point writes back iff each coordinate is in the block's range. -/
theorem mem_blk1_2 (t : Fin cfg1.N) (i : S8192x4096.Idx) :
    i ∈ ((cfg1.win 2).blk t).view.set
      ↔ ∀ a : Fin 2, win1_2.index t a * S1024x1024.size a ≤ (i a).val ∧ (i a).val < win1_2.index t a * S1024x1024.size a + S1024x1024.size a := by
  show i ∈ ((View.whole main_v6).slice (win1_2.rect t)).set ↔ _
  rw [View.set_slice_whole, Rect.mem_set_unit]
  exact Iff.rfl

/-- Row r, column j of the output array is written back by the last point of tile (r / 1024, j / 1024). -/
theorem down_cover (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ : ∃ t : Fin cfg1.N, t.val = 16 * ((i 0).val / 1024) + 4 * ((i 1).val / 1024) + 3 :=
    ⟨⟨_, lt_of_lt_of_eq (by omega : 16 * ((i 0).val / 1024) + 4 * ((i 1).val / 1024) + 3 < 128) N_1.symm⟩, rfl⟩
  obtain ⟨-, -, -, -, e0, e1⟩ := idx_facts1 t
  refine ⟨t, (flush1_2 t).mpr (by omega), ?_⟩
  rw [mem_blk1_2]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-! ## The output array after the region -/

/-- After the second kernel's region its output array holds the product of the two arrays it reads: element (r, j) is
    the sum over the 4096 contraction positions n of the left array at (r, n) times the right array at (n, j). -/
theorem down_final (c : Dev nD) :
    (dat1 V c).arrAt 2 cfg1.N = Cert.GatedMlp.downFlat (V c main_v5) (V c main_v4) :=
  (dat1 V c).arrAt_eq_of_cover 2 (Cert.GatedMlp.downFlat (V c main_v5) (V c main_v4)) (fun t hf => down_flushed V c t hf) down_cover

end AtV2

end Cert.KernelIdeal.Hand

end
-- ==== Proof.KV.Result.lean ====
/-
  The kernel program's result array as a function of its arguments, at the ideal instance: the closing reshape of
  the second kernel's result array; that array is the product of the first kernel's result with the down weights;
  the first kernel's result is the gated activation of its three operands; and those operands are the row-flattened
  hidden states and the gate and up weights as given.
-/
import proofs.«163618_j42142219108650_2_alg».proof.Proof.KV.HostSide
import proofs.«163618_j42142219108650_2_alg».proof.Proof.KV.Gated
import proofs.«163618_j42142219108650_2_alg».proof.Proof.KV.Down

set_option maxRecDepth 16384

noncomputable section

namespace Cert.GatedMlp.Result

open Cert.KernelIdeal Cert.KernelIdeal.Gen Cert.KernelIdeal.Hand
open Idealize.ShloMosaic Idealize.ShloMosaic.TcCoe Idealize.SL.Sem Cert.GatedMlp

variable (m : (ℓ : Loc nD τ sig) → Buf (Elt Ideal) ℓ)

/-- The first kernel's result array after its region: the gated activation of the flattened hidden states. -/
theorem gated_of_args (c : Dev nD) :
    (Hand.V2 (F := Ideal) m c main_v5 : S8192x4096.Idx → EReal)
      = gatedFlat (flattenRows (m ((c : Thread nD τ).loc main_arg0))) (m ((c : Thread nD τ).loc main_arg1)) (m ((c : Thread nD τ).loc main_arg2)) := by
  rw [HostSide.V2_v5, Cert.KernelValue.gated_final (Hand.V1 m) c]
  show gatedFlat (Hand.V1 m c main_v1) (Hand.V1 m c main_v2) (Hand.V1 m c main_v3) = _
  rw [HostSide.V1_v1, HostSide.V1_v2, HostSide.V1_v3]

/-- The program's result. -/
theorem kernel_result (c : Dev nD) :
    W4 (F := Ideal) m c (Proc.devRef .tc main_v7)
      = mlp (m ((c.tc : Thread nD τ).loc main_arg0)) (m ((c.tc : Thread nD τ).loc main_arg1))
          (m ((c.tc : Thread nD τ).loc main_arg2)) (m ((c.tc : Thread nD τ).loc main_arg3)) := by
  refine (HostSide.W4_v7 m c).trans (congrArg unflattenRows ?_)
  rw [HostSide.W3_v6, down_final (Hand.V2 m) c]
  show downFlat (Hand.V2 m c main_v5) (Hand.V2 m c main_v4) = _
  rw [gated_of_args, HostSide.V2_v4, HostSide.V1_v4]

end Cert.GatedMlp.Result

end
-- ==== Proof.lean ====
/-
  The certificate of a gated feed-forward block: hidden states h (4 × 2048 positions, width 4096) and three
  4096 × 4096 weight matrices; the result is ((act (h·Wg)) ∘ (h·Wu)) · Wd with act the tanh-approximate GELU taken
  in a fixed order of operations. The kernel program flattens the positions to 8192 rows and runs two tiled matrix
  kernels, each accumulating its contraction in four blocks of 1024 in a scratch accumulator that starts at zero; the
  reference takes three whole matrix products. Over the extended reals a change of float format is the identity, so
  the two programs differ only in how the contraction sums are grouped, and a sum of extended reals does not depend
  on its grouping.

  The three frames: both kernel programs run to the end with every unscoped buffer at the contents the segments'
  fold names, in which no argument array is ever written; the reference's frame is its run with the result dropped.
  The eight format round trips the idealization removed are each the rule's statement. For the values, the kernel
  program's result array is read off its run: the closing reshape of the second kernel's result, which is the
  down-projection of the first kernel's result, which is the gated activation of the flattened hidden states.
-/
import proofs.«163618_j42142219108650_2_alg».proof.Defs
import proofs.«163618_j42142219108650_2_alg».proof.Proof.Gen.Kernel
import proofs.«163618_j42142219108650_2_alg».proof.Proof.Gen.KernelIdeal
import proofs.«163618_j42142219108650_2_alg».proof.Proof.Gen.ReferenceIdeal
import proofs.«163618_j42142219108650_2_alg».proof.Proof.Gen.Pre_finite_inputs
import proofs.«163618_j42142219108650_2_alg».proof.Proof.Gen.ReferenceIdeal.Run
import proofs.«163618_j42142219108650_2_alg».proof.Proof.Gen.ReferenceIdeal.Read
import proofs.«163618_j42142219108650_2_alg».proof.Proof.K.Run
import proofs.«163618_j42142219108650_2_alg».proof.Proof.KI.Run
import proofs.«163618_j42142219108650_2_alg».proof.Proof.KV.HostSide
import proofs.«163618_j42142219108650_2_alg».proof.Proof.RefIsSpec
import proofs.«163618_j42142219108650_2_alg».proof.Proof.KV.Result
import Idealize.ShloMosaic.Adequacy
import Idealize.ShloMosaic.Init

noncomputable section

namespace Cert.Proof

open Idealize.ShloMosaic Idealize.ShloMosaic.TcCoe Idealize.SL.Sem

open Cert.GatedMlp.Result (kernel_result)

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Each removed round trip through the narrower float format is the rule's statement at the tile's shape. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- Both programs end with the block's value of the argument arrays: the kernel program by its run and the reading of
    its last buffer contents, the reference by its run and the index-by-index reading of its operations. -/
theorem algebraic : Cert.algebraic_KernelIdeal_ReferenceIdeal := by
  intro m ρ m' ρ' _ hagree
  refine ⟨fun c => Cert.GatedMlp.mlp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c =>
      ⟨(h c _ (Cert.KernelIdeal.Hand.mem_uc Cert.KernelIdeal.main_v7 (by decide))).trans (kernel_result m c),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c),
       (h c _ (Cert.KernelIdeal.Hand.mem_uc Cert.KernelIdeal.main_arg2 (by decide))).trans (Cert.KernelIdeal.Hand.W4_main_arg2 m c),
       (h c _ (Cert.KernelIdeal.Hand.mem_uc Cert.KernelIdeal.main_arg3 (by decide))).trans (Cert.KernelIdeal.Hand.W4_main_arg3 m c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v50_eq _ _ _ _).trans (Cert.GatedMlp.ref_is_mlp _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
